-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S2x800000 : Shape := ⟨2, ![2, 800000]⟩
abbrev S50000 : Shape := ⟨1, ![50000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_

variable [Facts]

def fn_part3 {F : FTy → Type} [FloatOps F] (main_arg11 : FVec F S1x1 .f32) (main_arg12 : FVec F S1 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1x1 .f32 := Host.absf main_arg11
  let main_cst_20 : FVec F S_ .f32 := constant S_ .f32 0x7F800000#32
  let main_v55 : FVec F S1x1 .f32 := broadcastInDim S1x1 ![] bcast_S_S1x1 main_cst_20
  let main_v56 : IVec S1x1 1 := cmpf .olt main_v54 main_v55
  let main_c_21 : IVec S_ 1 := constantI S_ 1 1#1
  let main_v57 : IVec S_ 1 := (fun x v => Host.reduce IntOp.andi x v reducesTo_S1x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S64x128 .f32) (main_arg8 : FVec F S128 .f32) (main_arg9 : FVec F S128x1 .f32) (main_arg10 : FVec F S1 .f32) (main_arg11 : FVec F S1x1 .f32) (main_arg12 : FVec F S1 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg9
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_v48 main_v49 main_v50

def fn_part1 {F : FTy → Type} [FloatOps F] (main_arg4 : FVec F S64 .f32) (main_arg5 : FVec F S64x64 .f32) (main_arg6 : FVec F S64 .f32) (main_arg7 : FVec F S64x128 .f32) (main_arg8 : FVec F S128 .f32) (main_arg9 : FVec F S128x1 .f32) (main_arg10 : FVec F S1 .f32) (main_arg11 : FVec F S1x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : FVec F S64x128 .f32) (main_arg8 : FVec F S128 .f32) (main_arg9 : FVec F S128x1 .f32) (main_arg10 : FVec F S1 .f32) (main_arg11 : FVec F S1x1 .f32) (main_arg12 : FVec F S1 .f32) (main_arg13 : IVec S2x800000 32) (main_arg14 : IVec S50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_v13 main_v16
-- ==== Kernel.lean ====
abbrev S50000x64 : Shape := ⟨2, ![50000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S5000x64 : Shape := ⟨2, ![5000, 64]⟩
abbrev S5000x1 : Shape := ⟨2, ![5000, 1]⟩
abbrev S800000x64 : Shape := ⟨2, ![800000, 64]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S1x128 : Shape := ⟨2, ![1, 128]⟩
abbrev S512x128 : Shape := ⟨2, ![512, 128]⟩

abbrev nBuf : Space → Nat
  | .hbm => 107
  | .vmem => 69
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x1, .f32⟩
  | .hbm, ⟨12, _⟩ => ⟨S1, .f32⟩
  | .hbm, ⟨13, _⟩ => ⟨S2x800000, .i32⟩
  | .hbm, ⟨14, _⟩ => ⟨S50000, .i32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S50000x64, .f32⟩
  | .hbm, ⟨34, _⟩ => ⟨S50000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S_, .f32⟩
  | .hbm, ⟨45, _⟩ => ⟨S50000x64, .f32⟩
  | .hbm, ⟨46, _⟩ => ⟨S800000x1, .i32⟩
  | .hbm, ⟨47, _⟩ => ⟨S50000x64, .f32⟩
  | .hbm, ⟨48, _⟩ => ⟨S50000x1, .f32⟩
  | .hbm, ⟨49, _⟩ => ⟨S50000x1, .f32⟩
  | .hbm, ⟨50, _⟩ => ⟨S1x64, .f32⟩
  | .hbm, ⟨51, _⟩ => ⟨S50000x64, .f32⟩
  | .hbm, ⟨52, _⟩ => ⟨S50000x1, .f32⟩
  | .hbm, ⟨53, _⟩ => ⟨S50000x64, .f32⟩
  | .hbm, ⟨54, _⟩ => ⟨S50000x64, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x64, .f32⟩
  | .hbm, ⟨64, _⟩ => ⟨S_, .f32⟩
  | .hbm, ⟨65, _⟩ => ⟨S50000x64, .f32⟩
  | .hbm, ⟨66, _⟩ => ⟨S800000x1, .i32⟩
  | .hbm, ⟨67, _⟩ => ⟨S50000x64, .f32⟩
  | .hbm, ⟨68, _⟩ => ⟨S50000x1, .f32⟩
  | .hbm, ⟨69, _⟩ => ⟨S50000x1, .f32⟩
  | .hbm, ⟨70, _⟩ => ⟨S1x64, .f32⟩
  | .hbm, ⟨71, _⟩ => ⟨S50000x64, .f32⟩
  | .hbm, ⟨72, _⟩ => ⟨S50000x1, .f32⟩
  | .hbm, ⟨73, _⟩ => ⟨S50000x64, .f32⟩
  | .hbm, ⟨74, _⟩ => ⟨S50000x64, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x64, .f32⟩
  | .hbm, ⟨84, _⟩ => ⟨S_, .f32⟩
  | .hbm, ⟨85, _⟩ => ⟨S50000x64, .f32⟩
  | .hbm, ⟨86, _⟩ => ⟨S800000x1, .i32⟩
  | .hbm, ⟨87, _⟩ => ⟨S50000x64, .f32⟩
  | .hbm, ⟨88, _⟩ => ⟨S50000x1, .f32⟩
  | .hbm, ⟨89, _⟩ => ⟨S50000x1, .f32⟩
  | .hbm, ⟨90, _⟩ => ⟨S1x64, .f32⟩
  | .hbm, ⟨91, _⟩ => ⟨S50000x64, .f32⟩
  | .hbm, ⟨92, _⟩ => ⟨S_, .f32⟩
  | .hbm, ⟨93, _⟩ => ⟨S512x64, .f32⟩
  | .hbm, ⟨94, _⟩ => ⟨S50000x1, .i32⟩
  | .hbm, ⟨95, _⟩ => ⟨S512x64, .f32⟩
  | .hbm, ⟨96, _⟩ => ⟨S_, .f32⟩
  | .hbm, ⟨97, _⟩ => ⟨S50000, .f32⟩
  | .hbm, ⟨98, _⟩ => ⟨S_, .f32⟩
  | .hbm, ⟨99, _⟩ => ⟨S512, .f32⟩
  | .hbm, ⟨100, _⟩ => ⟨S50000x1, .i32⟩
  | .hbm, ⟨101, _⟩ => ⟨S512, .f32⟩
  | .hbm, ⟨102, _⟩ => ⟨S512x1, .f32⟩
  | .hbm, ⟨103, _⟩ => ⟨S1x128, .f32⟩
  | .hbm, ⟨104, _⟩ => ⟨S1x1, .f32⟩
  | .hbm, ⟨105, _⟩ => ⟨S1x1, .f32⟩
  | .hbm, ⟨106, _⟩ => ⟨S512x1, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x1, .f32⟩
  | .local _ .vmem, ⟨24, _⟩ => ⟨S5000x1, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x1, .f32⟩
  | .local _ .vmem, ⟨32, _⟩ => ⟨S5000x1, .f32⟩
  | .local _ .vmem, ⟨33, _⟩ => ⟨S5000x64, .f32⟩
  | .local _ .vmem, ⟨34, _⟩ => ⟨S5000x64, .f32⟩
  | .local _ .vmem, ⟨35, _⟩ => ⟨S5000x1, .f32⟩
  | .local _ .vmem, ⟨36, _⟩ => ⟨S5000x1, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S5000x1, .f32⟩
  | .local _ .vmem, ⟨44, _⟩ => ⟨S5000x1, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x1, .f32⟩
  | .local _ .vmem, ⟨52, _⟩ => ⟨S5000x1, .f32⟩
  | .local _ .vmem, ⟨53, _⟩ => ⟨S5000x64, .f32⟩
  | .local _ .vmem, ⟨54, _⟩ => ⟨S5000x64, .f32⟩
  | .local _ .vmem, ⟨55, _⟩ => ⟨S5000x1, .f32⟩
  | .local _ .vmem, ⟨56, _⟩ => ⟨S5000x1, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | .local _ .vmem, ⟨60, _⟩ => ⟨S512x64, .f32⟩
  | .local _ .vmem, ⟨61, _⟩ => ⟨S512x1, .f32⟩
  | .local _ .vmem, ⟨62, _⟩ => ⟨S64x128, .f32⟩
  | .local _ .vmem, ⟨63, _⟩ => ⟨S1x128, .f32⟩
  | .local _ .vmem, ⟨64, _⟩ => ⟨S128x1, .f32⟩
  | .local _ .vmem, ⟨65, _⟩ => ⟨S1x1, .f32⟩
  | .local _ .vmem, ⟨66, _⟩ => ⟨S1x1, .f32⟩
  | .local _ .vmem, ⟨67, _⟩ => ⟨S1x1, .f32⟩
  | .local _ .vmem, ⟨68, _⟩ => ⟨S512x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14_0 : Ref sig .tc := ⟨.hbm, 33, rfl⟩
abbrev main_v14_1 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30_0 : Ref sig .tc := ⟨.hbm, 53, rfl⟩
abbrev main_v30_1 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46_0 : Ref sig .tc := ⟨.hbm, 73, rfl⟩
abbrev main_v46_1 : Ref sig .tc := ⟨.hbm, 74, rfl⟩
abbrev main_c_8 : Ref sig .tc := ⟨.hbm, 75, rfl⟩
abbrev main_v47 : Ref sig .tc := ⟨.hbm, 76, rfl⟩
abbrev main_v48 : Ref sig .tc := ⟨.hbm, 77, rfl⟩
abbrev main_c_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg2_1 : Ref sig .tc := ⟨.vmem, 44, rfl⟩
abbrev cc4_stg3_0 : Ref sig .tc := ⟨.vmem, 45, rfl⟩
abbrev cc4_stg3_1 : Ref sig .tc := ⟨.vmem, 46, rfl⟩
abbrev cc4_stg4_0 : Ref sig .tc := ⟨.vmem, 47, rfl⟩
abbrev cc4_stg4_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg3_1 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc6_stg0_0 : Ref sig .tc := ⟨.vmem, 60, rfl⟩
abbrev cc6_stg1_0 : Ref sig .tc := ⟨.vmem, 61, rfl⟩
abbrev cc6_stg2_0 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg5_0 : Ref sig .tc := ⟨.vmem, 65, rfl⟩
abbrev cc6_stg6_0 : Ref sig .tc := ⟨.vmem, 66, rfl⟩
abbrev cc6_stg7_0 : Ref sig .tc := ⟨.vmem, 67, rfl⟩
abbrev cc6_stg8_0 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem2_1 : DmaSem sig := 44
abbrev cc4_sem3_0 : DmaSem sig := 45
abbrev cc4_sem3_1 : DmaSem sig := 46
abbrev cc4_sem4_0 : DmaSem sig := 47
abbrev cc4_sem4_1 : DmaSem sig := 48
abbrev cc5_sem0_0 : DmaSem sig := 49
abbrev cc5_sem0_1 : DmaSem sig := 50
abbrev cc5_sem1_0 : DmaSem sig := 51
abbrev cc5_sem1_1 : DmaSem sig := 52
abbrev cc5_sem2_0 : DmaSem sig := 53
abbrev cc5_sem2_1 : DmaSem sig := 54
abbrev cc5_sem3_0 : DmaSem sig := 55
abbrev cc5_sem3_1 : DmaSem sig := 56
abbrev cc5_sem4_0 : DmaSem sig := 57
abbrev cc5_sem5_0 : DmaSem sig := 58
abbrev cc5_sem5_1 : DmaSem sig := 59
abbrev cc6_sem0_0 : DmaSem sig := 60
abbrev cc6_sem1_0 : DmaSem sig := 61
abbrev cc6_sem2_0 : DmaSem sig := 62
abbrev cc6_sem3_0 : DmaSem sig := 63
abbrev cc6_sem4_0 : DmaSem sig := 64
abbrev cc6_sem5_0 : DmaSem sig := 65
abbrev cc6_sem6_0 : DmaSem sig := 66
abbrev cc6_sem7_0 : DmaSem sig := 67
abbrev cc6_sem8_0 : DmaSem sig := 68

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S512x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x1 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S512x1 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  shapeCasts_S512_S512x1 : S512.ShapeCasts S512x1
  shapeCasts_S128_S1x128 : S128.ShapeCasts S1x128
  shapeCasts_S1_S1x1 : S1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S512x1_S512x64 : S512x1.Broadcasts S512x64
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x128_S512x128_1_0_0_1_n_n_wf : DotDims.WF S512x64 S64x128 S512x128 [1] [0] [0] [1] [] []
  dot_S512x128_S128x1_S512x1_1_0_0_1_n_n_wf : DotDims.WF S512x128 S128x1 S512x1 [1] [0] [0] [1] [] []
  dot_S512x1_S1x1_S512x1_1_0_0_1_n_n_wf : DotDims.WF S512x1 S1x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S50000x1.size a
  hwx5_3 : ∀ i : grid5.Coords, EltTy.bits .f32 = 32 ∨ (Rect.block (s := S50000x1) S5000x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x64.size a ≤ S512x64.size a
  hwx6_0 : ∀ i : grid6.Coords, EltTy.bits .f32 = 32 ∨ (Rect.block (s := S512x64) S512x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x1.size a ≤ S512x1.size a
  hwx6_1 : ∀ i : grid6.Coords, EltTy.bits .f32 = 32 ∨ (Rect.block (s := S512x1) S512x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x1.size a ≤ S128x1.size a
  hwx6_4 : ∀ i : grid6.Coords, EltTy.bits .f32 = 32 ∨ (Rect.block (s := S128x1) S128x1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x1.size a ≤ S1x1.size a
  hwx6_5 : ∀ i : grid6.Coords, EltTy.bits .f32 = 32 ∨ (Rect.block (s := S1x1) S1x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x1.size a ≤ S1x1.size a
  hwx6_7 : ∀ i : grid6.Coords, EltTy.bits .f32 = 32 ∨ (Rect.block (s := S1x1) S1x1.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S512x1.size a ≤ S512x1.size a
  hwx6_8 : ∀ i : grid6.Coords, EltTy.bits .f32 = 32 ∨ (Rect.block (s := S512x1) S512x1.size (cc6_transform_8 i) (hinb6_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf
def dot_S512x1_S1x1_S512x1_1_0_0_1_n_n : DotDims S512x1 S1x1 S512x1 where
  lhsContracting := [1]
  rhsContracting := [0]
  lhsNonContracting := [0]
  rhsNonContracting := [1]
  lhsBatch := []
  rhsBatch := []
  wf := dot_S512x1_S1x1_S512x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_0) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v28) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30_0) S5000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v30_1) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v40) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v30_0) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v42) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v43) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v44) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v45) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v46_0) S5000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v46_1) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v56) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v46_0) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v58) S5000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v59) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v60) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v63) S512x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v68) S512x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg7) S64x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v69) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg9) S128x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v70) S1x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg11) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v71) S1x1.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v72) S512x1.size cc6_transform_8 reads6_8 true true 1 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S512x128 : Shape := ⟨2, ![512, 128]⟩
abbrev S1x128 : Shape := ⟨2, ![1, 128]⟩

abbrev nBuf : Space → Nat
  | .hbm => 158
  | .vmem => 0
  | .smem => 0
  | _ => 0

abbrev hbmTy0_0 (i : Nat) : BufTy := match i % 128 with
  | 0 => ⟨S50000x64, .f32⟩
  | 1 => ⟨S64x64, .f32⟩
  | 2 => ⟨S64, .f32⟩
  | 3 => ⟨S64x64, .f32⟩
  | 4 => ⟨S64, .f32⟩
  | 5 => ⟨S64x64, .f32⟩
  | 6 => ⟨S64, .f32⟩
  | 7 => ⟨S64x128, .f32⟩
  | 8 => ⟨S128, .f32⟩
  | 9 => ⟨S128x1, .f32⟩
  | 10 => ⟨S1, .f32⟩
  | 11 => ⟨S1x1, .f32⟩
  | 12 => ⟨S1, .f32⟩
  | 13 => ⟨S2x800000, .i32⟩
  | 14 => ⟨S50000, .i32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S_, .f32⟩
  | 30 => ⟨S50000, .f32⟩
  | 31 => ⟨S50000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S50000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S800000x1, .f32⟩
  | 62 => ⟨S800000x64, .f32⟩
  | 63 => ⟨S800000x64, .f32⟩
  | 64 => ⟨S_, .f32⟩
  | 65 => ⟨S50000x64, .f32⟩
  | 66 => ⟨S800000x1, .i32⟩
  | 67 => ⟨S50000x64, .f32⟩
  | 68 => ⟨S50000x1, .f32⟩
  | 69 => ⟨S50000x64, .f32⟩
  | 70 => ⟨S50000x64, .f32⟩
  | 71 => ⟨S50000x64, .f32⟩
  | 72 => ⟨S1x64, .f32⟩
  | 73 => ⟨S50000x64, .f32⟩
  | 74 => ⟨S50000x64, .f32⟩
  | 75 => ⟨S50000x64, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x64, .f32⟩
  | 85 => ⟨S800000x1, .f32⟩
  | 86 => ⟨S800000x64, .f32⟩
  | 87 => ⟨S800000x64, .f32⟩
  | 88 => ⟨S_, .f32⟩
  | 89 => ⟨S50000x64, .f32⟩
  | 90 => ⟨S800000x1, .i32⟩
  | 91 => ⟨S50000x64, .f32⟩
  | 92 => ⟨S50000x1, .f32⟩
  | 93 => ⟨S50000x64, .f32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S50000x64, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x64, .f32⟩
  | 109 => ⟨S800000x1, .f32⟩
  | 110 => ⟨S800000x64, .f32⟩
  | 111 => ⟨S800000x64, .f32⟩
  | 112 => ⟨S_, .f32⟩
  | 113 => ⟨S50000x64, .f32⟩
  | 114 => ⟨S800000x1, .i32⟩
  | 115 => ⟨S50000x64, .f32⟩
  | 116 => ⟨S50000x1, .f32⟩
  | 117 => ⟨S50000x64, .f32⟩
  | 118 => ⟨S50000x64, .f32⟩
  | 119 => ⟨S50000x64, .f32⟩
  | 120 => ⟨S1x64, .f32⟩
  | 121 => ⟨S50000x64, .f32⟩
  | 122 => ⟨S50000x64, .f32⟩
  | 123 => ⟨S_, .f32⟩
  | 124 => ⟨S512x64, .f32⟩
  | 125 => ⟨S50000x1, .i32⟩
  | 126 => ⟨S512x64, .f32⟩
  | 127 => ⟨S_, .f32⟩
  | _ => ⟨S50000x64, .f32⟩

abbrev hbmTy0_1 (i : Nat) : BufTy := match i % 128 with
  | 0 => ⟨S50000, .f32⟩
  | 1 => ⟨S_, .f32⟩
  | 2 => ⟨S512, .f32⟩
  | 3 => ⟨S50000x1, .i32⟩
  | 4 => ⟨S512, .f32⟩
  | 5 => ⟨S_, .f32⟩
  | 6 => ⟨S512, .f32⟩
  | 7 => ⟨S512, .f32⟩
  | 8 => ⟨S512x1, .f32⟩
  | 9 => ⟨S512x64, .f32⟩
  | 10 => ⟨S512x64, .f32⟩
  | 11 => ⟨S512x128, .f32⟩
  | 12 => ⟨S1x128, .f32⟩
  | 13 => ⟨S512x128, .f32⟩
  | 14 => ⟨S512x128, .f32⟩
  | 15 => ⟨S512x1, .f32⟩
  | 16 => ⟨S1x1, .f32⟩
  | 17 => ⟨S512x1, .f32⟩
  | 18 => ⟨S512x1, .f32⟩
  | 19 => ⟨S512x1, .f32⟩
  | 20 => ⟨S1x1, .f32⟩
  | 21 => ⟨S512x1, .f32⟩
  | 22 => ⟨S512x1, .f32⟩
  | 23 => ⟨S_, .f32⟩
  | 24 => ⟨S512x1, .f32⟩
  | 25 => ⟨S512x1, .i1⟩
  | 26 => ⟨S_, .f32⟩
  | 27 => ⟨S512x1, .f32⟩
  | 28 => ⟨S512x1, .f32⟩
  | 29 => ⟨S512x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_8 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_9 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_12 : Ref sig .tc := ⟨.hbm, 100, rfl⟩
abbrev main_v71 : Ref sig .tc := ⟨.hbm, 101, rfl⟩
abbrev main_v72 : Ref sig .tc := ⟨.hbm, 102, rfl⟩
abbrev main_c_13 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_14 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_15 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_16 : Ref sig .tc := ⟨.hbm, 127, rfl⟩
abbrev main_v94 : Ref sig .tc := ⟨.hbm, 128, rfl⟩
abbrev main_cst_17 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_18 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_19 : Ref sig .tc := ⟨.hbm, 151, rfl⟩
abbrev main_v115 : Ref sig .tc := ⟨.hbm, 152, rfl⟩
abbrev main_v116 : Ref sig .tc := ⟨.hbm, 153, rfl⟩
abbrev main_cst_20 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x128_S512x128_1_0_0_1_n_n_wf : DotDims.WF S512x64 S64x128 S512x128 [1] [0] [0] [1] [] []
  dot_S512x128_S128x1_S512x1_1_0_0_1_n_n_wf : DotDims.WF S512x128 S128x1 S512x1 [1] [0] [0] [1] [] []
  dot_S512x1_S1x1_S512x1_1_0_0_1_n_n_wf : DotDims.WF S512x1 S1x1 S512x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf
def dot_S512x1_S1x1_S512x1_1_0_0_1_n_n : DotDims S512x1 S1x1 S512x1 where
  lhsContracting := [1]
  rhsContracting := [0]
  lhsNonContracting := [0]
  rhsNonContracting := [1]
  lhsBatch := []
  rhsBatch := []
  wf := dot_S512x1_S1x1_S512x1_1_0_0_1_n_n_wf

class Facts : Prop extends Facts₀ where

variable [Facts]
-- ==== Proof.KRun.lean ====
/-
  The idealized kernel's run with its result named.

  The program is seven launches among stretches of host operations. Its run ends with every unscoped buffer at the
  contents of the last boundary; read at the result buffer this names the result, and read at the fifteen argument
  buffers it says they end as launched.
-/
import proofs.«141009_j73254962200757_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run : θ_run defs (onTc (τ := τ) (main (F := F))) ⟨m, fun _ => 0, ρ⟩ (fun r => ∀ c : Dev nD,
      r.2.mem ((c.tc : Thread nD τ).loc main_v72) = W14 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v72 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c)⟩)

end Cert.KernelIdeal.Hand

end
-- ==== Proof.LibProd.lean ====
/-
  The plain product of an A by K array and a K by B array over the extended reals: entry (p, q) is the sum over the
  contracted index J of l (p, J) · r (J, q).  Both programs' products are stated against this one function.
-/
import Idealize.ShloMosaic.Lib.ValueIdx
import Idealize.ShloMosaic.PureOps.Ideal

noncomputable section

namespace Cert.LibProd

open Idealize.ShloMosaic Idealize.ShloMosaic.ValueIdx

/-- The product, index by index. -/
def prod {A K B : ℕ} (l : (⟨2, ![A, K]⟩ : Shape).Idx → EReal) (r : (⟨2, ![K, B]⟩ : Shape).Idx → EReal) :
    (⟨2, ![A, B]⟩ : Shape).Idx → EReal :=
  fun i => ∑ J : Fin K, l (ix2 (i 0) J) * r (ix2 J (i 1))

theorem prod_ix2 {A K B : ℕ} (l : (⟨2, ![A, K]⟩ : Shape).Idx → EReal) (r : (⟨2, ![K, B]⟩ : Shape).Idx → EReal) (p : Fin A) (q : Fin B) :
    prod l r (ix2 p q) = ∑ J : Fin K, l (ix2 p J) * r (ix2 J q) := rfl

end Cert.LibProd

end
-- ==== Proof.Spec.lean ====
/-
  The graph network, index by index, over the extended reals.

  Nodes n < 50000 carry 64 features; the edge list has two rows of 800000 signed 32-bit words: row 0 the source
  of an edge, row 1 its destination. An edge e COUNTS FOR node n when its destination word, read signed, is n
  (an edge whose destination is outside [0, 50000) counts for no node). Its source row is found by wrapping a
  negative word once by 50000 and clamping the result into [0, 49999].

    deg n  = 0 + (sum over the edges counting for n of 1) + 1
    dis n  = 1 / sqrt (deg n),   dinv n = 1 / deg n

  One layer takes features X, a weight matrix W and a bias b. With H = X W,

    layer X W b (n, d) = (dis n * (0 + sum over the edges e counting for n of H (src e, d) * dis (src e))
                           + dinv n * H (n, d)) + b d.                                   (the factor dis n outside)

  The other arrangement of the same layer keeps the factor inside the sum, as dis (src e) * dis (dst e) with
  dst e the destination word wrapped and clamped like a source:

    layerIn X W b (n, d) = ((0 + sum over the edges e counting for n of H (src e, d) * (dis (src e) * dis (dst e)))
                           + dinv n * H (n, d)) + b d.

  After three layers the node features are summed per graph (a node counts for graph g when its word of the batch
  vector, read signed, is g), divided by max (number of nodes of the graph) 1, and sent through three affine maps
  and a leaky rectifier of slope 0.01 (as the 32-bit float of that decimal).
-/
import Idealize.ShloMosaic.PureOps.Ideal
import Idealize.ShloMosaic.PureOps.Ideal.Laws
import Idealize.ShloMosaic.Lib.ValueIdx
import proofs.«141009_j73254962200757_2_alg».proof.Proof.LibProd

noncomputable section

open scoped BigOperators

namespace Cert.GCN

open Idealize.ShloMosaic Idealize.ShloMosaic.ValueIdx Cert.LibProd

/-- The three float literals of both programs, as the extended reals their words denote. -/
abbrev one32 : EReal := Ideal.ofBits .f32 0x3F800000#32
abbrev zero32 : EReal := Ideal.ofBits .f32 0x00000000#32
abbrev slope32 : EReal := Ideal.ofBits .f32 0x3C23D70A#32

abbrev SN64 : Shape := ⟨2, ![50000, 64]⟩
abbrev SN1 : Shape := ⟨2, ![50000, 1]⟩
abbrev SN : Shape := ⟨1, ![50000]⟩
abbrev SEI : Shape := ⟨2, ![2, 800000]⟩

/-- A negative word counted from the end of an axis of extent 50000 (32-bit arithmetic). -/
def wrapN (v : BitVec 32) : BitVec 32 := Scalar.select (IntOp.cmpi .slt v 0#32) (IntOp.addi v 50000#32) v

/-- A word read signed and clamped into [0, 49999]. -/
def gpos (v : BitVec 32) : Fin 50000 := ⟨min v.toInt.toNat (50000 - 1), by omega⟩

/-- The source row of edge e. -/
def srcp (ei : IVec SEI 32) (e : Fin 800000) : Fin 50000 := gpos (wrapN (ei (ix2 (0 : Fin 2) e)))

/-- The destination row of edge e as a gather finds it (wrapped and clamped). -/
def dstp (ei : IVec SEI 32) (e : Fin 800000) : Fin 50000 := gpos (wrapN (ei (ix2 (1 : Fin 2) e)))

/-- The edges counting for node n. -/
def inEdges (ei : IVec SEI 32) (n : Fin 50000) : Finset (Fin 800000) :=
  Finset.univ.filter fun e => (ei (ix2 (1 : Fin 2) e)).toInt = (n.val : ℤ)

def deg (ei : IVec SEI 32) (n : Fin 50000) : EReal := (zero32 + ∑ _e ∈ inEdges ei n, one32) + one32
def dis (ei : IVec SEI 32) (n : Fin 50000) : EReal := Ideal.rsqrt (deg ei n)
def dinv (ei : IVec SEI 32) (n : Fin 50000) : EReal := Ideal.div one32 (deg ei n)

/-! ## What each kind of kernel region leaves, as a function of the whole arrays it is given -/

/-- Features scaled row by row by a column. -/
def scaled (H : FVec Ideal SN64 .f32) (D1 : FVec Ideal SN1 .f32) : FVec Ideal SN64 .f32 :=
  fun i => H i * D1 (ix2 (i 0) (0 : Fin 1))

/-- column * A + column' * H + bias row. -/
def combine (A : FVec Ideal SN64 .f32) (D1 : FVec Ideal SN1 .f32) (H : FVec Ideal SN64 .f32) (DI1 : FVec Ideal SN1 .f32)
    (B1 : FVec Ideal (⟨2, ![1, 64]⟩ : Shape) .f32) : FVec Ideal SN64 .f32 :=
  fun i => (D1 (ix2 (i 0) (0 : Fin 1)) * A i + DI1 (ix2 (i 0) (0 : Fin 1)) * H i) + B1 (ix2 (0 : Fin 1) (i 1))

/-- The leaky rectifier. -/
def leaky (x : EReal) : EReal := Scalar.select (Ideal.cmp .oge x zero32) x (slope32 * x)

/-- Per-graph sums divided by max count 1. -/
def pooled (S : FVec Ideal (⟨2, ![512, 64]⟩ : Shape) .f32) (C1 : FVec Ideal (⟨2, ![512, 1]⟩ : Shape) .f32) :
    FVec Ideal (⟨2, ![512, 64]⟩ : Shape) .f32 :=
  fun i => Ideal.div (S i) (max (C1 (ix2 (i 0) (0 : Fin 1))) one32)

/-- The three affine maps and the rectifier, biases as rows. -/
def headK (S : FVec Ideal (⟨2, ![512, 64]⟩ : Shape) .f32) (C1 : FVec Ideal (⟨2, ![512, 1]⟩ : Shape) .f32)
    (w1 : FVec Ideal (⟨2, ![64, 128]⟩ : Shape) .f32) (B1 : FVec Ideal (⟨2, ![1, 128]⟩ : Shape) .f32)
    (w2 : FVec Ideal (⟨2, ![128, 1]⟩ : Shape) .f32) (B2 : FVec Ideal (⟨2, ![1, 1]⟩ : Shape) .f32)
    (w3 : FVec Ideal (⟨2, ![1, 1]⟩ : Shape) .f32) (B3 : FVec Ideal (⟨2, ![1, 1]⟩ : Shape) .f32) :
    FVec Ideal (⟨2, ![512, 1]⟩ : Shape) .f32 :=
  let h1 : FVec Ideal (⟨2, ![512, 128]⟩ : Shape) .f32 := fun j => prod (pooled S C1) w1 j + B1 (ix2 (0 : Fin 1) (j 1))
  let h2 : FVec Ideal (⟨2, ![512, 1]⟩ : Shape) .f32 := fun j => prod h1 w2 j + B2 (ix2 (0 : Fin 1) (j 1))
  let h3 : FVec Ideal (⟨2, ![512, 1]⟩ : Shape) .f32 := fun j => prod h2 w3 j + B3 (ix2 (0 : Fin 1) (j 1))
  fun i => leaky (h3 i)

/-! ## The host's steps between the regions -/

/-- A vector as a column. -/
def col {A : ℕ} (f : Fin A → EReal) : FVec Ideal (⟨2, ![A, 1]⟩ : Shape) .f32 := fun i => f (i 0)
/-- A vector as a row. -/
def row {B : ℕ} (b : FVec Ideal (⟨1, ![B]⟩ : Shape) .f32) : FVec Ideal (⟨2, ![1, B]⟩ : Shape) .f32 := fun i => b (ix1 (i 1))

/-- Rows taken at the edges' sources and added at the edges' destinations, into zero. -/
def edgeSum (ei : IVec SEI 32) (T : FVec Ideal SN64 .f32) : FVec Ideal SN64 .f32 :=
  fun i => zero32 + ∑ e ∈ inEdges ei (i 0), T (ix2 (srcp ei e) (i 1))

/-- One layer, the factor dis n outside the sum. -/
def layer (ei : IVec SEI 32) (X : FVec Ideal SN64 .f32) (W : FVec Ideal (⟨2, ![64, 64]⟩ : Shape) .f32)
    (b : FVec Ideal (⟨1, ![64]⟩ : Shape) .f32) : FVec Ideal SN64 .f32 :=
  combine (edgeSum ei (scaled (prod X W) (col (dis ei)))) (col (dis ei)) (prod X W) (col (dinv ei)) (row b)

/-- One layer, the factor inside the sum. -/
def layerIn (ei : IVec SEI 32) (X : FVec Ideal SN64 .f32) (W : FVec Ideal (⟨2, ![64, 64]⟩ : Shape) .f32)
    (b : FVec Ideal (⟨1, ![64]⟩ : Shape) .f32) : FVec Ideal SN64 .f32 :=
  fun i => ((zero32 + ∑ e ∈ inEdges ei (i 0), prod X W (ix2 (srcp ei e) (i 1)) * (dis ei (srcp ei e) * dis ei (dstp ei e)))
      + dinv ei (i 0) * prod X W i) + b (ix1 (i 1))

/-- The nodes counting for graph g. -/
def segOf (bt : IVec SN 32) (g : Fin 512) : Finset (Fin 50000) :=
  Finset.univ.filter fun n => (bt (ix1 n)).toInt = (g.val : ℤ)

def sums (bt : IVec SN 32) (Y : FVec Ideal SN64 .f32) : FVec Ideal (⟨2, ![512, 64]⟩ : Shape) .f32 :=
  fun i => zero32 + ∑ n ∈ segOf bt (i 0), Y (ix2 n (i 1))

def cnt (bt : IVec SN 32) (g : Fin 512) : EReal := zero32 + ∑ _n ∈ segOf bt g, one32

/-- The whole network, layers in the arrangement L. -/
def net (L : IVec SEI 32 → FVec Ideal SN64 .f32 → FVec Ideal (⟨2, ![64, 64]⟩ : Shape) .f32 → FVec Ideal (⟨1, ![64]⟩ : Shape) .f32 → FVec Ideal SN64 .f32)
    (x : FVec Ideal SN64 .f32)
    (W0 : FVec Ideal (⟨2, ![64, 64]⟩ : Shape) .f32) (b0 : FVec Ideal (⟨1, ![64]⟩ : Shape) .f32)
    (W1 : FVec Ideal (⟨2, ![64, 64]⟩ : Shape) .f32) (b1 : FVec Ideal (⟨1, ![64]⟩ : Shape) .f32)
    (W2 : FVec Ideal (⟨2, ![64, 64]⟩ : Shape) .f32) (b2 : FVec Ideal (⟨1, ![64]⟩ : Shape) .f32)
    (w1 : FVec Ideal (⟨2, ![64, 128]⟩ : Shape) .f32) (c1 : FVec Ideal (⟨1, ![128]⟩ : Shape) .f32)
    (w2 : FVec Ideal (⟨2, ![128, 1]⟩ : Shape) .f32) (c2 : FVec Ideal (⟨1, ![1]⟩ : Shape) .f32)
    (w3 : FVec Ideal (⟨2, ![1, 1]⟩ : Shape) .f32) (c3 : FVec Ideal (⟨1, ![1]⟩ : Shape) .f32)
    (ei : IVec SEI 32) (bt : IVec SN 32) : FVec Ideal (⟨2, ![512, 1]⟩ : Shape) .f32 :=
  headK (sums bt (L ei (L ei (L ei x W0 b0) W1 b1) W2 b2)) (col (cnt bt)) w1 (row c1) w2 (row c2) w3 (row c3)

end Cert.GCN

end
-- ==== Proof.SpecApply.lean ====
/-
  The specification's small functions read at an index, each over plain variables, so that later proofs rewrite
  with them instead of unfolding (an unfolding against a concrete degree would start summing over every edge).
-/
import proofs.«141009_j73254962200757_2_alg».proof.Proof.Spec

noncomputable section

open scoped BigOperators

namespace Cert.GCN

open Idealize.ShloMosaic Idealize.ShloMosaic.ValueIdx Cert.LibProd

theorem col_apply {A : ℕ} (f : Fin A → EReal) (n : Fin A) (u : Fin 1) : col f (ix2 n u) = f n := by
  unfold col; rfl

theorem row_apply {B : ℕ} (b : FVec Ideal (⟨1, ![B]⟩ : Shape) .f32) (u : Fin 1) (q : Fin B) : row b (ix2 u q) = b (ix1 q) := by
  unfold row; rfl

theorem scaled_apply (H : FVec Ideal SN64 .f32) (D1 : FVec Ideal SN1 .f32) (n : Fin 50000) (q : Fin 64) :
    scaled H D1 (ix2 n q) = H (ix2 n q) * D1 (ix2 n (0 : Fin 1)) := by
  unfold scaled; rfl

theorem combine_apply (A : FVec Ideal SN64 .f32) (D1 : FVec Ideal SN1 .f32) (H : FVec Ideal SN64 .f32) (DI1 : FVec Ideal SN1 .f32)
    (B1 : FVec Ideal (⟨2, ![1, 64]⟩ : Shape) .f32) (n : Fin 50000) (q : Fin 64) :
    combine A D1 H DI1 B1 (ix2 n q)
      = (D1 (ix2 n (0 : Fin 1)) * A (ix2 n q) + DI1 (ix2 n (0 : Fin 1)) * H (ix2 n q)) + B1 (ix2 (0 : Fin 1) q) := by
  unfold combine; rfl

theorem edgeSum_apply (ei : IVec SEI 32) (T : FVec Ideal SN64 .f32) (n : Fin 50000) (q : Fin 64) :
    edgeSum ei T (ix2 n q) = zero32 + ∑ e ∈ inEdges ei n, T (ix2 (srcp ei e) q) := by
  unfold edgeSum; rfl

end Cert.GCN

end
-- ==== Proof.LibKeepdims.lean ====
/-
  A reduction over the last axis kept as a unit axis, read at an index.

  A vector of `a` numbers viewed as an `a × 1` column holds, at (i, u), the vector's entry i, whatever the unit
  coordinate u; and an `a × 1` column spread over `b` columns holds, at (p, c), the column's entry (p, 0): every
  entry of row p is that row's one number. Together they read the common pattern "sum each row, keep the axis,
  combine with the matrix again" at an entry (p, c) as the row sum of row p.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the one entry of the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.LibPlainDims.lean ====
/-
  The dimension record of a plain matrix product: an A by K matrix times a K by B matrix, the left operand
  contracted on its second axis and the right on its first, no batch axes. Whatever record spells this pattern,
  its contraction index has one coordinate of extent K, the left operand is read at (row, k) and the right at
  (k, column). These are the six facts the entry-wise readings of a product ask for.
-/
import Idealize.ShloMosaic.PureOps.Dims
import Idealize.ShloMosaic.Lib.ValueIdx

namespace Cert.LibPlainDims

open Idealize.ShloMosaic Idealize.ShloMosaic.ValueIdx

/-- The coordinate facts of a plain product's dimension record. -/
structure PlainFacts {A K B : ℕ} (d : DotDims (⟨2, ![A, K]⟩ : Shape) (⟨2, ![K, B]⟩ : Shape) (⟨2, ![A, B]⟩ : Shape)) : Prop where
  rank : d.contr.rank = 1
  size : d.contr.size ⟨0, by omega⟩ = K
  l0 : ∀ i q, (d.lhsIdx i q (0 : Fin 2)).val = (i (0 : Fin 2)).val
  l1 : ∀ i q, (d.lhsIdx i q (1 : Fin 2)).val = (q ⟨0, by omega⟩).val
  r0 : ∀ i q, (d.rhsIdx i q (0 : Fin 2)).val = (q ⟨0, by omega⟩).val
  r1 : ∀ i q, (d.rhsIdx i q (1 : Fin 2)).val = (i (1 : Fin 2)).val

/-- Any record with the plain pattern's six lists has the coordinate facts. -/
theorem plainFacts {A K B : ℕ} (d : DotDims (⟨2, ![A, K]⟩ : Shape) (⟨2, ![K, B]⟩ : Shape) (⟨2, ![A, B]⟩ : Shape))
    (hlc : d.lhsContracting = [1]) (hrc : d.rhsContracting = [0]) (hln : d.lhsNonContracting = [0])
    (hrn : d.rhsNonContracting = [1]) (hlb : d.lhsBatch = []) (hrb : d.rhsBatch = []) : PlainFacts d := by
  obtain ⟨lc, rc, ln, rn, lb, rb, wf⟩ := d
  simp only at hlc hrc hln hrn hlb hrb
  subst hlc hrc hln hrn hlb hrb
  refine ⟨rfl, rfl, ?_, ?_, ?_, ?_⟩
  · intro i q
    unfold DotDims.lhsIdx
    rw [dif_neg (show ¬ (0 : Fin (⟨2, ![A, K]⟩ : Shape).rank) ∈ (DotDims.mk (so := (⟨2, ![A, B]⟩ : Shape)) [1] [0] [0] [1] [] [] wf).lhsBatch from List.not_mem_nil),
      dif_pos (show (0 : Fin (⟨2, ![A, K]⟩ : Shape).rank) ∈ (DotDims.mk (so := (⟨2, ![A, B]⟩ : Shape)) [1] [0] [0] [1] [] [] wf).lhsNonContracting from List.mem_singleton.mpr rfl)]
    rfl
  · intro i q
    exact DotDims.lhsIdx_val_of_single _ rfl i q
  · intro i q
    exact DotDims.rhsIdx_val_of_single _ rfl i q
  · intro i q
    unfold DotDims.rhsIdx
    rw [dif_neg (show ¬ (1 : Fin (⟨2, ![K, B]⟩ : Shape).rank) ∈ (DotDims.mk (sl := (⟨2, ![A, K]⟩ : Shape)) (so := (⟨2, ![A, B]⟩ : Shape)) [1] [0] [0] [1] [] [] wf).rhsBatch from List.not_mem_nil),
      dif_pos (show (1 : Fin (⟨2, ![K, B]⟩ : Shape).rank) ∈ (DotDims.mk (sl := (⟨2, ![A, K]⟩ : Shape)) (so := (⟨2, ![A, B]⟩ : Shape)) [1] [0] [0] [1] [] [] wf).rhsNonContracting from List.mem_singleton.mpr rfl)]
    rfl

end Cert.LibPlainDims
-- ==== Proof.KLin0.lean ====
/-
  What the first launch (the linear transform of layer 1) leaves in its two output arrays.

  The node axis is cut into ten tiles of 5000 rows. At tile t the body multiplies rows 5000 t … 5000 t + 4999 of
  the features by the whole weight matrix (both factors first rounded to a narrower format, which changes nothing
  over the extended reals; the accumulator starts at zero) and stores the product; it stores it a second time with
  every row scaled by that row's entry of a column. Row r of the product depends only on row r of the features, so
  the ten tiles written back are the ten row blocks of ONE array: the plain product X W, and the product with row
  n scaled by the column's entry n.
-/
import proofs.«141009_j73254962200757_2_alg».proof.Proof.Gen.KernelIdeal.Frame
import proofs.«141009_j73254962200757_2_alg».proof.Proof.Spec
import proofs.«141009_j73254962200757_2_alg».proof.Proof.LibMatmul
import proofs.«141009_j73254962200757_2_alg».proof.Proof.LibPlainDims
import proofs.«141009_j73254962200757_2_alg».proof.Proof.LibKeepdims
import Idealize.ShloMosaic.Lib.Pipeline.Value
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

theorem hz2 : (![0, 0] : Fin 2 → Nat) = fun _ => 0 := funext fun a => by fin_cases a <;> rfl

/-- The tile product's dimension record is the plain pattern. -/
theorem plain_5000 : Cert.LibPlainDims.PlainFacts dot_S5000x64_S64x64_S5000x64_1_0_0_1_n_n :=
  Cert.LibPlainDims.plainFacts _ rfl rfl rfl rfl rfl rfl

/-- The stored product at an entry of the tile: the sum over the contracted axis. -/
theorem pay0_1_apply (x0 : Vec Ideal S5000x64 .f32) (x1 : Vec Ideal S64x64 .f32) (p : Fin 5000) (q : Fin 64) :
    k0_pay1 (F := Ideal) x0 x1 (ix2 p q) = ∑ k : Fin 64, x0 (ix2 p k) * x1 (ix2 k q) := by
  unfold k0_pay1
  exact (Cert.LibMatmul.matmul_zero_ix2 dot_S5000x64_S64x64_S5000x64_1_0_0_1_n_n plain_5000.rank plain_5000.size
    plain_5000.l0 plain_5000.l1 plain_5000.r0 plain_5000.r1 none _ _ p q).trans (Finset.sum_congr rfl fun _ _ => rfl)

/-- The scaled product at an entry of the tile. -/
theorem pay0_2_apply (x0 : Vec Ideal S5000x64 .f32) (x1 : Vec Ideal S64x64 .f32) (x2 : Vec Ideal S5000x1 .f32) (p : Fin 5000) (q : Fin 64) :
    k0_pay2 (F := Ideal) x0 x1 x2 (ix2 p q) = (∑ k : Fin 64, x0 (ix2 p k) * x1 (ix2 k q)) * x2 (ix2 p (0 : Fin 1)) := by
  unfold k0_pay2
  show k0_pay1 (F := Ideal) x0 x1 (ix2 p q) * broadcastTo S5000x64 (shapeCast S5000x1 x2 shapeCasts_S5000x1_S5000x1) broadcasts_S5000x1_S5000x64 (ix2 p q) = _
  rw [pay0_1_apply, Cert.LibKeepdims.broadcastTo_a1_ab_apply, shapeCast_self]

section Region0
variable (V : (c : Dev nD) → (b : Ref sig .tc) → Buf (Elt Ideal) ((c : Thread nD τ).loc b))

/-- The printed index maps over the ten tiles: the row-tiled windows sit at tile t, the weight stays put. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The feature window's block at tile t is rows 5000 t … of the feature array. -/
theorem iblk0_0_apply (c : Dev nD) (t : Fin cfg0.N) (x : S5000x64.Idx) (k : S50000x64.Idx)
    (hk0 : (k 0).val = 5000 * t.val + (x 0).val) (hk1 : (k 1).val = (x 1).val) :
    (iblk0 V c 0 t : Vec Ideal S5000x64 .f32) x = (V c main_arg0 : S50000x64.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 64 + 1 * (x 1).val = (k 1).val; rw [e1, hk1]; omega

/-- The weight window's block is the weight array at every tile. -/
theorem iblk0_1_apply (c : Dev nD) (t : Fin cfg0.N) (x : S64x64.Idx) :
    (iblk0 V c 1 t : Vec Ideal S64x64 .f32) x = (V c main_arg1 : S64x64.Idx → EReal) x := by
  obtain ⟨-, -, e0, e1, -⟩ := idx_facts0 t
  unfold iblk0
  rw [View.read_apply]
  show V c main_arg1 _ = V c main_arg1 _
  congr 1
  funext a
  apply Fin.ext
  match a with
  | ⟨0, _⟩ => show win0_1.index t 0 * 64 + 1 * (x 0).val = (x 0).val; rw [e0]; omega
  | ⟨1, _⟩ => show win0_1.index t 1 * 64 + 1 * (x 1).val = (x 1).val; rw [e1]; omega

/-- The column window's block at tile t is rows 5000 t … of the column. -/
theorem iblk0_2_apply (c : Dev nD) (t : Fin cfg0.N) (x : S5000x1.Idx) (k : S50000x1.Idx)
    (hk0 : (k 0).val = 5000 * t.val + (x 0).val) (hk1 : (k 1).val = (x 1).val) :
    (iblk0 V c 2 t : Vec Ideal S5000x1 .f32) x = (V c main_v13 : S50000x1.Idx → EReal) k := by
  obtain ⟨-, -, -, -, e0, e1, -⟩ := idx_facts0 t
  unfold iblk0
  rw [View.read_apply]
  show V c main_v13 _ = V c main_v13 _
  congr 1
  funext a
  apply Fin.ext
  match a with
  | ⟨0, _⟩ => show win0_2.index t 0 * 5000 + 1 * (x 0).val = (k 0).val; rw [e0, hk0]; omega
  | ⟨1, _⟩ => show win0_2.index t 1 * 1 + 1 * (x 1).val = (k 1).val; rw [e1, hk1]; omega

/-- A row of a tile product is the same row of the whole product: the tile's row p is the array's row n, and the
    weight is the same matrix. -/
theorem prod_rows (b0 : S5000x64.Idx → EReal) (b1 : S64x64.Idx → EReal) (A0 : S50000x64.Idx → EReal) (A1 : S64x64.Idx → EReal)
    (p : Fin 5000) (q : Fin 64) (n : Fin 50000) (h0 : ∀ k : Fin 64, b0 (ix2 p k) = A0 (ix2 n k))
    (h1 : ∀ k : Fin 64, b1 (ix2 k q) = A1 (ix2 k q)) :
    (∑ k : Fin 64, b0 (ix2 p k) * b1 (ix2 k q)) = Cert.LibProd.prod A0 A1 (ix2 n q) := by
  rw [Cert.LibProd.prod_ix2]
  exact Finset.sum_congr rfl fun k _ => by rw [h0 k, h1 k]

/-- Where block t of a row-tiled output sends an entry of the tile. -/
theorem emb0_3 (t : Fin cfg0.N) (j : S5000x64.Idx) (n : Fin 50000) (hn : n.val = 5000 * t.val + (j 0).val) :
    ((cfg0.win 3).blk t).view.emb j = ix2 n (j 1) := by
  obtain ⟨-, -, -, -, -, -, e0, e1, -⟩ := idx_facts0 t
  funext a
  apply Fin.ext
  match a with
  | ⟨0, _⟩ => show win0_3.index t 0 * 5000 + 1 * (j 0).val = n.val; rw [e0, hn]; omega
  | ⟨1, _⟩ => show win0_3.index t 1 * 64 + 1 * (j 1).val = (j 1).val; rw [e1]; omega

theorem emb0_4 (t : Fin cfg0.N) (j : S5000x64.Idx) (n : Fin 50000) (hn : n.val = 5000 * t.val + (j 0).val) :
    ((cfg0.win 4).blk t).view.emb j = ix2 n (j 1) := by
  obtain ⟨-, -, -, -, -, -, -, -, e0, e1⟩ := idx_facts0 t
  funext a
  apply Fin.ext
  match a with
  | ⟨0, _⟩ => show win0_4.index t 0 * 5000 + 1 * (j 0).val = n.val; rw [e0, hn]; omega
  | ⟨1, _⟩ => show win0_4.index t 1 * 64 + 1 * (j 1).val = (j 1).val; rw [e1]; omega

theorem N0_eq : cfg0.N = 10 := by decide

/-- The row of the whole array that entry j of tile t is. -/
def rowOf0 (t : Fin cfg0.N) (j : S5000x64.Idx) : Fin 50000 :=
  ⟨5000 * t.val + (j 0).val, by have h1 : t.val < 10 := lt_of_lt_of_eq t.isLt N0_eq; have h2 := idx2_lt0 j; omega⟩

/-- WHAT TILE t WRITES BACK to the first output is block t of the plain product of the arrays. -/
theorem flushed0_3_eq (c : Dev nD) (t : Fin cfg0.N) :
    (dat0 V c).flushed 3 t = ((cfg0.win 3).blk t).view.read (Elt Ideal) (Cert.LibProd.prod (V c main_arg0) (V c main_arg1)) := by
  show (cfg0.win 3).cut (grid0.coords t) ((dat0 V c).after 3 t) = _
  rw [after0_3]
  unfold out0_3
  rw [View.canon_unit_zero hz2]
  simp only [View.ld_unit_zero (S := S5000x64) hz2, View.ld_unit_zero (S := S64x64) hz2]
  funext j
  show k0_pay1 (F := Ideal) (iblk0 V c 0 t) (iblk0 V c 1 t) j
    = Cert.LibProd.prod (V c main_arg0) (V c main_arg1) (((cfg0.win 3).blk t).view.emb j)
  rw [emb0_3 t j (rowOf0 t j) rfl]
  refine Eq.trans ?_ (prod_rows (iblk0 V c 0 t) (iblk0 V c 1 t) (V c main_arg0) (V c main_arg1) (j 0) (j 1) (rowOf0 t j)
    (fun k => iblk0_0_apply V c t (ix2 (j 0) k) (ix2 (rowOf0 t j) k) rfl rfl) (fun k => iblk0_1_apply V c t (ix2 k (j 1))))
  exact (congrArg (k0_pay1 (F := Ideal) (iblk0 V c 0 t) (iblk0 V c 1 t)) (eq_ix2 j)).trans
    (pay0_1_apply (iblk0 V c 0 t) (iblk0 V c 1 t) (j 0) (j 1))

/-- WHAT TILE t WRITES BACK to the second output is block t of the product scaled row by row by the column. -/
theorem flushed0_4_eq (c : Dev nD) (t : Fin cfg0.N) :
    (dat0 V c).flushed 4 t = ((cfg0.win 4).blk t).view.read (Elt Ideal)
      (Cert.GCN.scaled (Cert.LibProd.prod (V c main_arg0) (V c main_arg1)) (V c main_v13)) := by
  show (cfg0.win 4).cut (grid0.coords t) ((dat0 V c).after 4 t) = _
  rw [after0_4]
  unfold out0_4
  rw [View.canon_unit_zero hz2]
  simp only [View.ld_unit_zero (S := S5000x64) hz2, View.ld_unit_zero (S := S64x64) hz2, View.ld_unit_zero (S := S5000x1) hz2]
  funext j
  show k0_pay2 (F := Ideal) (iblk0 V c 0 t) (iblk0 V c 1 t) (iblk0 V c 2 t) j
    = Cert.GCN.scaled (Cert.LibProd.prod (V c main_arg0) (V c main_arg1)) (V c main_v13) (((cfg0.win 4).blk t).view.emb j)
  rw [emb0_4 t j (rowOf0 t j) rfl]
  refine ((congrArg (k0_pay2 (F := Ideal) (iblk0 V c 0 t) (iblk0 V c 1 t) (iblk0 V c 2 t)) (eq_ix2 j)).trans
    (pay0_2_apply (iblk0 V c 0 t) (iblk0 V c 1 t) (iblk0 V c 2 t) (j 0) (j 1))).trans ?_
  show _ = Cert.LibProd.prod (V c main_arg0) (V c main_arg1) (ix2 (rowOf0 t j) (j 1)) * (V c main_v13 : S50000x1.Idx → EReal) (ix2 (rowOf0 t j) (0 : Fin 1))
  rw [prod_rows (iblk0 V c 0 t) (iblk0 V c 1 t) (V c main_arg0) (V c main_arg1) (j 0) (j 1) (rowOf0 t j)
      (fun k => iblk0_0_apply V c t (ix2 (j 0) k) (ix2 (rowOf0 t j) k) rfl rfl) (fun k => iblk0_1_apply V c t (ix2 k (j 1))),
    iblk0_2_apply V c t (ix2 (j 0) (0 : Fin 1)) (ix2 (rowOf0 t j) (0 : Fin 1)) rfl rfl]

/-- Every entry of a [50000, 64] array lies in the tile its row falls in. -/
theorem cover0_w3 (i : S50000x64.Idx) : ∃ t : Fin cfg0.N, (cfg0.win 3).flush t = true ∧ i ∈ ((cfg0.win 3).blk t).view.set := by
  have hi0 := idx2_lt0 i
  have hi1 := idx2_lt1 i
  have ht : (i 0).val / 5000 < cfg0.N := by rw [N0_eq]; omega
  refine ⟨⟨(i 0).val / 5000, ht⟩, flush0_3 _, ?_⟩
  obtain ⟨-, -, -, -, -, -, e0, e1, -⟩ := idx_facts0 ⟨(i 0).val / 5000, ht⟩
  show i ∈ ((View.whole main_v14_0).slice (win0_3.rect ⟨(i 0).val / 5000, ht⟩)).set
  rw [View.set_slice_whole, Rect.mem_set_unit]
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ 1 * 64 ≤ (i 1).val ∧ (i 1).val < win0_3.index ⟨(i 0).val / 5000, ht⟩ 1 * 64 + 64
    rw [e1]; omega

theorem cover0_w4 (i : S50000x64.Idx) : ∃ t : Fin cfg0.N, (cfg0.win 4).flush t = true ∧ i ∈ ((cfg0.win 4).blk t).view.set := by
  have hi0 := idx2_lt0 i
  have hi1 := idx2_lt1 i
  have ht : (i 0).val / 5000 < cfg0.N := by rw [N0_eq]; omega
  refine ⟨⟨(i 0).val / 5000, ht⟩, flush0_4 _, ?_⟩
  obtain ⟨-, -, -, -, -, -, -, -, e0, e1⟩ := idx_facts0 ⟨(i 0).val / 5000, ht⟩
  show i ∈ ((View.whole main_v14_1).slice (win0_4.rect ⟨(i 0).val / 5000, ht⟩)).set
  rw [View.set_slice_whole, Rect.mem_set_unit]
  intro a
  match a with
  | ⟨0, _⟩ =>
    show win0_4.index ⟨(i 0).val / 5000, ht⟩ 0 * 5000 ≤ (i 0).val ∧ (i 0).val < win0_4.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_4.index ⟨(i 0).val / 5000, ht⟩ 1 * 64 ≤ (i 1).val ∧ (i 1).val < win0_4.index ⟨(i 0).val / 5000, ht⟩ 1 * 64 + 64
    rw [e1]; omega

/-- THE FIRST OUTPUT ARRAY after the launch: the plain product of the feature and weight arrays as entered. -/
theorem final0_3 (c : Dev nD) :
    (dat0 V c).arrAt 3 cfg0.N = Cert.LibProd.prod (V c main_arg0) (V c main_arg1) :=
  (dat0 V c).arrAt_eq_of_cover 3 _ (fun t _ => flushed0_3_eq V c t) cover0_w3

/-- THE SECOND OUTPUT ARRAY after the launch: that product with row n scaled by the column's entry n. -/
theorem final0_4 (c : Dev nD) :
    (dat0 V c).arrAt 4 cfg0.N = Cert.GCN.scaled (Cert.LibProd.prod (V c main_arg0) (V c main_arg1)) (V c main_v13) :=
  (dat0 V c).arrAt_eq_of_cover 4 _ (fun t _ => flushed0_4_eq V c t) cover0_w4

end Region0

end Cert.KernelIdeal.Hand

end
-- ==== Proof.LibIndexed.lean ====
/-
  Reading the host gather and the host accumulating scatter AT AN INDEX, for the two patterns of dimension
  numbers that "take rows of a table at an integer array" and "add rows into a table at an integer array" lower to:

  * ROW pattern: a table of shape [N, D], one start index per row e of an index array of shape [E, 1],
    whole rows of length D moved (offset / window axis 1, collapsed / inserted axis 0);
  * FLAT pattern: a table of shape [N], an index array of shape [E, 1], single elements moved.

  The gather reads its start index signed and CLAMPS it into [0, N - 1]; the scatter reads it signed and does NOT
  clamp: an update whose row falls outside [0, N) is dropped. All statements are generic in the extents N, D, E
  and in the index width, and take the dimension-number record as a variable with equations on its fields.
-/
import Idealize.ShloMosaic.PureOps.Ideal
import Idealize.ShloMosaic.PureOps.Dims
import Idealize.ShloMosaic.PureOps.ShapeOps
import Idealize.ShloMosaic.PureOps.Contract
import Idealize.ShloMosaic.Lib.ValueIdx

noncomputable section

open scoped BigOperators

namespace Cert.LibIndexed

open Idealize.ShloMosaic Idealize.ShloMosaic.ValueIdx

/-! ## The row pattern: a table [N, D] at an index array [E, 1] -/

/-- ROW GATHER read at (e, k): the table's row at the start index idx[e, 0], read signed and clamped into
    [0, N - 1], at column k. -/
theorem row_gather_apply {α : Type} {N D E w : Nat} (hN : 0 < N)
    (d : GatherDims ⟨2, ![N, D]⟩ ⟨2, ![E, 1]⟩ ⟨2, ![E, D]⟩)
    (h_od : d.offsetDims = [1]) (h_cd : d.collapsedSliceDims = [0]) (h_ob : d.operandBatchingDims = [])
    (h_sb : d.startIndicesBatchingDims = []) (h_sm : d.startIndexMap = [0]) (h_iv : d.indexVectorDim = 1)
    (h_ss : d.sliceSizes = ![1, D])
    (x : (⟨2, ![N, D]⟩ : Shape).Idx → α) (idx : IVec ⟨2, ![E, 1]⟩ w) (e : Fin E) (k : Fin D) :
    Host.gather d x idx (ix2 e k)
      = x (ix2 ⟨min (idx (ix2 e (0 : Fin 1))).toInt.toNat (N - 1), by omega⟩ k) := by
  obtain ⟨od, cd, ob, sb, sm, iv, ss, wf⟩ := d
  simp only at h_od h_cd h_ob h_sb h_sm h_iv h_ss
  subst h_od h_cd h_ob h_sb h_sm h_iv h_ss
  unfold Host.gather
  congr 1
  funext a
  refine Fin.ext ?_
  match a with
  | ⟨0, _⟩ =>
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun v : BitVec w => min v.toInt.toNat (N - 1)) (congrArg idx ?_)
    funext b; refine Fin.ext ?_
    match b with
    | ⟨0, _⟩ => rfl
    | ⟨1, _⟩ => rfl
  | ⟨1, _⟩ =>
    show GatherDims.start _ (ix2 e k) idx 1 + GatherDims.batchCoord _ (ix2 e k) 1 + GatherDims.offCoord _ (ix2 e k) 1 = _
    rw [GatherDims.batchCoord_eq_zero _ _ _ List.not_mem_nil]
    unfold GatherDims.start GatherDims.offCoord
    rw [dif_neg (show (1 : Fin 2) ∉ [(0 : Fin 2)] by decide),
      dif_pos ((GatherDims.mem_sKept _ _).mpr ⟨show (1 : Fin 2) ∉ [(0 : Fin 2)] by decide, List.not_mem_nil⟩)]
    simp only [Nat.zero_add]
    rfl

/-- The ROW SCATTER's dimension numbers for a table [N, D], scatter indices [E, 1] and updates [E, D]: window axis 1
    of the updates goes to axis 1 of the table, axis 0 of the table is addressed by the one index component. -/
abbrev rowScatterDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- ROW SCATTER, axis 0 of "start plus window coordinate": the start index idx[e', 0] read signed (no window
    coordinate on the inserted axis). -/
theorem rowScatter_pos0 {N D E w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) :
    (rowScatterDims N D E wf).start j idx 0 + ((rowScatterDims N D E wf).window j 0 : ℤ)
      = (idx (ix2 (j 0) (0 : Fin 1))).toInt := by
  unfold ScatterDims.start ScatterDims.window
  rw [dif_pos (List.mem_singleton.mpr rfl),
    dif_neg (show (0 : Fin 2) ∉ Shape.kept ⟨2, ![N, D]⟩ [(0 : Fin 2)] by simp [Shape.kept])]
  simp only [Nat.cast_zero, add_zero]
  refine congrArg (fun v : BitVec w => v.toInt) (congrArg idx ?_)
  funext b; refine Fin.ext ?_
  match b with
  | ⟨0, _⟩ => rfl
  | ⟨1, _⟩ => rfl

/-- ROW SCATTER, axis 1 of "start plus window coordinate": the update's own column (no start on that axis). -/
theorem rowScatter_pos1 {N D E w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) :
    (rowScatterDims N D E wf).start j idx 1 + ((rowScatterDims N D E wf).window j 1 : ℤ) = ((j 1).val : ℤ) := by
  unfold ScatterDims.start ScatterDims.window
  rw [dif_neg (show (1 : Fin 2) ∉ [(0 : Fin 2)] by decide),
    dif_pos (show (1 : Fin 2) ∈ Shape.kept ⟨2, ![N, D]⟩ [(0 : Fin 2)] by simp [Shape.kept])]
  simp only [zero_add]
  rfl

/-- ROW SCATTER, where an update lands: update j = (e', k') lands at table element i exactly when its start index
    idx[e', 0], read signed and not clamped, is i's row and k' is i's column. -/
theorem rowScatter_resultIdx_eq_some {N D E w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx) :
    (rowScatterDims N D E wf).resultIdx? j idx = some i
      ↔ (idx (ix2 (j 0) (0 : Fin 1))).toInt = ((i 0).val : ℤ) ∧ (j 1).val = (i 1).val := by
  have h0 := rowScatter_pos0 wf idx j
  have h1 := rowScatter_pos1 wf idx j
  have hi0 := idx2_lt0 i
  have hi1 := idx2_lt1 i
  have hj1 := idx2_lt1 j
  unfold ScatterDims.resultIdx?
  split
  · rename_i h
    rw [Option.some.injEq]
    constructor
    · intro hfi
      have e0 : ((rowScatterDims N D E wf).start j idx 0 + ((rowScatterDims N D E wf).window j 0 : ℤ)).toNat = (i 0).val :=
        congrArg (fun f : (⟨2, ![N, D]⟩ : Shape).Idx => (f 0).val) hfi
      have e1 : ((rowScatterDims N D E wf).start j idx 1 + ((rowScatterDims N D E wf).window j 1 : ℤ)).toNat = (i 1).val :=
        congrArg (fun f : (⟨2, ![N, D]⟩ : Shape).Idx => (f 1).val) hfi
      have g0 := (h 0).1
      rw [h0] at e0 g0
      rw [h1] at e1
      constructor
      · omega
      · omega
    · rintro ⟨ha, hb⟩
      funext a; refine Fin.ext ?_
      match a with
      | ⟨0, _⟩ =>
        show ((rowScatterDims N D E wf).start j idx 0 + ((rowScatterDims N D E wf).window j 0 : ℤ)).toNat = (i 0).val
        rw [h0, ha]; exact Int.toNat_natCast _
      | ⟨1, _⟩ =>
        show ((rowScatterDims N D E wf).start j idx 1 + ((rowScatterDims N D E wf).window j 1 : ℤ)).toNat = (i 1).val
        rw [h1, Int.toNat_natCast]; exact hb
  · rename_i h
    constructor
    · intro hh; cases hh
    · rintro ⟨ha, hb⟩
      exfalso; apply h
      intro a
      match a with
      | ⟨0, _⟩ =>
        show 0 ≤ (rowScatterDims N D E wf).start j idx 0 + ((rowScatterDims N D E wf).window j 0 : ℤ)
          ∧ (rowScatterDims N D E wf).start j idx 0 + ((rowScatterDims N D E wf).window j 0 : ℤ) < ((N : ℕ) : ℤ)
        rw [h0, ha]; omega
      | ⟨1, _⟩ =>
        show 0 ≤ (rowScatterDims N D E wf).start j idx 1 + ((rowScatterDims N D E wf).window j 1 : ℤ)
          ∧ (rowScatterDims N D E wf).start j idx 1 + ((rowScatterDims N D E wf).window j 1 : ℤ) < ((D : ℕ) : ℤ)
        rw [h1]; omega

/-- ROW SCATTER-ADD read at (n, k): the table's element plus the sum, over the rows e of the index array whose start
    index idx[e, 0] (read signed, not clamped) is n, of the update's element (e, k). Rows whose start index is
    outside [0, N) contribute to no element. -/
theorem row_scatterAdd_apply {N D E w : Nat}
    (d : ScatterDims ⟨2, ![N, D]⟩ ⟨2, ![E, 1]⟩ ⟨2, ![E, D]⟩)
    (h_uw : d.updateWindowDims = [1]) (h_iw : d.insertedWindowDims = [0])
    (h_sd : d.scatterDimsToOperandDims = [0]) (h_iv : d.indexVectorDim = 1)
    (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd d x idx upd (ix2 n k)
      = x (ix2 n k) + ∑ e ∈ Finset.univ.filter (fun e : Fin E => (idx (ix2 e (0 : Fin 1))).toInt = (n.val : ℤ)),
          upd (ix2 e k) := by
  obtain ⟨uw, iw, sd, iv, wf⟩ := d
  simp only at h_uw h_iw h_sd h_iv
  subst h_uw h_iw h_sd h_iv
  show x (ix2 n k) + ∑ j ∈ Finset.univ.filter (fun j => (rowScatterDims N D E wf).resultIdx? j idx = some (ix2 n k)), upd j = _
  congr 1
  refine Finset.sum_nbij' (fun j : (⟨2, ![E, D]⟩ : Shape).Idx => (j 0 : Fin E)) (fun e : Fin E => ix2 e k) ?_ ?_ ?_ ?_ ?_
  · intro j hj
    exact Finset.mem_filter.mpr ⟨Finset.mem_univ _,
      ((rowScatter_resultIdx_eq_some wf idx j (ix2 n k)).mp (Finset.mem_filter.mp hj).2).1⟩
  · intro e he
    exact Finset.mem_filter.mpr ⟨Finset.mem_univ _,
      (rowScatter_resultIdx_eq_some wf idx (ix2 e k) (ix2 n k)).mpr ⟨(Finset.mem_filter.mp he).2, rfl⟩⟩
  · intro j hj
    have hk : j 1 = k := Fin.ext ((rowScatter_resultIdx_eq_some wf idx j (ix2 n k)).mp (Finset.mem_filter.mp hj).2).2
    subst hk; exact (eq_ix2 j).symm
  · intro e _
    rfl
  · intro j hj
    have hk : j 1 = k := Fin.ext ((rowScatter_resultIdx_eq_some wf idx j (ix2 n k)).mp (Finset.mem_filter.mp hj).2).2
    subst hk; exact congrArg upd (eq_ix2 j)

/-- The same read of `Host.scatterAdd` at the ideal instance. -/
theorem row_host_scatterAdd_apply {N D E w : Nat} {φ : FTy}
    (d : ScatterDims ⟨2, ![N, D]⟩ ⟨2, ![E, 1]⟩ ⟨2, ![E, D]⟩)
    (h_uw : d.updateWindowDims = [1]) (h_iw : d.insertedWindowDims = [0])
    (h_sd : d.scatterDimsToOperandDims = [0]) (h_iv : d.indexVectorDim = 1)
    (x : FVec Ideal ⟨2, ![N, D]⟩ φ) (idx : IVec ⟨2, ![E, 1]⟩ w)
    (upd : FVec Ideal ⟨2, ![E, D]⟩ φ) (n : Fin N) (k : Fin D) :
    Host.scatterAdd (F := Ideal) d x idx upd (ix2 n k)
      = x (ix2 n k) + ∑ e ∈ Finset.univ.filter (fun e : Fin E => (idx (ix2 e (0 : Fin 1))).toInt = (n.val : ℤ)),
          upd (ix2 e k) :=
  row_scatterAdd_apply d h_uw h_iw h_sd h_iv x idx upd n k

/-! ## The flat pattern: a table [N] at an index array [E, 1] -/

/-- FLAT GATHER read at e: the table's element at the start index idx[e, 0], read signed and clamped into
    [0, N - 1]. -/
theorem flat_gather_apply {α : Type} {N E w : Nat} (hN : 0 < N)
    (d : GatherDims ⟨1, ![N]⟩ ⟨2, ![E, 1]⟩ ⟨1, ![E]⟩)
    (h_od : d.offsetDims = []) (h_cd : d.collapsedSliceDims = [0]) (h_ob : d.operandBatchingDims = [])
    (h_sb : d.startIndicesBatchingDims = []) (h_sm : d.startIndexMap = [0]) (h_iv : d.indexVectorDim = 1)
    (h_ss : d.sliceSizes = ![1])
    (x : (⟨1, ![N]⟩ : Shape).Idx → α) (idx : IVec ⟨2, ![E, 1]⟩ w) (e : Fin E) :
    Host.gather d x idx (ix1 e)
      = x (ix1 ⟨min (idx (ix2 e (0 : Fin 1))).toInt.toNat (N - 1), by omega⟩) := by
  obtain ⟨od, cd, ob, sb, sm, iv, ss, wf⟩ := d
  simp only at h_od h_cd h_ob h_sb h_sm h_iv h_ss
  subst h_od h_cd h_ob h_sb h_sm h_iv h_ss
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun v : BitVec w => min v.toInt.toNat (N - 1)) (congrArg idx ?_)
    funext b; refine Fin.ext ?_
    match b with
    | ⟨0, _⟩ => rfl
    | ⟨1, _⟩ => rfl

/-- The FLAT SCATTER's dimension numbers for a table [N], scatter indices [E, 1] and updates [E]: no window axis,
    the table's one axis is addressed by the one index component. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- FLAT SCATTER, the one axis of "start plus window coordinate": the start index idx[e', 0] read signed. -/
theorem flatScatter_pos0 {N E w : Nat} (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (flatScatterDims N E wf).start j idx 0 + ((flatScatterDims N E wf).window j 0 : ℤ)
      = (idx (ix2 (j 0) (0 : Fin 1))).toInt := by
  unfold ScatterDims.start ScatterDims.window
  rw [dif_pos (List.mem_singleton.mpr rfl),
    dif_neg (show (0 : Fin 1) ∉ Shape.kept ⟨1, ![N]⟩ [(0 : Fin 1)] by simp [Shape.kept])]
  simp only [Nat.cast_zero, add_zero]
  refine congrArg (fun v : BitVec w => v.toInt) (congrArg idx ?_)
  funext b; refine Fin.ext ?_
  match b with
  | ⟨0, _⟩ => rfl
  | ⟨1, _⟩ => rfl

/-- FLAT SCATTER, where an update lands: update e' lands at table element i exactly when its start index
    idx[e', 0], read signed and not clamped, is i. -/
theorem flatScatter_resultIdx_eq_some {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) (i : (⟨1, ![N]⟩ : Shape).Idx) :
    (flatScatterDims N E wf).resultIdx? j idx = some i
      ↔ (idx (ix2 (j 0) (0 : Fin 1))).toInt = ((i 0).val : ℤ) := by
  have h0 := flatScatter_pos0 wf idx j
  have hi0 : (i 0).val < N := (i 0).isLt
  unfold ScatterDims.resultIdx?
  split
  · rename_i h
    rw [Option.some.injEq]
    constructor
    · intro hfi
      have e0 : ((flatScatterDims N E wf).start j idx 0 + ((flatScatterDims N E wf).window j 0 : ℤ)).toNat = (i 0).val :=
        congrArg (fun f : (⟨1, ![N]⟩ : Shape).Idx => (f 0).val) hfi
      have g0 := (h 0).1
      rw [h0] at e0 g0
      omega
    · intro ha
      funext a; refine Fin.ext ?_
      match a with
      | ⟨0, _⟩ =>
        show ((flatScatterDims N E wf).start j idx 0 + ((flatScatterDims N E wf).window j 0 : ℤ)).toNat = (i 0).val
        rw [h0, ha]; exact Int.toNat_natCast _
  · rename_i h
    constructor
    · intro hh; cases hh
    · intro ha
      exfalso; apply h
      intro a
      match a with
      | ⟨0, _⟩ =>
        show 0 ≤ (flatScatterDims N E wf).start j idx 0 + ((flatScatterDims N E wf).window j 0 : ℤ)
          ∧ (flatScatterDims N E wf).start j idx 0 + ((flatScatterDims N E wf).window j 0 : ℤ) < ((N : ℕ) : ℤ)
        rw [h0, ha]; omega

/-- FLAT SCATTER-ADD read at n: the table's element plus the sum, over the rows e of the index array whose start
    index idx[e, 0] (read signed, not clamped) is n, of the update's element e. Rows whose start index is outside
    [0, N) contribute to no element. -/
theorem flat_scatterAdd_apply {N E w : Nat}
    (d : ScatterDims ⟨1, ![N]⟩ ⟨2, ![E, 1]⟩ ⟨1, ![E]⟩)
    (h_uw : d.updateWindowDims = []) (h_iw : d.insertedWindowDims = [0])
    (h_sd : d.scatterDimsToOperandDims = [0]) (h_iv : d.indexVectorDim = 1)
    (x : (⟨1, ![N]⟩ : Shape).Idx → EReal) (idx : IVec ⟨2, ![E, 1]⟩ w)
    (upd : (⟨1, ![E]⟩ : Shape).Idx → EReal) (n : Fin N) :
    Ideal.hostScatterAdd d x idx upd (ix1 n)
      = x (ix1 n) + ∑ e ∈ Finset.univ.filter (fun e : Fin E => (idx (ix2 e (0 : Fin 1))).toInt = (n.val : ℤ)),
          upd (ix1 e) := by
  obtain ⟨uw, iw, sd, iv, wf⟩ := d
  simp only at h_uw h_iw h_sd h_iv
  subst h_uw h_iw h_sd h_iv
  show x (ix1 n) + ∑ j ∈ Finset.univ.filter (fun j => (flatScatterDims N E wf).resultIdx? j idx = some (ix1 n)), upd j = _
  congr 1
  refine Finset.sum_nbij' (fun j : (⟨1, ![E]⟩ : Shape).Idx => (j 0 : Fin E)) (fun e : Fin E => ix1 e) ?_ ?_ ?_ ?_ ?_
  · intro j hj
    exact Finset.mem_filter.mpr ⟨Finset.mem_univ _,
      (flatScatter_resultIdx_eq_some wf idx j (ix1 n)).mp (Finset.mem_filter.mp hj).2⟩
  · intro e he
    exact Finset.mem_filter.mpr ⟨Finset.mem_univ _,
      (flatScatter_resultIdx_eq_some wf idx (ix1 e) (ix1 n)).mpr (Finset.mem_filter.mp he).2⟩
  · intro j _
    exact (eq_ix1 j).symm
  · intro e _
    rfl
  · intro j _
    exact congrArg upd (eq_ix1 j)

/-- The same read of `Host.scatterAdd` at the ideal instance. -/
theorem flat_host_scatterAdd_apply {N E w : Nat} {φ : FTy}
    (d : ScatterDims ⟨1, ![N]⟩ ⟨2, ![E, 1]⟩ ⟨1, ![E]⟩)
    (h_uw : d.updateWindowDims = []) (h_iw : d.insertedWindowDims = [0])
    (h_sd : d.scatterDimsToOperandDims = [0]) (h_iv : d.indexVectorDim = 1)
    (x : FVec Ideal ⟨1, ![N]⟩ φ) (idx : IVec ⟨2, ![E, 1]⟩ w)
    (upd : FVec Ideal ⟨1, ![E]⟩ φ) (n : Fin N) :
    Host.scatterAdd (F := Ideal) d x idx upd (ix1 n)
      = x (ix1 n) + ∑ e ∈ Finset.univ.filter (fun e : Fin E => (idx (ix2 e (0 : Fin 1))).toInt = (n.val : ℤ)),
          upd (ix1 e) :=
  flat_scatterAdd_apply d h_uw h_iw h_sd h_iv x idx upd n

end Cert.LibIndexed

end
-- ==== Proof.LibBcast.lean ====
/-
  A host broadcast read at an entry, for the shapes a bias row and a per-row factor go through.

  A vector of `a` numbers placed as an `a × 1` column holds, at (p, u), the vector's entry p; a column spread over `b`
  columns holds, at (p, q), the column's entry (p, 0); a vector of `b` numbers placed as a `1 × b` row holds, at (u, q),
  the vector's entry q; a row spread over `a` rows holds, at (p, q), the row's entry (0, q); and a scalar spread over
  any shape holds that scalar everywhere. Each is the rule that a broadcast reads its operand at the named axes'
  coordinates, with 0 on the operand's unit axes.
-/
import Idealize.ShloMosaic.Lib.Pipeline.Value
import Idealize.ShloMosaic.Lib.ValueIdx

namespace Cert.LibBcast

open Idealize.ShloMosaic Idealize.ShloMosaic.ValueIdx

variable {α : Type}

/-- An `[a]` vector placed along axis 0 of `[a, 1]` reads, at `(p, u)`, the vector at `p`. -/
theorem bcast_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- An `[a, 1]` column spread over `[a, b]` reads, at `(p, q)`, the column at `(p, 0)`. -/
theorem bcast_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A `[b]` vector placed along axis 1 of `[1, b]` reads, at `(u, q)`, the vector at `q`. -/
theorem bcast_b_1b_apply {b : ℕ} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A `[1, b]` row spread over `[a, b]` reads, at `(p, q)`, the row at `(0, q)`. -/
theorem bcast_1b_ab_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

/-- A scalar spread over any shape reads that scalar everywhere. -/
theorem bcast_scalar_apply {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Cert.LibBcast
-- ==== Proof.RefIdx.lean ====
/-
  The integer side of the reference program, read index by index: the two rows of the edge list, the wrapped
  index columns the gathers take their rows at, and the destination column the scatter-adds add at.
-/
import proofs.«141009_j73254962200757_2_alg».proof.Proof.Gen.ReferenceIdeal.Read
import proofs.«141009_j73254962200757_2_alg».proof.Proof.Spec
import proofs.«141009_j73254962200757_2_alg».proof.Proof.LibIndexed
import proofs.«141009_j73254962200757_2_alg».proof.Proof.LibBcast

set_option maxRecDepth 16384

noncomputable section

open scoped BigOperators

namespace Cert.ReferenceIdeal.RefValue

open Cert.ReferenceIdeal Cert.ReferenceIdeal.Read Idealize.ShloMosaic Idealize.ShloMosaic.ValueIdx Cert.GCN

variable (x13 : IVec S2x800000 32)

/-- Row 0 of the edge list as a flat vector. -/
theorem v1_ix1 (e : Fin 800000) : val_main_v1 (F := Ideal) x13 (ix1 e) = x13 (ix2 (0 : Fin 2) e) := by
  rw [val_main_v1_apply, val_main_v0_apply]
  congr 1
  funext a
  match a with
  | ⟨0, _⟩ => rfl
  | ⟨1, _⟩ => exact Fin.ext (Nat.mod_eq_of_lt e.isLt)

/-- Row 1 of the edge list as a flat vector. -/
theorem v3_ix1 (e : Fin 800000) : val_main_v3 (F := Ideal) x13 (ix1 e) = x13 (ix2 (1 : Fin 2) e) := by
  rw [val_main_v3_apply, val_main_v2_apply]
  congr 1
  funext a
  match a with
  | ⟨0, _⟩ => rfl
  | ⟨1, _⟩ => exact Fin.ext (Nat.mod_eq_of_lt e.isLt)

/-- The destination column the degree scatter-add adds at. -/
theorem v6_ix2 (e : Fin 800000) (u : Fin 1) : val_main_v6 (F := Ideal) x13 (ix2 e u) = x13 (ix2 (1 : Fin 2) e) := by
  rw [val_main_v6_apply, ← v3_ix1 x13 e]
  congr 1
  funext a
  match a with
  | ⟨0, _⟩ => rfl

/-- The wrapped source word. -/
theorem v17_ix1 (e : Fin 800000) : val_main_v17 (F := Ideal) x13 (ix1 e) = wrapN (x13 (ix2 (0 : Fin 2) e)) := by
  rw [val_main_v17_apply, val_main_v14_apply, val_main_v16_apply, val_main_v13_apply, val_main_v15_apply,
    val_main_c_apply, val_main_c_3_apply, v1_ix1]
  rfl

theorem v18_ix2 (e : Fin 800000) (u : Fin 1) : val_main_v18 (F := Ideal) x13 (ix2 e u) = wrapN (x13 (ix2 (0 : Fin 2) e)) := by
  rw [val_main_v18_apply, ← v17_ix1 x13 e]
  congr 1
  funext a
  match a with
  | ⟨0, _⟩ => rfl

/-- The wrapped destination word. -/
theorem v24_ix1 (e : Fin 800000) : val_main_v24 (F := Ideal) x13 (ix1 e) = wrapN (x13 (ix2 (1 : Fin 2) e)) := by
  rw [val_main_v24_apply, val_main_v21_apply, val_main_v23_apply, val_main_v20_apply, val_main_v22_apply,
    val_main_c_4_apply, val_main_c_5_apply, v3_ix1]
  rfl

theorem v25_ix2 (e : Fin 800000) (u : Fin 1) : val_main_v25 (F := Ideal) x13 (ix2 e u) = wrapN (x13 (ix2 (1 : Fin 2) e)) := by
  rw [val_main_v25_apply, ← v24_ix1 x13 e]
  congr 1
  funext a
  match a with
  | ⟨0, _⟩ => rfl

end Cert.ReferenceIdeal.RefValue

end
-- ==== Proof.RefDeg.lean ====
/-
  The degree of a node, its reciprocal square root and its reciprocal, and the edge factor, read index by index.

  The degree scatter-add adds 1 at the destination word of every edge: node n receives one 1 per edge whose destination
  word, read signed, is n. The two flat gathers read the reciprocal square root at the wrapped and clamped source and
  destination words.
-/
import proofs.«141009_j73254962200757_2_alg».proof.Proof.RefIdx

set_option maxRecDepth 16384

noncomputable section

open scoped BigOperators

namespace Cert.ReferenceIdeal.RefValue

open Cert.ReferenceIdeal Cert.ReferenceIdeal.Read Idealize.ShloMosaic Idealize.ShloMosaic.ValueIdx Cert.GCN

variable (x13 : IVec S2x800000 32)

/-- The scatter-add of ones: zero plus one per edge counting for n. -/
theorem v7_ix1 (n : Fin 50000) :
    val_main_v7 (F := Ideal) x13 (ix1 n) = zero32 + ∑ _e ∈ inEdges x13 n, one32 := by
  unfold val_main_v7
  rw [Cert.LibIndexed.flat_host_scatterAdd_apply _ rfl rfl rfl rfl, val_main_v5_apply, val_main_cst_0_apply]
  simp only [v6_ix2, val_main_v4_apply, val_main_cst_apply]
  rfl

theorem v9_ix1 (n : Fin 50000) : val_main_v9 (F := Ideal) x13 (ix1 n) = deg x13 n := by
  rw [val_main_v9_apply, v7_ix1, val_main_v8_apply, val_main_cst_1_apply]
  rfl

theorem v10_ix1 (n : Fin 50000) : val_main_v10 (F := Ideal) x13 (ix1 n) = dis x13 n := by
  rw [val_main_v10_apply, v9_ix1, Ideal.hostUnary_rsqrt_def]
  rfl

theorem v12_ix1 (n : Fin 50000) : val_main_v12 (F := Ideal) x13 (ix1 n) = dinv x13 n := by
  rw [val_main_v12_apply, v9_ix1, val_main_v11_apply, val_main_cst_2_apply]
  rfl

/-- The reciprocal square root at the source of edge e. -/
theorem v19_ix1 (e : Fin 800000) : val_main_v19 (F := Ideal) x13 (ix1 e) = dis x13 (srcp x13 e) := by
  unfold val_main_v19
  rw [Cert.LibIndexed.flat_gather_apply (by decide) _ rfl rfl rfl rfl rfl rfl rfl, v10_ix1]
  simp only [v18_ix2]
  rfl

/-- The reciprocal square root at the destination of edge e. -/
theorem v26_ix1 (e : Fin 800000) : val_main_v26 (F := Ideal) x13 (ix1 e) = dis x13 (dstp x13 e) := by
  unfold val_main_v26
  rw [Cert.LibIndexed.flat_gather_apply (by decide) _ rfl rfl rfl rfl rfl rfl rfl, v10_ix1]
  simp only [v25_ix2]
  rfl

/-- The edge factor. -/
theorem v27_ix1 (e : Fin 800000) :
    val_main_v27 (F := Ideal) x13 (ix1 e) = dis x13 (srcp x13 e) * dis x13 (dstp x13 e) := by
  rw [val_main_v27_apply, v19_ix1, v26_ix1]
  rfl

end Cert.ReferenceIdeal.RefValue

end
-- ==== Proof.KBlockA.lean ====
/-
  From the launch to the end of the first linear launch.

  The host first cuts the edge list into its source row and its destination row, counts for every node the edges
  arriving at it, adds one, and takes the reciprocal square root and the reciprocal; these are the same operations,
  in the same order, as the reference program's, so their values are the reference's values of the same argument.
  The reciprocal square roots, as a column, go into the first launch with the features and the first weight
  matrix; it leaves the product X W and the product scaled row by row.
-/
import proofs.«141009_j73254962200757_2_alg».proof.Proof.Gen.KernelIdeal.Frame
import proofs.«141009_j73254962200757_2_alg».proof.Proof.Gen.ReferenceIdeal.Read
import proofs.«141009_j73254962200757_2_alg».proof.Proof.Spec
import proofs.«141009_j73254962200757_2_alg».proof.Proof.SpecApply
import proofs.«141009_j73254962200757_2_alg».proof.Proof.LibKeepdims
import proofs.«141009_j73254962200757_2_alg».proof.Proof.KLin0
import proofs.«141009_j73254962200757_2_alg».proof.Proof.RefDeg
import Idealize.ShloMosaic.Lib.StableHlo.Run

set_option maxRecDepth 16384

noncomputable section

open Idealize.ShloMosaic Idealize.ShloMosaic.TcCoe Idealize.SL.Sem Idealize.ShloMosaic.StableHlo Idealize.ShloMosaic.ValueIdx

namespace Cert.KernelIdeal.Hand

open Cert.KernelIdeal Cert.KernelIdeal.Gen Cert.GCN Cert.LibProd

variable (m : (ℓ : Loc nD τ sig) → Buf (Elt Ideal) ℓ) (ρ : Dev nD → PrngReg)

macro "host_keepA " ops:ident : tactic => `(tactic| (
  refine StableHlo.after_of_forall_not_mem _ _ (List.forall_iff_forall_mem.mp ?_)
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The first stretch -/

set_option maxHeartbeats 1000000 in
theorem W1_v1 (c : Dev nD) : W1 m ρ c (Proc.devRef .tc main_v1)
    = Cert.ReferenceIdeal.Read.val_main_v1 (F := Ideal) (m ((c : Thread nD τ).loc main_arg13)) := by
  show StableHlo.after hostOps0 (W0 m ρ c) (Proc.devRef .tc main_v1) = _
  after_results
  rfl

set_option maxHeartbeats 1000000 in
theorem W1_v3 (c : Dev nD) : W1 m ρ c (Proc.devRef .tc main_v3)
    = Cert.ReferenceIdeal.Read.val_main_v3 (F := Ideal) (m ((c : Thread nD τ).loc main_arg13)) := by
  show StableHlo.after hostOps0 (W0 m ρ c) (Proc.devRef .tc main_v3) = _
  after_results
  rfl

set_option maxHeartbeats 1000000 in
theorem W1_v10 (c : Dev nD) : W1 m ρ c (Proc.devRef .tc main_v10)
    = Cert.ReferenceIdeal.Read.val_main_v10 (F := Ideal) (m ((c : Thread nD τ).loc main_arg13)) := by
  show StableHlo.after hostOps0 (W0 m ρ c) (Proc.devRef .tc main_v10) = _
  after_results
  rfl

set_option maxHeartbeats 1000000 in
theorem W1_v12 (c : Dev nD) : W1 m ρ c (Proc.devRef .tc main_v12)
    = Cert.ReferenceIdeal.Read.val_main_v12 (F := Ideal) (m ((c : Thread nD τ).loc main_arg13)) := by
  show StableHlo.after hostOps0 (W0 m ρ c) (Proc.devRef .tc main_v12) = _
  after_results
  rfl

set_option maxHeartbeats 1000000 in
/-- The column that goes into the first launch: the reciprocal square roots, one per row. -/
theorem W1_v13_cast (c : Dev nD) : W1 m ρ c (Proc.devRef .tc main_v13)
    = shapeCast S50000x1 (Cert.ReferenceIdeal.Read.val_main_v10 (F := Ideal) (m ((c : Thread nD τ).loc main_arg13))) shapeCasts_S50000_S50000x1 := by
  show StableHlo.after hostOps0 (W0 m ρ c) (Proc.devRef .tc main_v13) = _
  after_results
  rfl

/-- A vector of reciprocal square roots viewed as a column is the column of dis. -/
theorem cast_dis_col (ei : IVec SEI 32) (h : (⟨1, ![50000]⟩ : Shape).ShapeCasts ⟨2, ![50000, 1]⟩) :
    shapeCast (⟨2, ![50000, 1]⟩ : Shape) (Cert.ReferenceIdeal.Read.val_main_v10 (F := Ideal) ei) h = col (dis ei) := by
  funext i
  obtain ⟨n, u, rfl⟩ : ∃ (n : Fin 50000) (u : Fin 1), i = ix2 n u := ⟨i 0, i 1, eq_ix2 i⟩
  rw [Cert.LibKeepdims.shapeCast_a_a1_apply, Cert.ReferenceIdeal.RefValue.v10_ix1]
  exact (col_apply (dis ei) n u).symm

/-- A vector of reciprocals viewed as a column is the column of dinv. -/
theorem cast_dinv_col (ei : IVec SEI 32) (h : (⟨1, ![50000]⟩ : Shape).ShapeCasts ⟨2, ![50000, 1]⟩) :
    shapeCast (⟨2, ![50000, 1]⟩ : Shape) (Cert.ReferenceIdeal.Read.val_main_v12 (F := Ideal) ei) h = col (dinv ei) := by
  funext i
  obtain ⟨n, u, rfl⟩ : ∃ (n : Fin 50000) (u : Fin 1), i = ix2 n u := ⟨i 0, i 1, eq_ix2 i⟩
  rw [Cert.LibKeepdims.shapeCast_a_a1_apply, Cert.ReferenceIdeal.RefValue.v12_ix1]
  exact (col_apply (dinv ei) n u).symm

theorem W1_v13 (c : Dev nD) : W1 m ρ c (Proc.devRef .tc main_v13) = col (dis (m ((c : Thread nD τ).loc main_arg13))) :=
  (W1_v13_cast m ρ c).trans (cast_dis_col _ _)

theorem W1_arg0 (c : Dev nD) : W1 m ρ c (Proc.devRef .tc main_arg0) = m ((c : Thread nD τ).loc main_arg0) := by
  refine Eq.trans (b := W0 m ρ c (Proc.devRef .tc main_arg0)) ?_ rfl
  host_keepA hostOps0

theorem W1_arg1 (c : Dev nD) : W1 m ρ c (Proc.devRef .tc main_arg1) = m ((c : Thread nD τ).loc main_arg1) := by
  refine Eq.trans (b := W0 m ρ c (Proc.devRef .tc main_arg1)) ?_ rfl
  host_keepA hostOps0

/-! ## The first linear launch -/

theorem W2_v14_0 (c : Dev nD) : W2 m ρ c (Proc.devRef .tc main_v14_0)
    = prod (m ((c : Thread nD τ).loc main_arg0)) (m ((c : Thread nD τ).loc main_arg1)) := by
  refine (W2_arr m ρ c 3).trans ((final0_3 (V1 m ρ) c).trans ?_)
  rw [show V1 m ρ c main_arg0 = m ((c : Thread nD τ).loc main_arg0) from W1_arg0 m ρ c,
    show V1 m ρ c main_arg1 = m ((c : Thread nD τ).loc main_arg1) from W1_arg1 m ρ c]

theorem W2_v14_1 (c : Dev nD) : W2 m ρ c (Proc.devRef .tc main_v14_1)
    = scaled (prod (m ((c : Thread nD τ).loc main_arg0)) (m ((c : Thread nD τ).loc main_arg1)))
        (col (dis (m ((c : Thread nD τ).loc main_arg13)))) := by
  refine (W2_arr m ρ c 4).trans ((final0_4 (V1 m ρ) c).trans ?_)
  rw [show V1 m ρ c main_arg0 = m ((c : Thread nD τ).loc main_arg0) from W1_arg0 m ρ c,
    show V1 m ρ c main_arg1 = m ((c : Thread nD τ).loc main_arg1) from W1_arg1 m ρ c,
    show V1 m ρ c main_v13 = col (dis (m ((c : Thread nD τ).loc main_arg13))) from W1_v13 m ρ c]

/-! ## What the later stretches read again, as it stands after the first launch -/

theorem W2_v1 (c : Dev nD) : W2 m ρ c (Proc.devRef .tc main_v1)
    = Cert.ReferenceIdeal.Read.val_main_v1 (F := Ideal) (m ((c : Thread nD τ).loc main_arg13)) :=
  (W2_of_ne m ρ c main_v1 (by decide)).trans (W1_v1 m ρ c)
theorem W2_v3 (c : Dev nD) : W2 m ρ c (Proc.devRef .tc main_v3)
    = Cert.ReferenceIdeal.Read.val_main_v3 (F := Ideal) (m ((c : Thread nD τ).loc main_arg13)) :=
  (W2_of_ne m ρ c main_v3 (by decide)).trans (W1_v3 m ρ c)
theorem W2_v10 (c : Dev nD) : W2 m ρ c (Proc.devRef .tc main_v10)
    = Cert.ReferenceIdeal.Read.val_main_v10 (F := Ideal) (m ((c : Thread nD τ).loc main_arg13)) :=
  (W2_of_ne m ρ c main_v10 (by decide)).trans (W1_v10 m ρ c)
theorem W2_v12 (c : Dev nD) : W2 m ρ c (Proc.devRef .tc main_v12)
    = Cert.ReferenceIdeal.Read.val_main_v12 (F := Ideal) (m ((c : Thread nD τ).loc main_arg13)) :=
  (W2_of_ne m ρ c main_v12 (by decide)).trans (W1_v12 m ρ c)

end Cert.KernelIdeal.Hand

end
-- ==== Proof.KComb1.lean ====
/-
  What the first pointwise launch (the combination step of a layer) leaves in its output array.

  The node axis is cut into ten tiles of 5000 rows. At tile t the body reads rows 5000 t … 5000 t + 4999 of two
  [50000, 64] arrays A and H and of two [50000, 1] columns d and e, and the one bias row b, and stores, at entry
  (p, q) of the tile, (d p * A (p, q) + e p * H (p, q)) + b q. Entry (p, q) of the tile depends only on row
  5000 t + p of the arrays, so the ten tiles written back are the ten row blocks of ONE array: the combination
  of the whole arrays.
-/
import proofs.«141009_j73254962200757_2_alg».proof.Proof.Gen.KernelIdeal.Frame
import proofs.«141009_j73254962200757_2_alg».proof.Proof.Spec
import proofs.«141009_j73254962200757_2_alg».proof.Proof.LibMatmul
import proofs.«141009_j73254962200757_2_alg».proof.Proof.LibPlainDims
import proofs.«141009_j73254962200757_2_alg».proof.Proof.LibKeepdims
import Idealize.ShloMosaic.Lib.Pipeline.Value
import Idealize.ShloMosaic.Lib.ValueLayout
import Idealize.ShloMosaic.Lib.Tactic

set_option maxRecDepth 16384
set_option pp.maxSteps 5000
set_option pp.deepTerms false

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

theorem hz2_1 : (![0, 0] : Fin 2 → Nat) = fun _ => 0 := funext fun a => by fin_cases a <;> rfl

/-- The stored combination at an entry of the tile. -/
theorem pay1_1_apply (v0 : Vec Ideal S5000x1 .f32) (v2 : Vec Ideal S5000x64 .f32) (v6 : Vec Ideal S5000x1 .f32)
    (v8 : Vec Ideal S5000x64 .f32) (v13 : Vec Ideal S1x64 .f32) (p : Fin 5000) (q : Fin 64) :
    k1_pay1 (F := Ideal) v0 v2 v6 v8 v13 (ix2 p q)
      = (v0 (ix2 p (0 : Fin 1)) * v2 (ix2 p q) + v6 (ix2 p (0 : Fin 1)) * v8 (ix2 p q)) + v13 (ix2 (0 : Fin 1) q) := by
  unfold k1_pay1
  show (broadcastTo S5000x64 (shapeCast S5000x1 v0 shapeCasts_S5000x1_S5000x1) broadcasts_S5000x1_S5000x64 (ix2 p q)
          * shapeCast S5000x64 v2 shapeCasts_S5000x64_S5000x64 (ix2 p q)
        + broadcastTo S5000x64 (shapeCast S5000x1 v6 shapeCasts_S5000x1_S5000x1) broadcasts_S5000x1_S5000x64 (ix2 p q)
          * shapeCast S5000x64 v8 shapeCasts_S5000x64_S5000x64 (ix2 p q))
      + broadcastTo S5000x64 (shapeCast S1x64 v13 shapeCasts_S1x64_S1x64) broadcasts_S1x64_S5000x64 (ix2 p q) = _
  rw [Cert.LibKeepdims.broadcastTo_a1_ab_apply, Cert.LibKeepdims.broadcastTo_a1_ab_apply, broadcastTo_1b_ab_apply]
  simp only [shapeCast_self]

section Region1
variable (V : (c : Dev nD) → (b : Ref sig .tc) → Buf (Elt Ideal) ((c : Thread nD τ).loc b))

/-- The printed index maps over the ten tiles: the row-tiled windows sit at tile t, the bias row stays put. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The first array's block at tile t is rows 5000 t … of that array. -/
theorem iblk1_0_apply (c : Dev nD) (t : Fin cfg1.N) (x : S5000x64.Idx) (k : S50000x64.Idx)
    (hk0 : (k 0).val = 5000 * t.val + (x 0).val) (hk1 : (k 1).val = (x 1).val) :
    (iblk1 V c 0 t : Vec Ideal S5000x64 .f32) x = (V c main_v24 : S50000x64.Idx → EReal) k := by
  obtain ⟨e0, e1, -⟩ := idx_facts1 t
  unfold iblk1
  rw [View.read_apply]
  show V c main_v24 _ = V c main_v24 _
  congr 1
  funext a
  apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- The first column's block at tile t is rows 5000 t … of that column. -/
theorem iblk1_1_apply (c : Dev nD) (t : Fin cfg1.N) (x : S5000x1.Idx) (k : S50000x1.Idx)
    (hk0 : (k 0).val = 5000 * t.val + (x 0).val) (hk1 : (k 1).val = (x 1).val) :
    (iblk1 V c 1 t : Vec Ideal S5000x1 .f32) x = (V c main_v25 : S50000x1.Idx → EReal) k := by
  obtain ⟨-, -, e0, e1, -⟩ := idx_facts1 t
  unfold iblk1
  rw [View.read_apply]
  show V c main_v25 _ = V c main_v25 _
  congr 1
  funext a
  apply Fin.ext
  match a with
  | ⟨0, _⟩ => show win1_1.index t 0 * 5000 + 1 * (x 0).val = (k 0).val; rw [e0, hk0]; omega
  | ⟨1, _⟩ => show win1_1.index t 1 * 1 + 1 * (x 1).val = (k 1).val; rw [e1, hk1]; omega

/-- The second array's block at tile t is rows 5000 t … of that array. -/
theorem iblk1_2_apply (c : Dev nD) (t : Fin cfg1.N) (x : S5000x64.Idx) (k : S50000x64.Idx)
    (hk0 : (k 0).val = 5000 * t.val + (x 0).val) (hk1 : (k 1).val = (x 1).val) :
    (iblk1 V c 2 t : Vec Ideal S5000x64 .f32) x = (V c main_v14_0 : S50000x64.Idx → EReal) k := by
  obtain ⟨-, -, -, -, e0, e1, -⟩ := idx_facts1 t
  unfold iblk1
  rw [View.read_apply]
  show V c main_v14_0 _ = V c main_v14_0 _
  congr 1
  funext a
  apply Fin.ext
  match a with
  | ⟨0, _⟩ => show win1_2.index t 0 * 5000 + 1 * (x 0).val = (k 0).val; rw [e0, hk0]; omega
  | ⟨1, _⟩ => show win1_2.index t 1 * 64 + 1 * (x 1).val = (k 1).val; rw [e1, hk1]; omega

/-- The second column's block at tile t is rows 5000 t … of that column. -/
theorem iblk1_3_apply (c : Dev nD) (t : Fin cfg1.N) (x : S5000x1.Idx) (k : S50000x1.Idx)
    (hk0 : (k 0).val = 5000 * t.val + (x 0).val) (hk1 : (k 1).val = (x 1).val) :
    (iblk1 V c 3 t : Vec Ideal S5000x1 .f32) x = (V c main_v26 : S50000x1.Idx → EReal) k := by
  obtain ⟨-, -, -, -, -, -, e0, e1, -⟩ := idx_facts1 t
  unfold iblk1
  rw [View.read_apply]
  show V c main_v26 _ = V c main_v26 _
  congr 1
  funext a
  apply Fin.ext
  match a with
  | ⟨0, _⟩ => show win1_3.index t 0 * 5000 + 1 * (x 0).val = (k 0).val; rw [e0, hk0]; omega
  | ⟨1, _⟩ => show win1_3.index t 1 * 1 + 1 * (x 1).val = (k 1).val; rw [e1, hk1]; omega

/-- The bias window's block is the bias row at every tile. -/
theorem iblk1_4_apply (c : Dev nD) (t : Fin cfg1.N) (x : S1x64.Idx) :
    (iblk1 V c 4 t : Vec Ideal S1x64 .f32) x = (V c main_v27 : S1x64.Idx → EReal) x := by
  obtain ⟨-, -, -, -, -, -, -, -, e0, e1, -⟩ := idx_facts1 t
  unfold iblk1
  rw [View.read_apply]
  show V c main_v27 _ = V c main_v27 _
  congr 1
  funext a
  apply Fin.ext
  match a with
  | ⟨0, _⟩ => show win1_4.index t 0 * 1 + 1 * (x 0).val = (x 0).val; rw [e0]; omega
  | ⟨1, _⟩ => show win1_4.index t 1 * 64 + 1 * (x 1).val = (x 1).val; rw [e1]; omega

/-- The combination at an entry of the whole arrays. -/
theorem combine_ix2_1 (A : S50000x64.Idx → EReal) (D1 : S50000x1.Idx → EReal) (H : S50000x64.Idx → EReal)
    (DI1 : S50000x1.Idx → EReal) (B1 : S1x64.Idx → EReal) (n : Fin 50000) (q : Fin 64) :
    Cert.GCN.combine A D1 H DI1 B1 (ix2 n q)
      = (D1 (ix2 n (0 : Fin 1)) * A (ix2 n q) + DI1 (ix2 n (0 : Fin 1)) * H (ix2 n q)) + B1 (ix2 (0 : Fin 1) q) := rfl

/-- An entry of a tile's combination is the same entry of the whole combination: the tile's row p is the arrays'
    row n, and the bias is the same row. -/
theorem comb_rows1 (b0 : S5000x64.Idx → EReal) (b1 : S5000x1.Idx → EReal) (b2 : S5000x64.Idx → EReal) (b3 : S5000x1.Idx → EReal)
    (b4 : S1x64.Idx → EReal) (A : S50000x64.Idx → EReal) (D1 : S50000x1.Idx → EReal) (H : S50000x64.Idx → EReal)
    (DI1 : S50000x1.Idx → EReal) (B1 : S1x64.Idx → EReal) (p : Fin 5000) (q : Fin 64) (n : Fin 50000)
    (h0 : b0 (ix2 p q) = A (ix2 n q)) (h1 : b1 (ix2 p (0 : Fin 1)) = D1 (ix2 n (0 : Fin 1)))
    (h2 : b2 (ix2 p q) = H (ix2 n q)) (h3 : b3 (ix2 p (0 : Fin 1)) = DI1 (ix2 n (0 : Fin 1)))
    (h4 : b4 (ix2 (0 : Fin 1) q) = B1 (ix2 (0 : Fin 1) q)) :
    (b1 (ix2 p (0 : Fin 1)) * b0 (ix2 p q) + b3 (ix2 p (0 : Fin 1)) * b2 (ix2 p q)) + b4 (ix2 (0 : Fin 1) q)
      = Cert.GCN.combine A D1 H DI1 B1 (ix2 n q) := by
  rw [combine_ix2_1, h0, h1, h2, h3, h4]

/-- Where block t of the row-tiled output sends an entry of the tile. -/
theorem emb1_5 (t : Fin cfg1.N) (j : S5000x64.Idx) (n : Fin 50000) (hn : n.val = 5000 * t.val + (j 0).val) :
    ((cfg1.win 5).blk t).view.emb j = ix2 n (j 1) := by
  obtain ⟨-, -, -, -, -, -, -, -, -, -, e0, e1⟩ := idx_facts1 t
  funext a
  apply Fin.ext
  match a with
  | ⟨0, _⟩ => show win1_5.index t 0 * 5000 + 1 * (j 0).val = n.val; rw [e0, hn]; omega
  | ⟨1, _⟩ => show win1_5.index t 1 * 64 + 1 * (j 1).val = (j 1).val; rw [e1]; omega

theorem N1_eq : cfg1.N = 10 := by decide

/-- The row of the whole array that entry j of tile t is. -/
def rowOf1 (t : Fin cfg1.N) (j : S5000x64.Idx) : Fin 50000 :=
  ⟨5000 * t.val + (j 0).val, by have h1 : t.val < 10 := lt_of_lt_of_eq t.isLt N1_eq; have h2 := idx2_lt0 j; omega⟩

/-- WHAT TILE t WRITES BACK is block t of the combination of the whole arrays. -/
theorem flushed1_5_eq (c : Dev nD) (t : Fin cfg1.N) :
    (dat1 V c).flushed 5 t = ((cfg1.win 5).blk t).view.read (Elt Ideal)
      (Cert.GCN.combine (V c main_v24) (V c main_v25) (V c main_v14_0) (V c main_v26) (V c main_v27)) := by
  show (cfg1.win 5).cut (grid1.coords t) ((dat1 V c).after 5 t) = _
  rw [after1_5]
  unfold out1_5
  rw [View.canon_unit_zero hz2_1]
  simp only [View.ld_unit_zero (S := S5000x64) hz2_1, View.ld_unit_zero (S := S5000x1) hz2_1, View.ld_unit_zero (S := S1x64) hz2_1]
  funext j
  show k1_pay1 (F := Ideal) (iblk1 V c 1 t) (iblk1 V c 0 t) (iblk1 V c 3 t) (iblk1 V c 2 t) (iblk1 V c 4 t) j
    = Cert.GCN.combine (V c main_v24) (V c main_v25) (V c main_v14_0) (V c main_v26) (V c main_v27) (((cfg1.win 5).blk t).view.emb j)
  rw [emb1_5 t j (rowOf1 t j) rfl]
  refine Eq.trans ?_ (comb_rows1 (iblk1 V c 0 t) (iblk1 V c 1 t) (iblk1 V c 2 t) (iblk1 V c 3 t) (iblk1 V c 4 t)
    (V c main_v24) (V c main_v25) (V c main_v14_0) (V c main_v26) (V c main_v27) (j 0) (j 1) (rowOf1 t j)
    (iblk1_0_apply V c t (ix2 (j 0) (j 1)) (ix2 (rowOf1 t j) (j 1)) rfl rfl)
    (iblk1_1_apply V c t (ix2 (j 0) (0 : Fin 1)) (ix2 (rowOf1 t j) (0 : Fin 1)) rfl rfl)
    (iblk1_2_apply V c t (ix2 (j 0) (j 1)) (ix2 (rowOf1 t j) (j 1)) rfl rfl)
    (iblk1_3_apply V c t (ix2 (j 0) (0 : Fin 1)) (ix2 (rowOf1 t j) (0 : Fin 1)) rfl rfl)
    (iblk1_4_apply V c t (ix2 (0 : Fin 1) (j 1))))
  exact (congrArg (k1_pay1 (F := Ideal) (iblk1 V c 1 t) (iblk1 V c 0 t) (iblk1 V c 3 t) (iblk1 V c 2 t) (iblk1 V c 4 t)) (eq_ix2 j)).trans
    (pay1_1_apply (iblk1 V c 1 t) (iblk1 V c 0 t) (iblk1 V c 3 t) (iblk1 V c 2 t) (iblk1 V c 4 t) (j 0) (j 1))

/-- Every entry of a [50000, 64] array lies in the tile its row falls in. -/
theorem cover1_w5 (i : S50000x64.Idx) : ∃ t : Fin cfg1.N, (cfg1.win 5).flush t = true ∧ i ∈ ((cfg1.win 5).blk t).view.set := by
  have hi0 := idx2_lt0 i
  have hi1 := idx2_lt1 i
  have ht : (i 0).val / 5000 < cfg1.N := by rw [N1_eq]; omega
  refine ⟨⟨(i 0).val / 5000, ht⟩, flush1_5 _, ?_⟩
  obtain ⟨-, -, -, -, -, -, -, -, -, -, e0, e1⟩ := idx_facts1 ⟨(i 0).val / 5000, ht⟩
  show i ∈ ((View.whole main_v28).slice (win1_5.rect ⟨(i 0).val / 5000, ht⟩)).set
  rw [View.set_slice_whole, Rect.mem_set_unit]
  intro a
  match a with
  | ⟨0, _⟩ =>
    show win1_5.index ⟨(i 0).val / 5000, ht⟩ 0 * 5000 ≤ (i 0).val ∧ (i 0).val < win1_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ 1 * 64 ≤ (i 1).val ∧ (i 1).val < win1_5.index ⟨(i 0).val / 5000, ht⟩ 1 * 64 + 64
    rw [e1]; omega

/-- THE OUTPUT ARRAY after the launch: the combination of the five arrays as entered. -/
theorem final1_5 (c : Dev nD) :
    (dat1 V c).arrAt 5 cfg1.N
      = Cert.GCN.combine (V c main_v24) (V c main_v25) (V c main_v14_0) (V c main_v26) (V c main_v27) :=
  (dat1 V c).arrAt_eq_of_cover 5 _ (fun t _ => flushed1_5_eq V c t) cover1_w5

end Region1

end Cert.KernelIdeal.Hand

end
-- ==== Proof.KLin2.lean ====
/-
  What the second linear launch leaves in its two output arrays: as for the first one, the plain product of the
  feature array and the weight matrix it is given, and that product with row n scaled by the column's entry n.
  (Its body first passes the feature tile through a cast to its own shape, which is the identity.)
-/
import proofs.«141009_j73254962200757_2_alg».proof.Proof.Gen.KernelIdeal.Frame
import proofs.«141009_j73254962200757_2_alg».proof.Proof.Spec
import proofs.«141009_j73254962200757_2_alg».proof.Proof.LibMatmul
import proofs.«141009_j73254962200757_2_alg».proof.Proof.LibPlainDims
import proofs.«141009_j73254962200757_2_alg».proof.Proof.LibKeepdims
import proofs.«141009_j73254962200757_2_alg».proof.Proof.KLin0
import Idealize.ShloMosaic.Lib.Pipeline.Value
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- The stored product at an entry of the tile: the sum over the contracted axis. -/
theorem pay2_1_apply (x0 : Vec Ideal S5000x64 .f32) (x1 : Vec Ideal S64x64 .f32) (p : Fin 5000) (q : Fin 64) :
    k2_pay1 (F := Ideal) x0 x1 (ix2 p q) = ∑ k : Fin 64, x0 (ix2 p k) * x1 (ix2 k q) := by
  unfold k2_pay1
  rw [shapeCast_self]
  exact (Cert.LibMatmul.matmul_zero_ix2 dot_S5000x64_S64x64_S5000x64_1_0_0_1_n_n plain_5000.rank plain_5000.size
    plain_5000.l0 plain_5000.l1 plain_5000.r0 plain_5000.r1 none _ _ p q).trans (Finset.sum_congr rfl fun _ _ => rfl)

/-- The scaled product at an entry of the tile. -/
theorem pay2_2_apply (x0 : Vec Ideal S5000x64 .f32) (x1 : Vec Ideal S64x64 .f32) (x2 : Vec Ideal S5000x1 .f32) (p : Fin 5000) (q : Fin 64) :
    k2_pay2 (F := Ideal) x0 x1 x2 (ix2 p q) = (∑ k : Fin 64, x0 (ix2 p k) * x1 (ix2 k q)) * x2 (ix2 p (0 : Fin 1)) := by
  unfold k2_pay2
  show k2_pay1 (F := Ideal) x0 x1 (ix2 p q) * broadcastTo S5000x64 (shapeCast S5000x1 x2 shapeCasts_S5000x1_S5000x1) broadcasts_S5000x1_S5000x64 (ix2 p q) = _
  rw [pay2_1_apply, Cert.LibKeepdims.broadcastTo_a1_ab_apply, shapeCast_self]

section Region2
variable (V : (c : Dev nD) → (b : Ref sig .tc) → Buf (Elt Ideal) ((c : Thread nD τ).loc b))

/-- The printed index maps over the ten tiles: the row-tiled windows sit at tile t, the weight stays put. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The feature window's block at tile t is rows 5000 t … of the feature array. -/
theorem iblk2_0_apply (c : Dev nD) (t : Fin cfg2.N) (x : S5000x64.Idx) (k : S50000x64.Idx)
    (hk0 : (k 0).val = 5000 * t.val + (x 0).val) (hk1 : (k 1).val = (x 1).val) :
    (iblk2 V c 0 t : Vec Ideal S5000x64 .f32) x = (V c main_v28 : S50000x64.Idx → EReal) k := by
  obtain ⟨e0, e1, -⟩ := idx_facts2 t
  unfold iblk2
  rw [View.read_apply]
  show V c main_v28 _ = V c main_v28 _
  congr 1
  funext a
  apply Fin.ext
  match a with
  | ⟨0, _⟩ => show win2_0.index t 0 * 5000 + 1 * (x 0).val = (k 0).val; rw [e0, hk0]; omega
  | ⟨1, _⟩ => show win2_0.index t 1 * 64 + 1 * (x 1).val = (k 1).val; rw [e1, hk1]; omega

/-- The weight window's block is the weight array at every tile. -/
theorem iblk2_1_apply (c : Dev nD) (t : Fin cfg2.N) (x : S64x64.Idx) :
    (iblk2 V c 1 t : Vec Ideal S64x64 .f32) x = (V c main_arg3 : S64x64.Idx → EReal) x := by
  obtain ⟨-, -, e0, e1, -⟩ := idx_facts2 t
  unfold iblk2
  rw [View.read_apply]
  show V c main_arg3 _ = V c main_arg3 _
  congr 1
  funext a
  apply Fin.ext
  match a with
  | ⟨0, _⟩ => show win2_1.index t 0 * 64 + 1 * (x 0).val = (x 0).val; rw [e0]; omega
  | ⟨1, _⟩ => show win2_1.index t 1 * 64 + 1 * (x 1).val = (x 1).val; rw [e1]; omega

/-- The column window's block at tile t is rows 5000 t … of the column. -/
theorem iblk2_2_apply (c : Dev nD) (t : Fin cfg2.N) (x : S5000x1.Idx) (k : S50000x1.Idx)
    (hk0 : (k 0).val = 5000 * t.val + (x 0).val) (hk1 : (k 1).val = (x 1).val) :
    (iblk2 V c 2 t : Vec Ideal S5000x1 .f32) x = (V c main_v29 : S50000x1.Idx → EReal) k := by
  obtain ⟨-, -, -, -, e0, e1, -⟩ := idx_facts2 t
  unfold iblk2
  rw [View.read_apply]
  show V c main_v29 _ = V c main_v29 _
  congr 1
  funext a
  apply Fin.ext
  match a with
  | ⟨0, _⟩ => show win2_2.index t 0 * 5000 + 1 * (x 0).val = (k 0).val; rw [e0, hk0]; omega
  | ⟨1, _⟩ => show win2_2.index t 1 * 1 + 1 * (x 1).val = (k 1).val; rw [e1, hk1]; omega

/-- Where block t of a row-tiled output sends an entry of the tile. -/
theorem emb2_3 (t : Fin cfg2.N) (j : S5000x64.Idx) (n : Fin 50000) (hn : n.val = 5000 * t.val + (j 0).val) :
    ((cfg2.win 3).blk t).view.emb j = ix2 n (j 1) := by
  obtain ⟨-, -, -, -, -, -, e0, e1, -⟩ := idx_facts2 t
  funext a
  apply Fin.ext
  match a with
  | ⟨0, _⟩ => show win2_3.index t 0 * 5000 + 1 * (j 0).val = n.val; rw [e0, hn]; omega
  | ⟨1, _⟩ => show win2_3.index t 1 * 64 + 1 * (j 1).val = (j 1).val; rw [e1]; omega

theorem emb2_4 (t : Fin cfg2.N) (j : S5000x64.Idx) (n : Fin 50000) (hn : n.val = 5000 * t.val + (j 0).val) :
    ((cfg2.win 4).blk t).view.emb j = ix2 n (j 1) := by
  obtain ⟨-, -, -, -, -, -, -, -, e0, e1⟩ := idx_facts2 t
  funext a
  apply Fin.ext
  match a with
  | ⟨0, _⟩ => show win2_4.index t 0 * 5000 + 1 * (j 0).val = n.val; rw [e0, hn]; omega
  | ⟨1, _⟩ => show win2_4.index t 1 * 64 + 1 * (j 1).val = (j 1).val; rw [e1]; omega

theorem N2_eq : cfg2.N = 10 := by decide

/-- The row of the whole array that entry j of tile t is. -/
def rowOf2 (t : Fin cfg2.N) (j : S5000x64.Idx) : Fin 50000 :=
  ⟨5000 * t.val + (j 0).val, by have h1 : t.val < 10 := lt_of_lt_of_eq t.isLt N2_eq; have h2 := idx2_lt0 j; omega⟩

/-- WHAT TILE t WRITES BACK to the first output is block t of the plain product of the arrays. -/
theorem flushed2_3_eq (c : Dev nD) (t : Fin cfg2.N) :
    (dat2 V c).flushed 3 t = ((cfg2.win 3).blk t).view.read (Elt Ideal) (Cert.LibProd.prod (V c main_v28) (V c main_arg3)) := by
  show (cfg2.win 3).cut (grid2.coords t) ((dat2 V c).after 3 t) = _
  rw [after2_3]
  unfold out2_3
  rw [View.canon_unit_zero hz2]
  simp only [View.ld_unit_zero (S := S5000x64) hz2, View.ld_unit_zero (S := S64x64) hz2]
  funext j
  show k2_pay1 (F := Ideal) (iblk2 V c 0 t) (iblk2 V c 1 t) j
    = Cert.LibProd.prod (V c main_v28) (V c main_arg3) (((cfg2.win 3).blk t).view.emb j)
  rw [emb2_3 t j (rowOf2 t j) rfl]
  refine Eq.trans ?_ (prod_rows (iblk2 V c 0 t) (iblk2 V c 1 t) (V c main_v28) (V c main_arg3) (j 0) (j 1) (rowOf2 t j)
    (fun k => iblk2_0_apply V c t (ix2 (j 0) k) (ix2 (rowOf2 t j) k) rfl rfl) (fun k => iblk2_1_apply V c t (ix2 k (j 1))))
  exact (congrArg (k2_pay1 (F := Ideal) (iblk2 V c 0 t) (iblk2 V c 1 t)) (eq_ix2 j)).trans
    (pay2_1_apply (iblk2 V c 0 t) (iblk2 V c 1 t) (j 0) (j 1))

/-- WHAT TILE t WRITES BACK to the second output is block t of the product scaled row by row by the column. -/
theorem flushed2_4_eq (c : Dev nD) (t : Fin cfg2.N) :
    (dat2 V c).flushed 4 t = ((cfg2.win 4).blk t).view.read (Elt Ideal)
      (Cert.GCN.scaled (Cert.LibProd.prod (V c main_v28) (V c main_arg3)) (V c main_v29)) := by
  show (cfg2.win 4).cut (grid2.coords t) ((dat2 V c).after 4 t) = _
  rw [after2_4]
  unfold out2_4
  rw [View.canon_unit_zero hz2]
  simp only [View.ld_unit_zero (S := S5000x64) hz2, View.ld_unit_zero (S := S64x64) hz2, View.ld_unit_zero (S := S5000x1) hz2]
  funext j
  show k2_pay2 (F := Ideal) (iblk2 V c 0 t) (iblk2 V c 1 t) (iblk2 V c 2 t) j
    = Cert.GCN.scaled (Cert.LibProd.prod (V c main_v28) (V c main_arg3)) (V c main_v29) (((cfg2.win 4).blk t).view.emb j)
  rw [emb2_4 t j (rowOf2 t j) rfl]
  refine ((congrArg (k2_pay2 (F := Ideal) (iblk2 V c 0 t) (iblk2 V c 1 t) (iblk2 V c 2 t)) (eq_ix2 j)).trans
    (pay2_2_apply (iblk2 V c 0 t) (iblk2 V c 1 t) (iblk2 V c 2 t) (j 0) (j 1))).trans ?_
  show _ = Cert.LibProd.prod (V c main_v28) (V c main_arg3) (ix2 (rowOf2 t j) (j 1)) * (V c main_v29 : S50000x1.Idx → EReal) (ix2 (rowOf2 t j) (0 : Fin 1))
  rw [prod_rows (iblk2 V c 0 t) (iblk2 V c 1 t) (V c main_v28) (V c main_arg3) (j 0) (j 1) (rowOf2 t j)
      (fun k => iblk2_0_apply V c t (ix2 (j 0) k) (ix2 (rowOf2 t j) k) rfl rfl) (fun k => iblk2_1_apply V c t (ix2 k (j 1))),
    iblk2_2_apply V c t (ix2 (j 0) (0 : Fin 1)) (ix2 (rowOf2 t j) (0 : Fin 1)) rfl rfl]

/-- Every entry of a [50000, 64] array lies in the tile its row falls in. -/
theorem cover2_w3 (i : S50000x64.Idx) : ∃ t : Fin cfg2.N, (cfg2.win 3).flush t = true ∧ i ∈ ((cfg2.win 3).blk t).view.set := by
  have hi0 := idx2_lt0 i
  have hi1 := idx2_lt1 i
  have ht : (i 0).val / 5000 < cfg2.N := by rw [N2_eq]; omega
  refine ⟨⟨(i 0).val / 5000, ht⟩, flush2_3 _, ?_⟩
  obtain ⟨-, -, -, -, -, -, e0, e1, -⟩ := idx_facts2 ⟨(i 0).val / 5000, ht⟩
  show i ∈ ((View.whole main_v30_0).slice (win2_3.rect ⟨(i 0).val / 5000, ht⟩)).set
  rw [View.set_slice_whole, Rect.mem_set_unit]
  intro a
  match a with
  | ⟨0, _⟩ =>
    show win2_3.index ⟨(i 0).val / 5000, ht⟩ 0 * 5000 ≤ (i 0).val ∧ (i 0).val < win2_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win2_3.index ⟨(i 0).val / 5000, ht⟩ 1 * 64 ≤ (i 1).val ∧ (i 1).val < win2_3.index ⟨(i 0).val / 5000, ht⟩ 1 * 64 + 64
    rw [e1]; omega

theorem cover2_w4 (i : S50000x64.Idx) : ∃ t : Fin cfg2.N, (cfg2.win 4).flush t = true ∧ i ∈ ((cfg2.win 4).blk t).view.set := by
  have hi0 := idx2_lt0 i
  have hi1 := idx2_lt1 i
  have ht : (i 0).val / 5000 < cfg2.N := by rw [N2_eq]; omega
  refine ⟨⟨(i 0).val / 5000, ht⟩, flush2_4 _, ?_⟩
  obtain ⟨-, -, -, -, -, -, -, -, e0, e1⟩ := idx_facts2 ⟨(i 0).val / 5000, ht⟩
  show i ∈ ((View.whole main_v30_1).slice (win2_4.rect ⟨(i 0).val / 5000, ht⟩)).set
  rw [View.set_slice_whole, Rect.mem_set_unit]
  intro a
  match a with
  | ⟨0, _⟩ =>
    show win2_4.index ⟨(i 0).val / 5000, ht⟩ 0 * 5000 ≤ (i 0).val ∧ (i 0).val < win2_4.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win2_4.index ⟨(i 0).val / 5000, ht⟩ 1 * 64 ≤ (i 1).val ∧ (i 1).val < win2_4.index ⟨(i 0).val / 5000, ht⟩ 1 * 64 + 64
    rw [e1]; omega

/-- THE FIRST OUTPUT ARRAY after the launch: the plain product of the feature and weight arrays as entered. -/
theorem final2_3 (c : Dev nD) :
    (dat2 V c).arrAt 3 cfg2.N = Cert.LibProd.prod (V c main_v28) (V c main_arg3) :=
  (dat2 V c).arrAt_eq_of_cover 3 _ (fun t _ => flushed2_3_eq V c t) cover2_w3

/-- THE SECOND OUTPUT ARRAY after the launch: that product with row n scaled by the column's entry n. -/
theorem final2_4 (c : Dev nD) :
    (dat2 V c).arrAt 4 cfg2.N = Cert.GCN.scaled (Cert.LibProd.prod (V c main_v28) (V c main_arg3)) (V c main_v29) :=
  (dat2 V c).arrAt_eq_of_cover 4 _ (fun t _ => flushed2_4_eq V c t) cover2_w4

end Region2

end Cert.KernelIdeal.Hand

end
-- ==== Proof.HostRead.lean ====
/-
  The host's steps between the launches, read at an index.

  Each lemma takes the dimension-number record and the index column as variables (with the equations that say what
  they are), so that it applies to whichever program spells the step.

  * the degree: a scatter-add of ones into zeros at the destination column, plus one;
  * rows taken at the wrapped source column and added at the destination column, into zeros: for node n the sum
    over the edges counting for n of the table's row at the edge's source;
  * per-graph sums: rows added at the batch column, into zeros; and the per-graph counts.
-/
import proofs.«141009_j73254962200757_2_alg».proof.Proof.Spec
import proofs.«141009_j73254962200757_2_alg».proof.Proof.LibIndexed
import proofs.«141009_j73254962200757_2_alg».proof.Proof.LibBcast
import proofs.«141009_j73254962200757_2_alg».proof.Proof.LibKeepdims

noncomputable section

open scoped BigOperators

namespace Cert.GCN

open Idealize.ShloMosaic Idealize.ShloMosaic.ValueIdx

/-- The degree of node n. -/
theorem deg_read (ei : IVec SEI 32) (d : ScatterDims (⟨1, ![50000]⟩ : Shape) (⟨2, ![800000, 1]⟩ : Shape) (⟨1, ![800000]⟩ : Shape))
    (h_uw : d.updateWindowDims = []) (h_iw : d.insertedWindowDims = [0]) (h_sd : d.scatterDimsToOperandDims = [0]) (h_iv : d.indexVectorDim = 1)
    (hbN : (⟨0, ![]⟩ : Shape).BroadcastsInDim (⟨1, ![50000]⟩ : Shape) ![]) (hbE : (⟨0, ![]⟩ : Shape).BroadcastsInDim (⟨1, ![800000]⟩ : Shape) ![])
    (dstcol : IVec (⟨2, ![800000, 1]⟩ : Shape) 32) (hd : ∀ e : Fin 800000, dstcol (ix2 e (0 : Fin 1)) = ei (ix2 (1 : Fin 2) e)) (n : Fin 50000) :
    addf (Host.scatterAdd (F := Ideal) d (broadcastInDim (⟨1, ![50000]⟩ : Shape) ![] hbN (constant (F := Ideal) (⟨0, ![]⟩ : Shape) .f32 0x00000000#32)) dstcol
        (broadcastInDim (⟨1, ![800000]⟩ : Shape) ![] hbE (constant (F := Ideal) (⟨0, ![]⟩ : Shape) .f32 0x3F800000#32)))
      (broadcastInDim (⟨1, ![50000]⟩ : Shape) ![] hbN (constant (F := Ideal) (⟨0, ![]⟩ : Shape) .f32 0x3F800000#32)) (ix1 n) = deg ei n := by
  rw [addf_apply, Cert.LibIndexed.flat_host_scatterAdd_apply d h_uw h_iw h_sd h_iv]
  simp only [Cert.LibBcast.bcast_scalar_apply, constant_apply]
  unfold deg inEdges
  refine congrArg (· + one32) (congrArg (zero32 + ·) ?_)
  exact Finset.sum_congr (Finset.filter_congr fun e _ => by rw [hd e]) fun _ _ => rfl

/-- Rows of a table taken at the edges' sources and added at the edges' destinations, into zeros. -/
theorem edgeSum_read (ei : IVec SEI 32)
    (d : ScatterDims (⟨2, ![50000, 64]⟩ : Shape) (⟨2, ![800000, 1]⟩ : Shape) (⟨2, ![800000, 64]⟩ : Shape))
    (h_uw : d.updateWindowDims = [1]) (h_iw : d.insertedWindowDims = [0]) (h_sd : d.scatterDimsToOperandDims = [0]) (h_iv : d.indexVectorDim = 1)
    (g : GatherDims (⟨2, ![50000, 64]⟩ : Shape) (⟨2, ![800000, 1]⟩ : Shape) (⟨2, ![800000, 64]⟩ : Shape))
    (h_od : g.offsetDims = [1]) (h_cd : g.collapsedSliceDims = [0]) (h_ob : g.operandBatchingDims = [])
    (h_sb : g.startIndicesBatchingDims = []) (h_sm : g.startIndexMap = [0]) (h_giv : g.indexVectorDim = 1) (h_ss : g.sliceSizes = ![1, 64])
    (hbN : (⟨0, ![]⟩ : Shape).BroadcastsInDim (⟨2, ![50000, 64]⟩ : Shape) ![])
    (dstcol srccol : IVec (⟨2, ![800000, 1]⟩ : Shape) 32)
    (hd : ∀ e : Fin 800000, dstcol (ix2 e (0 : Fin 1)) = ei (ix2 (1 : Fin 2) e))
    (hs : ∀ e : Fin 800000, srccol (ix2 e (0 : Fin 1)) = wrapN (ei (ix2 (0 : Fin 2) e)))
    (T : FVec Ideal (⟨2, ![50000, 64]⟩ : Shape) .f32) (n : Fin 50000) (q : Fin 64) :
    Host.scatterAdd (F := Ideal) d (broadcastInDim (⟨2, ![50000, 64]⟩ : Shape) ![] hbN (constant (F := Ideal) (⟨0, ![]⟩ : Shape) .f32 0x00000000#32)) dstcol
        (Host.gather g T srccol) (ix2 n q) = edgeSum ei T (ix2 n q) := by
  rw [Cert.LibIndexed.row_host_scatterAdd_apply d h_uw h_iw h_sd h_iv]
  simp only [Cert.LibBcast.bcast_scalar_apply, constant_apply]
  show zero32 + _ = zero32 + ∑ e ∈ inEdges ei n, T (ix2 (srcp ei e) q)
  refine congrArg (zero32 + ·) ?_
  unfold inEdges
  refine Finset.sum_congr (Finset.filter_congr fun e _ => by rw [hd e]) fun e _ => ?_
  rw [Cert.LibIndexed.row_gather_apply (by omega) g h_od h_cd h_ob h_sb h_sm h_giv h_ss]
  refine congrArg (fun r : Fin 50000 => T (ix2 r q)) (Fin.ext ?_)
  show min (srccol (ix2 e (0 : Fin 1))).toInt.toNat (50000 - 1) = min (wrapN (ei (ix2 (0 : Fin 2) e))).toInt.toNat (50000 - 1)
  rw [hs e]

/-- Per-graph sums of node rows. -/
theorem sums_read (bt : IVec SN 32)
    (d : ScatterDims (⟨2, ![512, 64]⟩ : Shape) (⟨2, ![50000, 1]⟩ : Shape) (⟨2, ![50000, 64]⟩ : Shape))
    (h_uw : d.updateWindowDims = [1]) (h_iw : d.insertedWindowDims = [0]) (h_sd : d.scatterDimsToOperandDims = [0]) (h_iv : d.indexVectorDim = 1)
    (hbG : (⟨0, ![]⟩ : Shape).BroadcastsInDim (⟨2, ![512, 64]⟩ : Shape) ![])
    (btcol : IVec (⟨2, ![50000, 1]⟩ : Shape) 32) (hb : ∀ n : Fin 50000, btcol (ix2 n (0 : Fin 1)) = bt (ix1 n))
    (Y : FVec Ideal (⟨2, ![50000, 64]⟩ : Shape) .f32) (gph : Fin 512) (q : Fin 64) :
    Host.scatterAdd (F := Ideal) d (broadcastInDim (⟨2, ![512, 64]⟩ : Shape) ![] hbG (constant (F := Ideal) (⟨0, ![]⟩ : Shape) .f32 0x00000000#32)) btcol Y (ix2 gph q)
      = sums bt Y (ix2 gph q) := by
  rw [Cert.LibIndexed.row_host_scatterAdd_apply d h_uw h_iw h_sd h_iv]
  simp only [Cert.LibBcast.bcast_scalar_apply, constant_apply]
  show zero32 + _ = zero32 + ∑ n ∈ segOf bt gph, Y (ix2 n q)
  refine congrArg (zero32 + ·) ?_
  unfold segOf
  exact Finset.sum_congr (Finset.filter_congr fun n _ => by rw [hb n]) fun _ _ => rfl

/-- Per-graph node counts. -/
theorem cnt_read (bt : IVec SN 32)
    (d : ScatterDims (⟨1, ![512]⟩ : Shape) (⟨2, ![50000, 1]⟩ : Shape) (⟨1, ![50000]⟩ : Shape))
    (h_uw : d.updateWindowDims = []) (h_iw : d.insertedWindowDims = [0]) (h_sd : d.scatterDimsToOperandDims = [0]) (h_iv : d.indexVectorDim = 1)
    (hbG : (⟨0, ![]⟩ : Shape).BroadcastsInDim (⟨1, ![512]⟩ : Shape) ![]) (hbN : (⟨0, ![]⟩ : Shape).BroadcastsInDim (⟨1, ![50000]⟩ : Shape) ![])
    (btcol : IVec (⟨2, ![50000, 1]⟩ : Shape) 32) (hb : ∀ n : Fin 50000, btcol (ix2 n (0 : Fin 1)) = bt (ix1 n)) (gph : Fin 512) :
    Host.scatterAdd (F := Ideal) d (broadcastInDim (⟨1, ![512]⟩ : Shape) ![] hbG (constant (F := Ideal) (⟨0, ![]⟩ : Shape) .f32 0x00000000#32)) btcol
        (broadcastInDim (⟨1, ![50000]⟩ : Shape) ![] hbN (constant (F := Ideal) (⟨0, ![]⟩ : Shape) .f32 0x3F800000#32)) (ix1 gph)
      = cnt bt gph := by
  rw [Cert.LibIndexed.flat_host_scatterAdd_apply d h_uw h_iw h_sd h_iv]
  simp only [Cert.LibBcast.bcast_scalar_apply, constant_apply]
  unfold cnt segOf
  refine congrArg (zero32 + ·) ?_
  exact Finset.sum_congr (Finset.filter_congr fun n _ => by rw [hb n]) fun _ _ => rfl

end Cert.GCN

end
-- ==== Proof.KBlockB.lean ====
/-
  The buffer contents across one layer's host stretch and combination launch, and the next layer's linear launch.

  Entering with a layer's product H = X W in one array and H scaled row by row by the reciprocal square roots of
  the degrees in another, the host gathers the scaled rows at the edges' sources and adds them at the edges'
  destinations, reshapes the two degree vectors into columns and the bias into a row; the combination launch
  leaves the layer of the specification; the host reshapes the reciprocal square roots again and the linear
  launch leaves the next layer's product and scaled product. The edge list's rows and the two degree vectors
  pass through unchanged.
-/
import proofs.«141009_j73254962200757_2_alg».proof.Proof.Gen.KernelIdeal.Frame
import proofs.«141009_j73254962200757_2_alg».proof.Proof.Spec
import proofs.«141009_j73254962200757_2_alg».proof.Proof.KComb1
import proofs.«141009_j73254962200757_2_alg».proof.Proof.KLin2
import proofs.«141009_j73254962200757_2_alg».proof.Proof.HostRead
import proofs.«141009_j73254962200757_2_alg».proof.Proof.RefIdx
import proofs.«141009_j73254962200757_2_alg».proof.Proof.RefDeg
import proofs.«141009_j73254962200757_2_alg».proof.Proof.LibKeepdims
import proofs.«141009_j73254962200757_2_alg».proof.Proof.LibBcast
import Idealize.ShloMosaic.Lib.StableHlo.Run
import Idealize.ShloMosaic.Lib.Pipeline.Value
import Idealize.ShloMosaic.Lib.ValueLayout
import Idealize.ShloMosaic.Lib.Tactic

set_option maxRecDepth 16384
set_option pp.maxSteps 5000
set_option pp.deepTerms false

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Hand

open Cert.KernelIdeal Cert.KernelIdeal.Gen Cert.GCN Cert.LibProd

/-- A buffer that no operation of a host stretch writes holds after the stretch what it held before. -/
macro "host_keepB " ops:ident : tactic => `(tactic| (
  refine StableHlo.after_of_forall_not_mem _ _ (List.forall_iff_forall_mem.mp ?_)
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The stretch's steps over plain variables -/

/-- The destination column: row 1 of the edge list as a column. -/
theorem dstcolB (x13 : IVec S2x800000 32) (e : Fin 800000) :
    broadcastInDim S800000x1 ![0] bcast_S800000_S800000x1_0 (Cert.ReferenceIdeal.Read.val_main_v3 (F := Ideal) x13) (ix2 e (0 : Fin 1))
      = x13 (ix2 (1 : Fin 2) e) := by
  rw [Cert.LibBcast.bcast_a_a1_apply, Cert.ReferenceIdeal.RefValue.v3_ix1]

/-- The source column: row 0 of the edge list, a negative word counted from the end, as a column. -/
theorem srccolB (x13 : IVec S2x800000 32) (e : Fin 800000) :
    broadcastInDim S800000x1 ![0] bcast_S800000_S800000x1_0
      (select (cmpi CmpIPredicate.slt (Cert.ReferenceIdeal.Read.val_main_v1 (F := Ideal) x13) (broadcastInDim S800000 ![] bcast_S_S800000 (constantI S_ 32 0#32)))
        (addi (Cert.ReferenceIdeal.Read.val_main_v1 (F := Ideal) x13) (broadcastInDim S800000 ![] bcast_S_S800000 (constantI S_ 32 50000#32)))
        (Cert.ReferenceIdeal.Read.val_main_v1 (F := Ideal) x13)) (ix2 e (0 : Fin 1))
      = wrapN (x13 (ix2 (0 : Fin 2) e)) := by
  rw [Cert.LibBcast.bcast_a_a1_apply, select_apply]
  show Scalar.select (IntOp.cmpi .slt (Cert.ReferenceIdeal.Read.val_main_v1 (F := Ideal) x13 (ix1 e)) (broadcastInDim S800000 ![] bcast_S_S800000 (constantI S_ 32 0#32) (ix1 e)))
      (IntOp.addi (Cert.ReferenceIdeal.Read.val_main_v1 (F := Ideal) x13 (ix1 e)) (broadcastInDim S800000 ![] bcast_S_S800000 (constantI S_ 32 50000#32) (ix1 e)))
      (Cert.ReferenceIdeal.Read.val_main_v1 (F := Ideal) x13 (ix1 e)) = _
  rw [Cert.LibBcast.bcast_scalar_apply, Cert.LibBcast.bcast_scalar_apply, constantI_apply, constantI_apply, Cert.ReferenceIdeal.RefValue.v1_ix1]
  rfl

/-- A vector reshaped into a column is the column of its entries. -/
theorem colcastB (v : (⟨1, ![50000]⟩ : Shape).Idx → EReal) (f : Fin 50000 → EReal)
    (h : (⟨1, ![50000]⟩ : Shape).ShapeCasts ⟨2, ![50000, 1]⟩) (hv : ∀ n, v (ix1 n) = f n) :
    shapeCast (⟨2, ![50000, 1]⟩ : Shape) v h = col f := by
  funext i
  obtain ⟨n, u, rfl⟩ : ∃ (n : Fin 50000) (u : Fin 1), i = ix2 n u := ⟨i 0, i 1, eq_ix2 i⟩
  rw [Cert.LibKeepdims.shapeCast_a_a1_apply, hv]
  unfold col
  rfl

/-- A vector reshaped into a row is the row of its entries. -/
theorem rowcastB (b : (⟨1, ![64]⟩ : Shape).Idx → EReal) (h : (⟨1, ![64]⟩ : Shape).ShapeCasts ⟨2, ![1, 64]⟩) :
    shapeCast (⟨2, ![1, 64]⟩ : Shape) b h = row b := by
  funext j
  refine (shapeCast_addUnit_apply (n := 1) ![64] b h j).trans ?_
  show b (fun a => j a.succ) = b (ix1 (j 1))
  refine congrArg b (funext fun a => ?_)
  match a with
  | ⟨0, _⟩ => rfl

theorem combine_congrB (A A' : FVec Ideal SN64 .f32) (D1 D1' : FVec Ideal SN1 .f32) (H H' : FVec Ideal SN64 .f32) (DI1 DI1' : FVec Ideal SN1 .f32)
    (B1 B1' : FVec Ideal (⟨2, ![1, 64]⟩ : Shape) .f32) (hA : A = A') (hD : D1 = D1') (hH : H = H') (hDI : DI1 = DI1') (hB : B1 = B1') :
    combine A D1 H DI1 B1 = combine A' D1' H' DI1' B1' := by rw [hA, hD, hH, hDI, hB]

theorem layer_defB (ei : IVec SEI 32) (X : FVec Ideal SN64 .f32) (W : FVec Ideal (⟨2, ![64, 64]⟩ : Shape) .f32)
    (b : FVec Ideal (⟨1, ![64]⟩ : Shape) .f32) :
    layer ei X W b = combine (edgeSum ei (scaled (prod X W) (col (dis ei)))) (col (dis ei)) (prod X W) (col (dinv ei)) (row b) := by
  unfold layer
  rfl

theorem prod_congrB (l l' : FVec Ideal SN64 .f32) (r r' : FVec Ideal (⟨2, ![64, 64]⟩ : Shape) .f32) (hl : l = l') (hr : r = r') :
    prod l r = prod l' r' := by rw [hl, hr]

theorem scaled_congrB (Hh Hh' : FVec Ideal SN64 .f32) (D1 D1' : FVec Ideal SN1 .f32) (hHh : Hh = Hh') (hD : D1 = D1') :
    scaled Hh D1 = scaled Hh' D1' := by rw [hHh, hD]

section BlockB
variable (m : (ℓ : Loc nD τ sig) → Buf (Elt Ideal) ℓ) (ρ : Dev nD → PrngReg)

/-! ## The first stretch: what it keeps and what it computes -/

theorem keepB_v1_W3 (c : Dev nD) : W3 m ρ c (Proc.devRef .tc main_v1) = W2 m ρ c (Proc.devRef .tc main_v1) := by host_keepB hostOps1
theorem keepB_v3_W3 (c : Dev nD) : W3 m ρ c (Proc.devRef .tc main_v3) = W2 m ρ c (Proc.devRef .tc main_v3) := by host_keepB hostOps1
theorem keepB_v10_W3 (c : Dev nD) : W3 m ρ c (Proc.devRef .tc main_v10) = W2 m ρ c (Proc.devRef .tc main_v10) := by host_keepB hostOps1
theorem keepB_v12_W3 (c : Dev nD) : W3 m ρ c (Proc.devRef .tc main_v12) = W2 m ρ c (Proc.devRef .tc main_v12) := by host_keepB hostOps1
theorem keepB_arg3_W3 (c : Dev nD) : W3 m ρ c (Proc.devRef .tc main_arg3) = W2 m ρ c (Proc.devRef .tc main_arg3) := by host_keepB hostOps1
theorem keepB_v14_0_W3 (c : Dev nD) : W3 m ρ c (Proc.devRef .tc main_v14_0) = W2 m ρ c (Proc.devRef .tc main_v14_0) := by host_keepB hostOps1

set_option maxHeartbeats 4000000 in
/-- The aggregate as the stretch spells it, over the contents at entry. -/
theorem termB_agg (c : Dev nD) : W3 m ρ c (Proc.devRef .tc main_v24)
    = Host.scatterAdd (F := Ideal) scatter_S50000x64_S800000x1_S800000x64_1_0_0_1
        (broadcastInDim S50000x64 ![] bcast_S_S50000x64 (constant (F := Ideal) S_ FTy.f32 0#32))
        (broadcastInDim S800000x1 ![0] bcast_S800000_S800000x1_0 (W2 m ρ c (Proc.devRef .tc main_v3)))
        (Host.gather gather_S50000x64_S800000x1_S800000x64_1_0_n_n_0_1_164 (W2 m ρ c (Proc.devRef .tc main_v14_1))
          (broadcastInDim S800000x1 ![0] bcast_S800000_S800000x1_0
            (select (cmpi CmpIPredicate.slt (W2 m ρ c (Proc.devRef .tc main_v1)) (broadcastInDim S800000 ![] bcast_S_S800000 (constantI S_ 32 0#32)))
              (addi (W2 m ρ c (Proc.devRef .tc main_v1)) (broadcastInDim S800000 ![] bcast_S_S800000 (constantI S_ 32 50000#32)))
              (W2 m ρ c (Proc.devRef .tc main_v1))))) := by
  show StableHlo.after hostOps1 (W2 m ρ c) (Proc.devRef .tc main_v24) = _
  after_results <;> rfl

set_option maxHeartbeats 4000000 in
theorem termB_c1 (c : Dev nD) : W3 m ρ c (Proc.devRef .tc main_v25) = shapeCast S50000x1 (W2 m ρ c (Proc.devRef .tc main_v10)) shapeCasts_S50000_S50000x1 := by
  show StableHlo.after hostOps1 (W2 m ρ c) (Proc.devRef .tc main_v25) = _
  after_results <;> rfl

set_option maxHeartbeats 4000000 in
theorem termB_c2 (c : Dev nD) : W3 m ρ c (Proc.devRef .tc main_v26) = shapeCast S50000x1 (W2 m ρ c (Proc.devRef .tc main_v12)) shapeCasts_S50000_S50000x1 := by
  show StableHlo.after hostOps1 (W2 m ρ c) (Proc.devRef .tc main_v26) = _
  after_results <;> rfl

set_option maxHeartbeats 4000000 in
theorem termB_brow (c : Dev nD) : W3 m ρ c (Proc.devRef .tc main_v27) = shapeCast S1x64 (W2 m ρ c (Proc.devRef .tc main_arg2)) shapeCasts_S64_S1x64 := by
  show StableHlo.after hostOps1 (W2 m ρ c) (Proc.devRef .tc main_v27) = _
  after_results <;> rfl

/-- The aggregate is the specification's sum over the edges counting for each node. -/
theorem valB_agg (c : Dev nD) (X : FVec Ideal S50000x64 .f32) (Wt : FVec Ideal S64x64 .f32)
    (h1 : W2 m ρ c (Proc.devRef .tc main_v1) = Cert.ReferenceIdeal.Read.val_main_v1 (F := Ideal) (m ((c : Thread nD τ).loc main_arg13)))
    (h3 : W2 m ρ c (Proc.devRef .tc main_v3) = Cert.ReferenceIdeal.Read.val_main_v3 (F := Ideal) (m ((c : Thread nD τ).loc main_arg13)))
    (hHT : W2 m ρ c (Proc.devRef .tc main_v14_1) = scaled (prod X Wt) (col (dis (m ((c : Thread nD τ).loc main_arg13))))) :
    W3 m ρ c (Proc.devRef .tc main_v24) = edgeSum (m ((c : Thread nD τ).loc main_arg13)) (scaled (prod X Wt) (col (dis (m ((c : Thread nD τ).loc main_arg13))))) := by
  rw [termB_agg, h1, h3, hHT]
  funext i
  obtain ⟨n, q, rfl⟩ : ∃ (n : Fin 50000) (q : Fin 64), i = ix2 n q := ⟨i 0, i 1, eq_ix2 i⟩
  exact edgeSum_read (m ((c : Thread nD τ).loc main_arg13)) scatter_S50000x64_S800000x1_S800000x64_1_0_0_1 rfl rfl rfl rfl
    gather_S50000x64_S800000x1_S800000x64_1_0_n_n_0_1_164 rfl rfl rfl rfl rfl rfl rfl bcast_S_S50000x64 _ _
    (fun e => dstcolB (m ((c : Thread nD τ).loc main_arg13)) e) (fun e => srccolB (m ((c : Thread nD τ).loc main_arg13)) e) (scaled (prod X Wt) (col (dis (m ((c : Thread nD τ).loc main_arg13))))) n q

/-- The first column is the reciprocal square roots of the degrees. -/
theorem valB_c1 (c : Dev nD) (h10 : W2 m ρ c (Proc.devRef .tc main_v10) = Cert.ReferenceIdeal.Read.val_main_v10 (F := Ideal) (m ((c : Thread nD τ).loc main_arg13))) :
    W3 m ρ c (Proc.devRef .tc main_v25) = col (dis (m ((c : Thread nD τ).loc main_arg13))) := by
  rw [termB_c1, h10]
  exact colcastB _ _ _ (fun n => Cert.ReferenceIdeal.RefValue.v10_ix1 (m ((c : Thread nD τ).loc main_arg13)) n)

/-- The second column is the reciprocals of the degrees. -/
theorem valB_c2 (c : Dev nD) (h12 : W2 m ρ c (Proc.devRef .tc main_v12) = Cert.ReferenceIdeal.Read.val_main_v12 (F := Ideal) (m ((c : Thread nD τ).loc main_arg13))) :
    W3 m ρ c (Proc.devRef .tc main_v26) = col (dinv (m ((c : Thread nD τ).loc main_arg13))) := by
  rw [termB_c2, h12]
  exact colcastB _ _ _ (fun n => Cert.ReferenceIdeal.RefValue.v12_ix1 (m ((c : Thread nD τ).loc main_arg13)) n)

/-- The bias row. -/
theorem valB_brow (c : Dev nD) (hb : W2 m ρ c (Proc.devRef .tc main_arg2) = (m ((c : Thread nD τ).loc main_arg2))) : W3 m ρ c (Proc.devRef .tc main_v27) = row (m ((c : Thread nD τ).loc main_arg2)) := by
  rw [termB_brow, hb]
  exact rowcastB _ _

/-! ## The combination launch -/

/-- What the combination launch leaves is the layer. -/
theorem valB_out1 (c : Dev nD) (X : FVec Ideal S50000x64 .f32) (Wt : FVec Ideal S64x64 .f32)
    (h1 : W2 m ρ c (Proc.devRef .tc main_v1) = Cert.ReferenceIdeal.Read.val_main_v1 (F := Ideal) (m ((c : Thread nD τ).loc main_arg13)))
    (h3 : W2 m ρ c (Proc.devRef .tc main_v3) = Cert.ReferenceIdeal.Read.val_main_v3 (F := Ideal) (m ((c : Thread nD τ).loc main_arg13)))
    (h10 : W2 m ρ c (Proc.devRef .tc main_v10) = Cert.ReferenceIdeal.Read.val_main_v10 (F := Ideal) (m ((c : Thread nD τ).loc main_arg13)))
    (h12 : W2 m ρ c (Proc.devRef .tc main_v12) = Cert.ReferenceIdeal.Read.val_main_v12 (F := Ideal) (m ((c : Thread nD τ).loc main_arg13)))
    (hb : W2 m ρ c (Proc.devRef .tc main_arg2) = (m ((c : Thread nD τ).loc main_arg2))) (hw : W2 m ρ c (Proc.devRef .tc main_arg3) = (m ((c : Thread nD τ).loc main_arg3)))
    (hH : W2 m ρ c (Proc.devRef .tc main_v14_0) = prod X Wt)
    (hHT : W2 m ρ c (Proc.devRef .tc main_v14_1) = scaled (prod X Wt) (col (dis (m ((c : Thread nD τ).loc main_arg13))))) :
    W4 m ρ c (Proc.devRef .tc main_v28) = layer (m ((c : Thread nD τ).loc main_arg13)) X Wt (m ((c : Thread nD τ).loc main_arg2)) := by
  refine (W4_arr m ρ c 5).trans ?_
  refine (final1_5 (V3 m ρ) c).trans ?_
  rw [layer_defB]
  exact combine_congrB _ _ _ _ _ _ _ _ _ _ (valB_agg m ρ c X Wt h1 h3 hHT) (valB_c1 m ρ c h10)
    ((keepB_v14_0_W3 m ρ c).trans hH) (valB_c2 m ρ c h12) (valB_brow m ρ c hb)

theorem keepB_v1_W4 (c : Dev nD) : W4 m ρ c (Proc.devRef .tc main_v1) = W3 m ρ c (Proc.devRef .tc main_v1) := W4_of_ne m ρ c main_v1 (by decide)
theorem keepB_v3_W4 (c : Dev nD) : W4 m ρ c (Proc.devRef .tc main_v3) = W3 m ρ c (Proc.devRef .tc main_v3) := W4_of_ne m ρ c main_v3 (by decide)
theorem keepB_v10_W4 (c : Dev nD) : W4 m ρ c (Proc.devRef .tc main_v10) = W3 m ρ c (Proc.devRef .tc main_v10) := W4_of_ne m ρ c main_v10 (by decide)
theorem keepB_v12_W4 (c : Dev nD) : W4 m ρ c (Proc.devRef .tc main_v12) = W3 m ρ c (Proc.devRef .tc main_v12) := W4_of_ne m ρ c main_v12 (by decide)
theorem keepB_arg3_W4 (c : Dev nD) : W4 m ρ c (Proc.devRef .tc main_arg3) = W3 m ρ c (Proc.devRef .tc main_arg3) := W4_of_ne m ρ c main_arg3 (by decide)

/-! ## The second stretch and the linear launch -/

theorem keepB_v1_W5 (c : Dev nD) : W5 m ρ c (Proc.devRef .tc main_v1) = W4 m ρ c (Proc.devRef .tc main_v1) := by host_keepB hostOps2
theorem keepB_v3_W5 (c : Dev nD) : W5 m ρ c (Proc.devRef .tc main_v3) = W4 m ρ c (Proc.devRef .tc main_v3) := by host_keepB hostOps2
theorem keepB_v10_W5 (c : Dev nD) : W5 m ρ c (Proc.devRef .tc main_v10) = W4 m ρ c (Proc.devRef .tc main_v10) := by host_keepB hostOps2
theorem keepB_v12_W5 (c : Dev nD) : W5 m ρ c (Proc.devRef .tc main_v12) = W4 m ρ c (Proc.devRef .tc main_v12) := by host_keepB hostOps2
theorem keepB_arg3_W5 (c : Dev nD) : W5 m ρ c (Proc.devRef .tc main_arg3) = W4 m ρ c (Proc.devRef .tc main_arg3) := by host_keepB hostOps2
theorem keepB_v28_W5 (c : Dev nD) : W5 m ρ c (Proc.devRef .tc main_v28) = W4 m ρ c (Proc.devRef .tc main_v28) := by host_keepB hostOps2

theorem termB_c3 (c : Dev nD) : W5 m ρ c (Proc.devRef .tc main_v29) = shapeCast S50000x1 (W4 m ρ c (Proc.devRef .tc main_v10)) shapeCasts_S50000_S50000x1 := by
  show StableHlo.after hostOps2 (W4 m ρ c) (Proc.devRef .tc main_v29) = _
  after_results <;> rfl

theorem keepB_v1_W6 (c : Dev nD) : W6 m ρ c (Proc.devRef .tc main_v1) = W5 m ρ c (Proc.devRef .tc main_v1) := W6_of_ne m ρ c main_v1 (by decide)
theorem keepB_v3_W6 (c : Dev nD) : W6 m ρ c (Proc.devRef .tc main_v3) = W5 m ρ c (Proc.devRef .tc main_v3) := W6_of_ne m ρ c main_v3 (by decide)
theorem keepB_v10_W6 (c : Dev nD) : W6 m ρ c (Proc.devRef .tc main_v10) = W5 m ρ c (Proc.devRef .tc main_v10) := W6_of_ne m ρ c main_v10 (by decide)
theorem keepB_v12_W6 (c : Dev nD) : W6 m ρ c (Proc.devRef .tc main_v12) = W5 m ρ c (Proc.devRef .tc main_v12) := W6_of_ne m ρ c main_v12 (by decide)

/-- Through the block unchanged. -/
theorem passB_v1 (c : Dev nD) : W6 m ρ c (Proc.devRef .tc main_v1) = W2 m ρ c (Proc.devRef .tc main_v1) :=
  (keepB_v1_W6 m ρ c).trans ((keepB_v1_W5 m ρ c).trans ((keepB_v1_W4 m ρ c).trans (keepB_v1_W3 m ρ c)))
/-- Through the block unchanged. -/
theorem passB_v3 (c : Dev nD) : W6 m ρ c (Proc.devRef .tc main_v3) = W2 m ρ c (Proc.devRef .tc main_v3) :=
  (keepB_v3_W6 m ρ c).trans ((keepB_v3_W5 m ρ c).trans ((keepB_v3_W4 m ρ c).trans (keepB_v3_W3 m ρ c)))
/-- Through the block unchanged. -/
theorem passB_v10 (c : Dev nD) : W6 m ρ c (Proc.devRef .tc main_v10) = W2 m ρ c (Proc.devRef .tc main_v10) :=
  (keepB_v10_W6 m ρ c).trans ((keepB_v10_W5 m ρ c).trans ((keepB_v10_W4 m ρ c).trans (keepB_v10_W3 m ρ c)))
/-- Through the block unchanged. -/
theorem passB_v12 (c : Dev nD) : W6 m ρ c (Proc.devRef .tc main_v12) = W2 m ρ c (Proc.devRef .tc main_v12) :=
  (keepB_v12_W6 m ρ c).trans ((keepB_v12_W5 m ρ c).trans ((keepB_v12_W4 m ρ c).trans (keepB_v12_W3 m ρ c)))

/-- The column the linear launch scales by. -/
theorem valB_c3 (c : Dev nD) (h10 : W2 m ρ c (Proc.devRef .tc main_v10) = Cert.ReferenceIdeal.Read.val_main_v10 (F := Ideal) (m ((c : Thread nD τ).loc main_arg13))) :
    W5 m ρ c (Proc.devRef .tc main_v29) = col (dis (m ((c : Thread nD τ).loc main_arg13))) := by
  rw [termB_c3, keepB_v10_W4, keepB_v10_W3, h10]
  exact colcastB _ _ _ (fun n => Cert.ReferenceIdeal.RefValue.v10_ix1 (m ((c : Thread nD τ).loc main_arg13)) n)

/-- The weight matrix at the linear launch's entry. -/
theorem valB_w (c : Dev nD) (hw : W2 m ρ c (Proc.devRef .tc main_arg3) = (m ((c : Thread nD τ).loc main_arg3))) : W5 m ρ c (Proc.devRef .tc main_arg3) = (m ((c : Thread nD τ).loc main_arg3)) :=
  (keepB_arg3_W5 m ρ c).trans ((keepB_arg3_W4 m ρ c).trans ((keepB_arg3_W3 m ρ c).trans hw))

/-- The next layer's product. -/
theorem valB_o0 (c : Dev nD) (X : FVec Ideal S50000x64 .f32) (Wt : FVec Ideal S64x64 .f32)
    (h1 : W2 m ρ c (Proc.devRef .tc main_v1) = Cert.ReferenceIdeal.Read.val_main_v1 (F := Ideal) (m ((c : Thread nD τ).loc main_arg13)))
    (h3 : W2 m ρ c (Proc.devRef .tc main_v3) = Cert.ReferenceIdeal.Read.val_main_v3 (F := Ideal) (m ((c : Thread nD τ).loc main_arg13)))
    (h10 : W2 m ρ c (Proc.devRef .tc main_v10) = Cert.ReferenceIdeal.Read.val_main_v10 (F := Ideal) (m ((c : Thread nD τ).loc main_arg13)))
    (h12 : W2 m ρ c (Proc.devRef .tc main_v12) = Cert.ReferenceIdeal.Read.val_main_v12 (F := Ideal) (m ((c : Thread nD τ).loc main_arg13)))
    (hb : W2 m ρ c (Proc.devRef .tc main_arg2) = (m ((c : Thread nD τ).loc main_arg2))) (hw : W2 m ρ c (Proc.devRef .tc main_arg3) = (m ((c : Thread nD τ).loc main_arg3)))
    (hH : W2 m ρ c (Proc.devRef .tc main_v14_0) = prod X Wt)
    (hHT : W2 m ρ c (Proc.devRef .tc main_v14_1) = scaled (prod X Wt) (col (dis (m ((c : Thread nD τ).loc main_arg13))))) :
    W6 m ρ c (Proc.devRef .tc main_v30_0) = prod (layer (m ((c : Thread nD τ).loc main_arg13)) X Wt (m ((c : Thread nD τ).loc main_arg2))) (m ((c : Thread nD τ).loc main_arg3)) := by
  refine (W6_arr m ρ c 3).trans ?_
  refine (final2_3 (V5 m ρ) c).trans ?_
  exact prod_congrB _ _ _ _ ((keepB_v28_W5 m ρ c).trans (valB_out1 m ρ c X Wt h1 h3 h10 h12 hb hw hH hHT))
    (valB_w m ρ c hw)

/-- The next layer's product scaled row by row. -/
theorem valB_o1 (c : Dev nD) (X : FVec Ideal S50000x64 .f32) (Wt : FVec Ideal S64x64 .f32)
    (h1 : W2 m ρ c (Proc.devRef .tc main_v1) = Cert.ReferenceIdeal.Read.val_main_v1 (F := Ideal) (m ((c : Thread nD τ).loc main_arg13)))
    (h3 : W2 m ρ c (Proc.devRef .tc main_v3) = Cert.ReferenceIdeal.Read.val_main_v3 (F := Ideal) (m ((c : Thread nD τ).loc main_arg13)))
    (h10 : W2 m ρ c (Proc.devRef .tc main_v10) = Cert.ReferenceIdeal.Read.val_main_v10 (F := Ideal) (m ((c : Thread nD τ).loc main_arg13)))
    (h12 : W2 m ρ c (Proc.devRef .tc main_v12) = Cert.ReferenceIdeal.Read.val_main_v12 (F := Ideal) (m ((c : Thread nD τ).loc main_arg13)))
    (hb : W2 m ρ c (Proc.devRef .tc main_arg2) = (m ((c : Thread nD τ).loc main_arg2))) (hw : W2 m ρ c (Proc.devRef .tc main_arg3) = (m ((c : Thread nD τ).loc main_arg3)))
    (hH : W2 m ρ c (Proc.devRef .tc main_v14_0) = prod X Wt)
    (hHT : W2 m ρ c (Proc.devRef .tc main_v14_1) = scaled (prod X Wt) (col (dis (m ((c : Thread nD τ).loc main_arg13))))) :
    W6 m ρ c (Proc.devRef .tc main_v30_1) = scaled (prod (layer (m ((c : Thread nD τ).loc main_arg13)) X Wt (m ((c : Thread nD τ).loc main_arg2))) (m ((c : Thread nD τ).loc main_arg3))) (col (dis (m ((c : Thread nD τ).loc main_arg13)))) := by
  refine (W6_arr m ρ c 4).trans ?_
  refine (final2_4 (V5 m ρ) c).trans ?_
  exact scaled_congrB _ _ _ _
    (prod_congrB _ _ _ _ ((keepB_v28_W5 m ρ c).trans (valB_out1 m ρ c X Wt h1 h3 h10 h12 hb hw hH hHT)) (valB_w m ρ c hw))
    (valB_c3 m ρ c h10)

/-- ACROSS THE BLOCK: the next layer's product and scaled product, the edge rows and degree vectors unchanged. -/
theorem block_2_6 (c : Dev nD) (X : FVec Ideal S50000x64 .f32) (Wt : FVec Ideal S64x64 .f32)
    (h1 : W2 m ρ c (Proc.devRef .tc main_v1) = Cert.ReferenceIdeal.Read.val_main_v1 (F := Ideal) (m ((c : Thread nD τ).loc main_arg13)))
    (h3 : W2 m ρ c (Proc.devRef .tc main_v3) = Cert.ReferenceIdeal.Read.val_main_v3 (F := Ideal) (m ((c : Thread nD τ).loc main_arg13)))
    (h10 : W2 m ρ c (Proc.devRef .tc main_v10) = Cert.ReferenceIdeal.Read.val_main_v10 (F := Ideal) (m ((c : Thread nD τ).loc main_arg13)))
    (h12 : W2 m ρ c (Proc.devRef .tc main_v12) = Cert.ReferenceIdeal.Read.val_main_v12 (F := Ideal) (m ((c : Thread nD τ).loc main_arg13)))
    (hb : W2 m ρ c (Proc.devRef .tc main_arg2) = (m ((c : Thread nD τ).loc main_arg2))) (hw : W2 m ρ c (Proc.devRef .tc main_arg3) = (m ((c : Thread nD τ).loc main_arg3)))
    (hH : W2 m ρ c (Proc.devRef .tc main_v14_0) = prod X Wt)
    (hHT : W2 m ρ c (Proc.devRef .tc main_v14_1) = scaled (prod X Wt) (col (dis (m ((c : Thread nD τ).loc main_arg13))))) :
    W6 m ρ c (Proc.devRef .tc main_v30_0) = prod (layer (m ((c : Thread nD τ).loc main_arg13)) X Wt (m ((c : Thread nD τ).loc main_arg2))) (m ((c : Thread nD τ).loc main_arg3))
    ∧ W6 m ρ c (Proc.devRef .tc main_v30_1) = scaled (prod (layer (m ((c : Thread nD τ).loc main_arg13)) X Wt (m ((c : Thread nD τ).loc main_arg2))) (m ((c : Thread nD τ).loc main_arg3))) (col (dis (m ((c : Thread nD τ).loc main_arg13))))
    ∧ W6 m ρ c (Proc.devRef .tc main_v1) = Cert.ReferenceIdeal.Read.val_main_v1 (F := Ideal) (m ((c : Thread nD τ).loc main_arg13))
    ∧ W6 m ρ c (Proc.devRef .tc main_v3) = Cert.ReferenceIdeal.Read.val_main_v3 (F := Ideal) (m ((c : Thread nD τ).loc main_arg13))
    ∧ W6 m ρ c (Proc.devRef .tc main_v10) = Cert.ReferenceIdeal.Read.val_main_v10 (F := Ideal) (m ((c : Thread nD τ).loc main_arg13))
    ∧ W6 m ρ c (Proc.devRef .tc main_v12) = Cert.ReferenceIdeal.Read.val_main_v12 (F := Ideal) (m ((c : Thread nD τ).loc main_arg13)) :=
  ⟨valB_o0 m ρ c X Wt h1 h3 h10 h12 hb hw hH hHT, valB_o1 m ρ c X Wt h1 h3 h10 h12 hb hw hH hHT,
    (passB_v1 m ρ c).trans h1, (passB_v3 m ρ c).trans h3, (passB_v10 m ρ c).trans h10, (passB_v12 m ρ c).trans h12⟩

end BlockB

end Cert.KernelIdeal.Hand

end
-- ==== Proof.KComb3.lean ====
/-
  What the second pointwise launch (the combination step of a layer) leaves in its output array.

  The node axis is cut into ten tiles of 5000 rows. At tile t the body reads rows 5000 t … 5000 t + 4999 of two
  [50000, 64] arrays A and H and of two [50000, 1] columns d and e, and the one bias row b, and stores, at entry
  (p, q) of the tile, (d p * A (p, q) + e p * H (p, q)) + b q. Entry (p, q) of the tile depends only on row
  5000 t + p of the arrays, so the ten tiles written back are the ten row blocks of ONE array: the combination
  of the whole arrays.
-/
import proofs.«141009_j73254962200757_2_alg».proof.Proof.Gen.KernelIdeal.Frame
import proofs.«141009_j73254962200757_2_alg».proof.Proof.Spec
import proofs.«141009_j73254962200757_2_alg».proof.Proof.LibMatmul
import proofs.«141009_j73254962200757_2_alg».proof.Proof.LibPlainDims
import proofs.«141009_j73254962200757_2_alg».proof.Proof.LibKeepdims
import Idealize.ShloMosaic.Lib.Pipeline.Value
import Idealize.ShloMosaic.Lib.ValueLayout
import Idealize.ShloMosaic.Lib.Tactic

set_option maxRecDepth 16384
set_option pp.maxSteps 5000
set_option pp.deepTerms false

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

theorem hz2_3 : (![0, 0] : Fin 2 → Nat) = fun _ => 0 := funext fun a => by fin_cases a <;> rfl

/-- The stored combination at an entry of the tile. -/
theorem pay3_1_apply (v0 : Vec Ideal S5000x1 .f32) (v2 : Vec Ideal S5000x64 .f32) (v6 : Vec Ideal S5000x1 .f32)
    (v8 : Vec Ideal S5000x64 .f32) (v13 : Vec Ideal S1x64 .f32) (p : Fin 5000) (q : Fin 64) :
    k3_pay1 (F := Ideal) v0 v2 v6 v8 v13 (ix2 p q)
      = (v0 (ix2 p (0 : Fin 1)) * v2 (ix2 p q) + v6 (ix2 p (0 : Fin 1)) * v8 (ix2 p q)) + v13 (ix2 (0 : Fin 1) q) := by
  unfold k3_pay1
  show (broadcastTo S5000x64 (shapeCast S5000x1 v0 shapeCasts_S5000x1_S5000x1) broadcasts_S5000x1_S5000x64 (ix2 p q)
          * shapeCast S5000x64 v2 shapeCasts_S5000x64_S5000x64 (ix2 p q)
        + broadcastTo S5000x64 (shapeCast S5000x1 v6 shapeCasts_S5000x1_S5000x1) broadcasts_S5000x1_S5000x64 (ix2 p q)
          * shapeCast S5000x64 v8 shapeCasts_S5000x64_S5000x64 (ix2 p q))
      + broadcastTo S5000x64 (shapeCast S1x64 v13 shapeCasts_S1x64_S1x64) broadcasts_S1x64_S5000x64 (ix2 p q) = _
  rw [Cert.LibKeepdims.broadcastTo_a1_ab_apply, Cert.LibKeepdims.broadcastTo_a1_ab_apply, broadcastTo_1b_ab_apply]
  simp only [shapeCast_self]

section Region3
variable (V : (c : Dev nD) → (b : Ref sig .tc) → Buf (Elt Ideal) ((c : Thread nD τ).loc b))

/-- The printed index maps over the ten tiles: the row-tiled windows sit at tile t, the bias row stays put. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The first array's block at tile t is rows 5000 t … of that array. -/
theorem iblk3_0_apply (c : Dev nD) (t : Fin cfg3.N) (x : S5000x64.Idx) (k : S50000x64.Idx)
    (hk0 : (k 0).val = 5000 * t.val + (x 0).val) (hk1 : (k 1).val = (x 1).val) :
    (iblk3 V c 0 t : Vec Ideal S5000x64 .f32) x = (V c main_v40 : S50000x64.Idx → EReal) k := by
  obtain ⟨e0, e1, -⟩ := idx_facts3 t
  unfold iblk3
  rw [View.read_apply]
  show V c main_v40 _ = V c main_v40 _
  congr 1
  funext a
  apply Fin.ext
  match a with
  | ⟨0, _⟩ => show win3_0.index t 0 * 5000 + 1 * (x 0).val = (k 0).val; rw [e0, hk0]; omega
  | ⟨1, _⟩ => show win3_0.index t 1 * 64 + 1 * (x 1).val = (k 1).val; rw [e1, hk1]; omega

/-- The first column's block at tile t is rows 5000 t … of that column. -/
theorem iblk3_1_apply (c : Dev nD) (t : Fin cfg3.N) (x : S5000x1.Idx) (k : S50000x1.Idx)
    (hk0 : (k 0).val = 5000 * t.val + (x 0).val) (hk1 : (k 1).val = (x 1).val) :
    (iblk3 V c 1 t : Vec Ideal S5000x1 .f32) x = (V c main_v41 : S50000x1.Idx → EReal) k := by
  obtain ⟨-, -, e0, e1, -⟩ := idx_facts3 t
  unfold iblk3
  rw [View.read_apply]
  show V c main_v41 _ = V c main_v41 _
  congr 1
  funext a
  apply Fin.ext
  match a with
  | ⟨0, _⟩ => show win3_1.index t 0 * 5000 + 1 * (x 0).val = (k 0).val; rw [e0, hk0]; omega
  | ⟨1, _⟩ => show win3_1.index t 1 * 1 + 1 * (x 1).val = (k 1).val; rw [e1, hk1]; omega

/-- The second array's block at tile t is rows 5000 t … of that array. -/
theorem iblk3_2_apply (c : Dev nD) (t : Fin cfg3.N) (x : S5000x64.Idx) (k : S50000x64.Idx)
    (hk0 : (k 0).val = 5000 * t.val + (x 0).val) (hk1 : (k 1).val = (x 1).val) :
    (iblk3 V c 2 t : Vec Ideal S5000x64 .f32) x = (V c main_v30_0 : S50000x64.Idx → EReal) k := by
  obtain ⟨-, -, -, -, e0, e1, -⟩ := idx_facts3 t
  unfold iblk3
  rw [View.read_apply]
  show V c main_v30_0 _ = V c main_v30_0 _
  congr 1
  funext a
  apply Fin.ext
  match a with
  | ⟨0, _⟩ => show win3_2.index t 0 * 5000 + 1 * (x 0).val = (k 0).val; rw [e0, hk0]; omega
  | ⟨1, _⟩ => show win3_2.index t 1 * 64 + 1 * (x 1).val = (k 1).val; rw [e1, hk1]; omega

/-- The second column's block at tile t is rows 5000 t … of that column. -/
theorem iblk3_3_apply (c : Dev nD) (t : Fin cfg3.N) (x : S5000x1.Idx) (k : S50000x1.Idx)
    (hk0 : (k 0).val = 5000 * t.val + (x 0).val) (hk1 : (k 1).val = (x 1).val) :
    (iblk3 V c 3 t : Vec Ideal S5000x1 .f32) x = (V c main_v42 : S50000x1.Idx → EReal) k := by
  obtain ⟨-, -, -, -, -, -, e0, e1, -⟩ := idx_facts3 t
  unfold iblk3
  rw [View.read_apply]
  show V c main_v42 _ = V c main_v42 _
  congr 1
  funext a
  apply Fin.ext
  match a with
  | ⟨0, _⟩ => show win3_3.index t 0 * 5000 + 1 * (x 0).val = (k 0).val; rw [e0, hk0]; omega
  | ⟨1, _⟩ => show win3_3.index t 1 * 1 + 1 * (x 1).val = (k 1).val; rw [e1, hk1]; omega

/-- The bias window's block is the bias row at every tile. -/
theorem iblk3_4_apply (c : Dev nD) (t : Fin cfg3.N) (x : S1x64.Idx) :
    (iblk3 V c 4 t : Vec Ideal S1x64 .f32) x = (V c main_v43 : S1x64.Idx → EReal) x := by
  obtain ⟨-, -, -, -, -, -, -, -, e0, e1, -⟩ := idx_facts3 t
  unfold iblk3
  rw [View.read_apply]
  show V c main_v43 _ = V c main_v43 _
  congr 1
  funext a
  apply Fin.ext
  match a with
  | ⟨0, _⟩ => show win3_4.index t 0 * 1 + 1 * (x 0).val = (x 0).val; rw [e0]; omega
  | ⟨1, _⟩ => show win3_4.index t 1 * 64 + 1 * (x 1).val = (x 1).val; rw [e1]; omega

/-- The combination at an entry of the whole arrays. -/
theorem combine_ix2_3 (A : S50000x64.Idx → EReal) (D1 : S50000x1.Idx → EReal) (H : S50000x64.Idx → EReal)
    (DI1 : S50000x1.Idx → EReal) (B1 : S1x64.Idx → EReal) (n : Fin 50000) (q : Fin 64) :
    Cert.GCN.combine A D1 H DI1 B1 (ix2 n q)
      = (D1 (ix2 n (0 : Fin 1)) * A (ix2 n q) + DI1 (ix2 n (0 : Fin 1)) * H (ix2 n q)) + B1 (ix2 (0 : Fin 1) q) := rfl

/-- An entry of a tile's combination is the same entry of the whole combination: the tile's row p is the arrays'
    row n, and the bias is the same row. -/
theorem comb_rows3 (b0 : S5000x64.Idx → EReal) (b1 : S5000x1.Idx → EReal) (b2 : S5000x64.Idx → EReal) (b3 : S5000x1.Idx → EReal)
    (b4 : S1x64.Idx → EReal) (A : S50000x64.Idx → EReal) (D1 : S50000x1.Idx → EReal) (H : S50000x64.Idx → EReal)
    (DI1 : S50000x1.Idx → EReal) (B1 : S1x64.Idx → EReal) (p : Fin 5000) (q : Fin 64) (n : Fin 50000)
    (h0 : b0 (ix2 p q) = A (ix2 n q)) (h1 : b1 (ix2 p (0 : Fin 1)) = D1 (ix2 n (0 : Fin 1)))
    (h2 : b2 (ix2 p q) = H (ix2 n q)) (h3 : b3 (ix2 p (0 : Fin 1)) = DI1 (ix2 n (0 : Fin 1)))
    (h4 : b4 (ix2 (0 : Fin 1) q) = B1 (ix2 (0 : Fin 1) q)) :
    (b1 (ix2 p (0 : Fin 1)) * b0 (ix2 p q) + b3 (ix2 p (0 : Fin 1)) * b2 (ix2 p q)) + b4 (ix2 (0 : Fin 1) q)
      = Cert.GCN.combine A D1 H DI1 B1 (ix2 n q) := by
  rw [combine_ix2_3, h0, h1, h2, h3, h4]

/-- Where block t of the row-tiled output sends an entry of the tile. -/
theorem emb3_5 (t : Fin cfg3.N) (j : S5000x64.Idx) (n : Fin 50000) (hn : n.val = 5000 * t.val + (j 0).val) :
    ((cfg3.win 5).blk t).view.emb j = ix2 n (j 1) := by
  obtain ⟨-, -, -, -, -, -, -, -, -, -, e0, e1⟩ := idx_facts3 t
  funext a
  apply Fin.ext
  match a with
  | ⟨0, _⟩ => show win3_5.index t 0 * 5000 + 1 * (j 0).val = n.val; rw [e0, hn]; omega
  | ⟨1, _⟩ => show win3_5.index t 1 * 64 + 1 * (j 1).val = (j 1).val; rw [e1]; omega

theorem N3_eq : cfg3.N = 10 := by decide

/-- The row of the whole array that entry j of tile t is. -/
def rowOf3 (t : Fin cfg3.N) (j : S5000x64.Idx) : Fin 50000 :=
  ⟨5000 * t.val + (j 0).val, by have h1 : t.val < 10 := lt_of_lt_of_eq t.isLt N3_eq; have h2 := idx2_lt0 j; omega⟩

/-- WHAT TILE t WRITES BACK is block t of the combination of the whole arrays. -/
theorem flushed3_5_eq (c : Dev nD) (t : Fin cfg3.N) :
    (dat3 V c).flushed 5 t = ((cfg3.win 5).blk t).view.read (Elt Ideal)
      (Cert.GCN.combine (V c main_v40) (V c main_v41) (V c main_v30_0) (V c main_v42) (V c main_v43)) := by
  show (cfg3.win 5).cut (grid3.coords t) ((dat3 V c).after 5 t) = _
  rw [after3_5]
  unfold out3_5
  rw [View.canon_unit_zero hz2_3]
  simp only [View.ld_unit_zero (S := S5000x64) hz2_3, View.ld_unit_zero (S := S5000x1) hz2_3, View.ld_unit_zero (S := S1x64) hz2_3]
  funext j
  show k3_pay1 (F := Ideal) (iblk3 V c 1 t) (iblk3 V c 0 t) (iblk3 V c 3 t) (iblk3 V c 2 t) (iblk3 V c 4 t) j
    = Cert.GCN.combine (V c main_v40) (V c main_v41) (V c main_v30_0) (V c main_v42) (V c main_v43) (((cfg3.win 5).blk t).view.emb j)
  rw [emb3_5 t j (rowOf3 t j) rfl]
  refine Eq.trans ?_ (comb_rows3 (iblk3 V c 0 t) (iblk3 V c 1 t) (iblk3 V c 2 t) (iblk3 V c 3 t) (iblk3 V c 4 t)
    (V c main_v40) (V c main_v41) (V c main_v30_0) (V c main_v42) (V c main_v43) (j 0) (j 1) (rowOf3 t j)
    (iblk3_0_apply V c t (ix2 (j 0) (j 1)) (ix2 (rowOf3 t j) (j 1)) rfl rfl)
    (iblk3_1_apply V c t (ix2 (j 0) (0 : Fin 1)) (ix2 (rowOf3 t j) (0 : Fin 1)) rfl rfl)
    (iblk3_2_apply V c t (ix2 (j 0) (j 1)) (ix2 (rowOf3 t j) (j 1)) rfl rfl)
    (iblk3_3_apply V c t (ix2 (j 0) (0 : Fin 1)) (ix2 (rowOf3 t j) (0 : Fin 1)) rfl rfl)
    (iblk3_4_apply V c t (ix2 (0 : Fin 1) (j 1))))
  exact (congrArg (k3_pay1 (F := Ideal) (iblk3 V c 1 t) (iblk3 V c 0 t) (iblk3 V c 3 t) (iblk3 V c 2 t) (iblk3 V c 4 t)) (eq_ix2 j)).trans
    (pay3_1_apply (iblk3 V c 1 t) (iblk3 V c 0 t) (iblk3 V c 3 t) (iblk3 V c 2 t) (iblk3 V c 4 t) (j 0) (j 1))

/-- Every entry of a [50000, 64] array lies in the tile its row falls in. -/
theorem cover3_w5 (i : S50000x64.Idx) : ∃ t : Fin cfg3.N, (cfg3.win 5).flush t = true ∧ i ∈ ((cfg3.win 5).blk t).view.set := by
  have hi0 := idx2_lt0 i
  have hi1 := idx2_lt1 i
  have ht : (i 0).val / 5000 < cfg3.N := by rw [N3_eq]; omega
  refine ⟨⟨(i 0).val / 5000, ht⟩, flush3_5 _, ?_⟩
  obtain ⟨-, -, -, -, -, -, -, -, -, -, e0, e1⟩ := idx_facts3 ⟨(i 0).val / 5000, ht⟩
  show i ∈ ((View.whole main_v44).slice (win3_5.rect ⟨(i 0).val / 5000, ht⟩)).set
  rw [View.set_slice_whole, Rect.mem_set_unit]
  intro a
  match a with
  | ⟨0, _⟩ =>
    show win3_5.index ⟨(i 0).val / 5000, ht⟩ 0 * 5000 ≤ (i 0).val ∧ (i 0).val < win3_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win3_5.index ⟨(i 0).val / 5000, ht⟩ 1 * 64 ≤ (i 1).val ∧ (i 1).val < win3_5.index ⟨(i 0).val / 5000, ht⟩ 1 * 64 + 64
    rw [e1]; omega

/-- THE OUTPUT ARRAY after the launch: the combination of the five arrays as entered. -/
theorem final3_5 (c : Dev nD) :
    (dat3 V c).arrAt 5 cfg3.N
      = Cert.GCN.combine (V c main_v40) (V c main_v41) (V c main_v30_0) (V c main_v42) (V c main_v43) :=
  (dat3 V c).arrAt_eq_of_cover 5 _ (fun t _ => flushed3_5_eq V c t) cover3_w5

end Region3

end Cert.KernelIdeal.Hand

end
-- ==== Proof.KLin4.lean ====
/-
  What the third linear launch leaves in its two output arrays: as for the first one, the plain product of the
  feature array and the weight matrix it is given, and that product with row n scaled by the column's entry n.
  (Its body first passes the feature tile through a cast to its own shape, which is the identity.)
-/
import proofs.«141009_j73254962200757_2_alg».proof.Proof.Gen.KernelIdeal.Frame
import proofs.«141009_j73254962200757_2_alg».proof.Proof.Spec
import proofs.«141009_j73254962200757_2_alg».proof.Proof.LibMatmul
import proofs.«141009_j73254962200757_2_alg».proof.Proof.LibPlainDims
import proofs.«141009_j73254962200757_2_alg».proof.Proof.LibKeepdims
import proofs.«141009_j73254962200757_2_alg».proof.Proof.KLin0
import Idealize.ShloMosaic.Lib.Pipeline.Value
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- The stored product at an entry of the tile: the sum over the contracted axis. -/
theorem pay4_1_apply (x0 : Vec Ideal S5000x64 .f32) (x1 : Vec Ideal S64x64 .f32) (p : Fin 5000) (q : Fin 64) :
    k4_pay1 (F := Ideal) x0 x1 (ix2 p q) = ∑ k : Fin 64, x0 (ix2 p k) * x1 (ix2 k q) := by
  unfold k4_pay1
  rw [shapeCast_self]
  exact (Cert.LibMatmul.matmul_zero_ix2 dot_S5000x64_S64x64_S5000x64_1_0_0_1_n_n plain_5000.rank plain_5000.size
    plain_5000.l0 plain_5000.l1 plain_5000.r0 plain_5000.r1 none _ _ p q).trans (Finset.sum_congr rfl fun _ _ => rfl)

/-- The scaled product at an entry of the tile. -/
theorem pay4_2_apply (x0 : Vec Ideal S5000x64 .f32) (x1 : Vec Ideal S64x64 .f32) (x2 : Vec Ideal S5000x1 .f32) (p : Fin 5000) (q : Fin 64) :
    k4_pay2 (F := Ideal) x0 x1 x2 (ix2 p q) = (∑ k : Fin 64, x0 (ix2 p k) * x1 (ix2 k q)) * x2 (ix2 p (0 : Fin 1)) := by
  unfold k4_pay2
  show k4_pay1 (F := Ideal) x0 x1 (ix2 p q) * broadcastTo S5000x64 (shapeCast S5000x1 x2 shapeCasts_S5000x1_S5000x1) broadcasts_S5000x1_S5000x64 (ix2 p q) = _
  rw [pay4_1_apply, Cert.LibKeepdims.broadcastTo_a1_ab_apply, shapeCast_self]

section Region4
variable (V : (c : Dev nD) → (b : Ref sig .tc) → Buf (Elt Ideal) ((c : Thread nD τ).loc b))

/-- The printed index maps over the ten tiles: the row-tiled windows sit at tile t, the weight stays put. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The feature window's block at tile t is rows 5000 t … of the feature array. -/
theorem iblk4_0_apply (c : Dev nD) (t : Fin cfg4.N) (x : S5000x64.Idx) (k : S50000x64.Idx)
    (hk0 : (k 0).val = 5000 * t.val + (x 0).val) (hk1 : (k 1).val = (x 1).val) :
    (iblk4 V c 0 t : Vec Ideal S5000x64 .f32) x = (V c main_v44 : S50000x64.Idx → EReal) k := by
  obtain ⟨e0, e1, -⟩ := idx_facts4 t
  unfold iblk4
  rw [View.read_apply]
  show V c main_v44 _ = V c main_v44 _
  congr 1
  funext a
  apply Fin.ext
  match a with
  | ⟨0, _⟩ => show win4_0.index t 0 * 5000 + 1 * (x 0).val = (k 0).val; rw [e0, hk0]; omega
  | ⟨1, _⟩ => show win4_0.index t 1 * 64 + 1 * (x 1).val = (k 1).val; rw [e1, hk1]; omega

/-- The weight window's block is the weight array at every tile. -/
theorem iblk4_1_apply (c : Dev nD) (t : Fin cfg4.N) (x : S64x64.Idx) :
    (iblk4 V c 1 t : Vec Ideal S64x64 .f32) x = (V c main_arg5 : S64x64.Idx → EReal) x := by
  obtain ⟨-, -, e0, e1, -⟩ := idx_facts4 t
  unfold iblk4
  rw [View.read_apply]
  show V c main_arg5 _ = V c main_arg5 _
  congr 1
  funext a
  apply Fin.ext
  match a with
  | ⟨0, _⟩ => show win4_1.index t 0 * 64 + 1 * (x 0).val = (x 0).val; rw [e0]; omega
  | ⟨1, _⟩ => show win4_1.index t 1 * 64 + 1 * (x 1).val = (x 1).val; rw [e1]; omega

/-- The column window's block at tile t is rows 5000 t … of the column. -/
theorem iblk4_2_apply (c : Dev nD) (t : Fin cfg4.N) (x : S5000x1.Idx) (k : S50000x1.Idx)
    (hk0 : (k 0).val = 5000 * t.val + (x 0).val) (hk1 : (k 1).val = (x 1).val) :
    (iblk4 V c 2 t : Vec Ideal S5000x1 .f32) x = (V c main_v45 : S50000x1.Idx → EReal) k := by
  obtain ⟨-, -, -, -, e0, e1, -⟩ := idx_facts4 t
  unfold iblk4
  rw [View.read_apply]
  show V c main_v45 _ = V c main_v45 _
  congr 1
  funext a
  apply Fin.ext
  match a with
  | ⟨0, _⟩ => show win4_2.index t 0 * 5000 + 1 * (x 0).val = (k 0).val; rw [e0, hk0]; omega
  | ⟨1, _⟩ => show win4_2.index t 1 * 1 + 1 * (x 1).val = (k 1).val; rw [e1, hk1]; omega

/-- Where block t of a row-tiled output sends an entry of the tile. -/
theorem emb4_3 (t : Fin cfg4.N) (j : S5000x64.Idx) (n : Fin 50000) (hn : n.val = 5000 * t.val + (j 0).val) :
    ((cfg4.win 3).blk t).view.emb j = ix2 n (j 1) := by
  obtain ⟨-, -, -, -, -, -, e0, e1, -⟩ := idx_facts4 t
  funext a
  apply Fin.ext
  match a with
  | ⟨0, _⟩ => show win4_3.index t 0 * 5000 + 1 * (j 0).val = n.val; rw [e0, hn]; omega
  | ⟨1, _⟩ => show win4_3.index t 1 * 64 + 1 * (j 1).val = (j 1).val; rw [e1]; omega

theorem emb4_4 (t : Fin cfg4.N) (j : S5000x64.Idx) (n : Fin 50000) (hn : n.val = 5000 * t.val + (j 0).val) :
    ((cfg4.win 4).blk t).view.emb j = ix2 n (j 1) := by
  obtain ⟨-, -, -, -, -, -, -, -, e0, e1⟩ := idx_facts4 t
  funext a
  apply Fin.ext
  match a with
  | ⟨0, _⟩ => show win4_4.index t 0 * 5000 + 1 * (j 0).val = n.val; rw [e0, hn]; omega
  | ⟨1, _⟩ => show win4_4.index t 1 * 64 + 1 * (j 1).val = (j 1).val; rw [e1]; omega

theorem N4_eq : cfg4.N = 10 := by decide

/-- The row of the whole array that entry j of tile t is. -/
def rowOf4 (t : Fin cfg4.N) (j : S5000x64.Idx) : Fin 50000 :=
  ⟨5000 * t.val + (j 0).val, by have h1 : t.val < 10 := lt_of_lt_of_eq t.isLt N4_eq; have h2 := idx2_lt0 j; omega⟩

/-- WHAT TILE t WRITES BACK to the first output is block t of the plain product of the arrays. -/
theorem flushed4_3_eq (c : Dev nD) (t : Fin cfg4.N) :
    (dat4 V c).flushed 3 t = ((cfg4.win 3).blk t).view.read (Elt Ideal) (Cert.LibProd.prod (V c main_v44) (V c main_arg5)) := by
  show (cfg4.win 3).cut (grid4.coords t) ((dat4 V c).after 3 t) = _
  rw [after4_3]
  unfold out4_3
  rw [View.canon_unit_zero hz2]
  simp only [View.ld_unit_zero (S := S5000x64) hz2, View.ld_unit_zero (S := S64x64) hz2]
  funext j
  show k4_pay1 (F := Ideal) (iblk4 V c 0 t) (iblk4 V c 1 t) j
    = Cert.LibProd.prod (V c main_v44) (V c main_arg5) (((cfg4.win 3).blk t).view.emb j)
  rw [emb4_3 t j (rowOf4 t j) rfl]
  refine Eq.trans ?_ (prod_rows (iblk4 V c 0 t) (iblk4 V c 1 t) (V c main_v44) (V c main_arg5) (j 0) (j 1) (rowOf4 t j)
    (fun k => iblk4_0_apply V c t (ix2 (j 0) k) (ix2 (rowOf4 t j) k) rfl rfl) (fun k => iblk4_1_apply V c t (ix2 k (j 1))))
  exact (congrArg (k4_pay1 (F := Ideal) (iblk4 V c 0 t) (iblk4 V c 1 t)) (eq_ix2 j)).trans
    (pay4_1_apply (iblk4 V c 0 t) (iblk4 V c 1 t) (j 0) (j 1))

/-- WHAT TILE t WRITES BACK to the second output is block t of the product scaled row by row by the column. -/
theorem flushed4_4_eq (c : Dev nD) (t : Fin cfg4.N) :
    (dat4 V c).flushed 4 t = ((cfg4.win 4).blk t).view.read (Elt Ideal)
      (Cert.GCN.scaled (Cert.LibProd.prod (V c main_v44) (V c main_arg5)) (V c main_v45)) := by
  show (cfg4.win 4).cut (grid4.coords t) ((dat4 V c).after 4 t) = _
  rw [after4_4]
  unfold out4_4
  rw [View.canon_unit_zero hz2]
  simp only [View.ld_unit_zero (S := S5000x64) hz2, View.ld_unit_zero (S := S64x64) hz2, View.ld_unit_zero (S := S5000x1) hz2]
  funext j
  show k4_pay2 (F := Ideal) (iblk4 V c 0 t) (iblk4 V c 1 t) (iblk4 V c 2 t) j
    = Cert.GCN.scaled (Cert.LibProd.prod (V c main_v44) (V c main_arg5)) (V c main_v45) (((cfg4.win 4).blk t).view.emb j)
  rw [emb4_4 t j (rowOf4 t j) rfl]
  refine ((congrArg (k4_pay2 (F := Ideal) (iblk4 V c 0 t) (iblk4 V c 1 t) (iblk4 V c 2 t)) (eq_ix2 j)).trans
    (pay4_2_apply (iblk4 V c 0 t) (iblk4 V c 1 t) (iblk4 V c 2 t) (j 0) (j 1))).trans ?_
  show _ = Cert.LibProd.prod (V c main_v44) (V c main_arg5) (ix2 (rowOf4 t j) (j 1)) * (V c main_v45 : S50000x1.Idx → EReal) (ix2 (rowOf4 t j) (0 : Fin 1))
  rw [prod_rows (iblk4 V c 0 t) (iblk4 V c 1 t) (V c main_v44) (V c main_arg5) (j 0) (j 1) (rowOf4 t j)
      (fun k => iblk4_0_apply V c t (ix2 (j 0) k) (ix2 (rowOf4 t j) k) rfl rfl) (fun k => iblk4_1_apply V c t (ix2 k (j 1))),
    iblk4_2_apply V c t (ix2 (j 0) (0 : Fin 1)) (ix2 (rowOf4 t j) (0 : Fin 1)) rfl rfl]

/-- Every entry of a [50000, 64] array lies in the tile its row falls in. -/
theorem cover4_w3 (i : S50000x64.Idx) : ∃ t : Fin cfg4.N, (cfg4.win 3).flush t = true ∧ i ∈ ((cfg4.win 3).blk t).view.set := by
  have hi0 := idx2_lt0 i
  have hi1 := idx2_lt1 i
  have ht : (i 0).val / 5000 < cfg4.N := by rw [N4_eq]; omega
  refine ⟨⟨(i 0).val / 5000, ht⟩, flush4_3 _, ?_⟩
  obtain ⟨-, -, -, -, -, -, e0, e1, -⟩ := idx_facts4 ⟨(i 0).val / 5000, ht⟩
  show i ∈ ((View.whole main_v46_0).slice (win4_3.rect ⟨(i 0).val / 5000, ht⟩)).set
  rw [View.set_slice_whole, Rect.mem_set_unit]
  intro a
  match a with
  | ⟨0, _⟩ =>
    show win4_3.index ⟨(i 0).val / 5000, ht⟩ 0 * 5000 ≤ (i 0).val ∧ (i 0).val < win4_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win4_3.index ⟨(i 0).val / 5000, ht⟩ 1 * 64 ≤ (i 1).val ∧ (i 1).val < win4_3.index ⟨(i 0).val / 5000, ht⟩ 1 * 64 + 64
    rw [e1]; omega

theorem cover4_w4 (i : S50000x64.Idx) : ∃ t : Fin cfg4.N, (cfg4.win 4).flush t = true ∧ i ∈ ((cfg4.win 4).blk t).view.set := by
  have hi0 := idx2_lt0 i
  have hi1 := idx2_lt1 i
  have ht : (i 0).val / 5000 < cfg4.N := by rw [N4_eq]; omega
  refine ⟨⟨(i 0).val / 5000, ht⟩, flush4_4 _, ?_⟩
  obtain ⟨-, -, -, -, -, -, -, -, e0, e1⟩ := idx_facts4 ⟨(i 0).val / 5000, ht⟩
  show i ∈ ((View.whole main_v46_1).slice (win4_4.rect ⟨(i 0).val / 5000, ht⟩)).set
  rw [View.set_slice_whole, Rect.mem_set_unit]
  intro a
  match a with
  | ⟨0, _⟩ =>
    show win4_4.index ⟨(i 0).val / 5000, ht⟩ 0 * 5000 ≤ (i 0).val ∧ (i 0).val < win4_4.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win4_4.index ⟨(i 0).val / 5000, ht⟩ 1 * 64 ≤ (i 1).val ∧ (i 1).val < win4_4.index ⟨(i 0).val / 5000, ht⟩ 1 * 64 + 64
    rw [e1]; omega

/-- THE FIRST OUTPUT ARRAY after the launch: the plain product of the feature and weight arrays as entered. -/
theorem final4_3 (c : Dev nD) :
    (dat4 V c).arrAt 3 cfg4.N = Cert.LibProd.prod (V c main_v44) (V c main_arg5) :=
  (dat4 V c).arrAt_eq_of_cover 3 _ (fun t _ => flushed4_3_eq V c t) cover4_w3

/-- THE SECOND OUTPUT ARRAY after the launch: that product with row n scaled by the column's entry n. -/
theorem final4_4 (c : Dev nD) :
    (dat4 V c).arrAt 4 cfg4.N = Cert.GCN.scaled (Cert.LibProd.prod (V c main_v44) (V c main_arg5)) (V c main_v45) :=
  (dat4 V c).arrAt_eq_of_cover 4 _ (fun t _ => flushed4_4_eq V c t) cover4_w4

end Region4

end Cert.KernelIdeal.Hand

end
-- ==== Proof.KBlockC.lean ====
/-
  The buffer contents across one layer's host stretch and combination launch, and the next layer's linear launch.

  Entering with a layer's product H = X W in one array and H scaled row by row by the reciprocal square roots of
  the degrees in another, the host gathers the scaled rows at the edges' sources and adds them at the edges'
  destinations, reshapes the two degree vectors into columns and the bias into a row; the combination launch
  leaves the layer of the specification; the host reshapes the reciprocal square roots again and the linear
  launch leaves the next layer's product and scaled product. The edge list's rows and the two degree vectors
  pass through unchanged.
-/
import proofs.«141009_j73254962200757_2_alg».proof.Proof.Gen.KernelIdeal.Frame
import proofs.«141009_j73254962200757_2_alg».proof.Proof.Spec
import proofs.«141009_j73254962200757_2_alg».proof.Proof.KComb3
import proofs.«141009_j73254962200757_2_alg».proof.Proof.KLin4
import proofs.«141009_j73254962200757_2_alg».proof.Proof.HostRead
import proofs.«141009_j73254962200757_2_alg».proof.Proof.RefIdx
import proofs.«141009_j73254962200757_2_alg».proof.Proof.RefDeg
import proofs.«141009_j73254962200757_2_alg».proof.Proof.LibKeepdims
import proofs.«141009_j73254962200757_2_alg».proof.Proof.LibBcast
import Idealize.ShloMosaic.Lib.StableHlo.Run
import Idealize.ShloMosaic.Lib.Pipeline.Value
import Idealize.ShloMosaic.Lib.ValueLayout
import Idealize.ShloMosaic.Lib.Tactic

set_option maxRecDepth 16384
set_option pp.maxSteps 5000
set_option pp.deepTerms false

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Hand

open Cert.KernelIdeal Cert.KernelIdeal.Gen Cert.GCN Cert.LibProd

/-- A buffer that no operation of a host stretch writes holds after the stretch what it held before. -/
macro "host_keepC " ops:ident : tactic => `(tactic| (
  refine StableHlo.after_of_forall_not_mem _ _ (List.forall_iff_forall_mem.mp ?_)
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The stretch's steps over plain variables -/

/-- The destination column: row 1 of the edge list as a column. -/
theorem dstcolC (x13 : IVec S2x800000 32) (e : Fin 800000) :
    broadcastInDim S800000x1 ![0] bcast_S800000_S800000x1_0 (Cert.ReferenceIdeal.Read.val_main_v3 (F := Ideal) x13) (ix2 e (0 : Fin 1))
      = x13 (ix2 (1 : Fin 2) e) := by
  rw [Cert.LibBcast.bcast_a_a1_apply, Cert.ReferenceIdeal.RefValue.v3_ix1]

/-- The source column: row 0 of the edge list, a negative word counted from the end, as a column. -/
theorem srccolC (x13 : IVec S2x800000 32) (e : Fin 800000) :
    broadcastInDim S800000x1 ![0] bcast_S800000_S800000x1_0
      (select (cmpi CmpIPredicate.slt (Cert.ReferenceIdeal.Read.val_main_v1 (F := Ideal) x13) (broadcastInDim S800000 ![] bcast_S_S800000 (constantI S_ 32 0#32)))
        (addi (Cert.ReferenceIdeal.Read.val_main_v1 (F := Ideal) x13) (broadcastInDim S800000 ![] bcast_S_S800000 (constantI S_ 32 50000#32)))
        (Cert.ReferenceIdeal.Read.val_main_v1 (F := Ideal) x13)) (ix2 e (0 : Fin 1))
      = wrapN (x13 (ix2 (0 : Fin 2) e)) := by
  rw [Cert.LibBcast.bcast_a_a1_apply, select_apply]
  show Scalar.select (IntOp.cmpi .slt (Cert.ReferenceIdeal.Read.val_main_v1 (F := Ideal) x13 (ix1 e)) (broadcastInDim S800000 ![] bcast_S_S800000 (constantI S_ 32 0#32) (ix1 e)))
      (IntOp.addi (Cert.ReferenceIdeal.Read.val_main_v1 (F := Ideal) x13 (ix1 e)) (broadcastInDim S800000 ![] bcast_S_S800000 (constantI S_ 32 50000#32) (ix1 e)))
      (Cert.ReferenceIdeal.Read.val_main_v1 (F := Ideal) x13 (ix1 e)) = _
  rw [Cert.LibBcast.bcast_scalar_apply, Cert.LibBcast.bcast_scalar_apply, constantI_apply, constantI_apply, Cert.ReferenceIdeal.RefValue.v1_ix1]
  rfl

/-- A vector reshaped into a column is the column of its entries. -/
theorem colcastC (v : (⟨1, ![50000]⟩ : Shape).Idx → EReal) (f : Fin 50000 → EReal)
    (h : (⟨1, ![50000]⟩ : Shape).ShapeCasts ⟨2, ![50000, 1]⟩) (hv : ∀ n, v (ix1 n) = f n) :
    shapeCast (⟨2, ![50000, 1]⟩ : Shape) v h = col f := by
  funext i
  obtain ⟨n, u, rfl⟩ : ∃ (n : Fin 50000) (u : Fin 1), i = ix2 n u := ⟨i 0, i 1, eq_ix2 i⟩
  rw [Cert.LibKeepdims.shapeCast_a_a1_apply, hv]
  unfold col
  rfl

/-- A vector reshaped into a row is the row of its entries. -/
theorem rowcastC (b : (⟨1, ![64]⟩ : Shape).Idx → EReal) (h : (⟨1, ![64]⟩ : Shape).ShapeCasts ⟨2, ![1, 64]⟩) :
    shapeCast (⟨2, ![1, 64]⟩ : Shape) b h = row b := by
  funext j
  refine (shapeCast_addUnit_apply (n := 1) ![64] b h j).trans ?_
  show b (fun a => j a.succ) = b (ix1 (j 1))
  refine congrArg b (funext fun a => ?_)
  match a with
  | ⟨0, _⟩ => rfl

theorem combine_congrC (A A' : FVec Ideal SN64 .f32) (D1 D1' : FVec Ideal SN1 .f32) (H H' : FVec Ideal SN64 .f32) (DI1 DI1' : FVec Ideal SN1 .f32)
    (B1 B1' : FVec Ideal (⟨2, ![1, 64]⟩ : Shape) .f32) (hA : A = A') (hD : D1 = D1') (hH : H = H') (hDI : DI1 = DI1') (hB : B1 = B1') :
    combine A D1 H DI1 B1 = combine A' D1' H' DI1' B1' := by rw [hA, hD, hH, hDI, hB]

theorem layer_defC (ei : IVec SEI 32) (X : FVec Ideal SN64 .f32) (W : FVec Ideal (⟨2, ![64, 64]⟩ : Shape) .f32)
    (b : FVec Ideal (⟨1, ![64]⟩ : Shape) .f32) :
    layer ei X W b = combine (edgeSum ei (scaled (prod X W) (col (dis ei)))) (col (dis ei)) (prod X W) (col (dinv ei)) (row b) := by
  unfold layer
  rfl

theorem prod_congrC (l l' : FVec Ideal SN64 .f32) (r r' : FVec Ideal (⟨2, ![64, 64]⟩ : Shape) .f32) (hl : l = l') (hr : r = r') :
    prod l r = prod l' r' := by rw [hl, hr]

theorem scaled_congrC (Hh Hh' : FVec Ideal SN64 .f32) (D1 D1' : FVec Ideal SN1 .f32) (hHh : Hh = Hh') (hD : D1 = D1') :
    scaled Hh D1 = scaled Hh' D1' := by rw [hHh, hD]

section BlockC
variable (m : (ℓ : Loc nD τ sig) → Buf (Elt Ideal) ℓ) (ρ : Dev nD → PrngReg)

/-! ## The first stretch: what it keeps and what it computes -/

theorem keepC_v1_W7 (c : Dev nD) : W7 m ρ c (Proc.devRef .tc main_v1) = W6 m ρ c (Proc.devRef .tc main_v1) := by host_keepC hostOps3
theorem keepC_v3_W7 (c : Dev nD) : W7 m ρ c (Proc.devRef .tc main_v3) = W6 m ρ c (Proc.devRef .tc main_v3) := by host_keepC hostOps3
theorem keepC_v10_W7 (c : Dev nD) : W7 m ρ c (Proc.devRef .tc main_v10) = W6 m ρ c (Proc.devRef .tc main_v10) := by host_keepC hostOps3
theorem keepC_v12_W7 (c : Dev nD) : W7 m ρ c (Proc.devRef .tc main_v12) = W6 m ρ c (Proc.devRef .tc main_v12) := by host_keepC hostOps3
theorem keepC_arg5_W7 (c : Dev nD) : W7 m ρ c (Proc.devRef .tc main_arg5) = W6 m ρ c (Proc.devRef .tc main_arg5) := by host_keepC hostOps3
theorem keepC_v30_0_W7 (c : Dev nD) : W7 m ρ c (Proc.devRef .tc main_v30_0) = W6 m ρ c (Proc.devRef .tc main_v30_0) := by host_keepC hostOps3

set_option maxHeartbeats 4000000 in
/-- The aggregate as the stretch spells it, over the contents at entry. -/
theorem termC_agg (c : Dev nD) : W7 m ρ c (Proc.devRef .tc main_v40)
    = Host.scatterAdd (F := Ideal) scatter_S50000x64_S800000x1_S800000x64_1_0_0_1
        (broadcastInDim S50000x64 ![] bcast_S_S50000x64 (constant (F := Ideal) S_ FTy.f32 0#32))
        (broadcastInDim S800000x1 ![0] bcast_S800000_S800000x1_0 (W6 m ρ c (Proc.devRef .tc main_v3)))
        (Host.gather gather_S50000x64_S800000x1_S800000x64_1_0_n_n_0_1_164 (W6 m ρ c (Proc.devRef .tc main_v30_1))
          (broadcastInDim S800000x1 ![0] bcast_S800000_S800000x1_0
            (select (cmpi CmpIPredicate.slt (W6 m ρ c (Proc.devRef .tc main_v1)) (broadcastInDim S800000 ![] bcast_S_S800000 (constantI S_ 32 0#32)))
              (addi (W6 m ρ c (Proc.devRef .tc main_v1)) (broadcastInDim S800000 ![] bcast_S_S800000 (constantI S_ 32 50000#32)))
              (W6 m ρ c (Proc.devRef .tc main_v1))))) := by
  show StableHlo.after hostOps3 (W6 m ρ c) (Proc.devRef .tc main_v40) = _
  after_results <;> rfl

set_option maxHeartbeats 4000000 in
theorem termC_c1 (c : Dev nD) : W7 m ρ c (Proc.devRef .tc main_v41) = shapeCast S50000x1 (W6 m ρ c (Proc.devRef .tc main_v10)) shapeCasts_S50000_S50000x1 := by
  show StableHlo.after hostOps3 (W6 m ρ c) (Proc.devRef .tc main_v41) = _
  after_results <;> rfl

set_option maxHeartbeats 4000000 in
theorem termC_c2 (c : Dev nD) : W7 m ρ c (Proc.devRef .tc main_v42) = shapeCast S50000x1 (W6 m ρ c (Proc.devRef .tc main_v12)) shapeCasts_S50000_S50000x1 := by
  show StableHlo.after hostOps3 (W6 m ρ c) (Proc.devRef .tc main_v42) = _
  after_results <;> rfl

set_option maxHeartbeats 4000000 in
theorem termC_brow (c : Dev nD) : W7 m ρ c (Proc.devRef .tc main_v43) = shapeCast S1x64 (W6 m ρ c (Proc.devRef .tc main_arg4)) shapeCasts_S64_S1x64 := by
  show StableHlo.after hostOps3 (W6 m ρ c) (Proc.devRef .tc main_v43) = _
  after_results <;> rfl

/-- The aggregate is the specification's sum over the edges counting for each node. -/
theorem valC_agg (c : Dev nD) (X : FVec Ideal S50000x64 .f32) (Wt : FVec Ideal S64x64 .f32)
    (h1 : W6 m ρ c (Proc.devRef .tc main_v1) = Cert.ReferenceIdeal.Read.val_main_v1 (F := Ideal) (m ((c : Thread nD τ).loc main_arg13)))
    (h3 : W6 m ρ c (Proc.devRef .tc main_v3) = Cert.ReferenceIdeal.Read.val_main_v3 (F := Ideal) (m ((c : Thread nD τ).loc main_arg13)))
    (hHT : W6 m ρ c (Proc.devRef .tc main_v30_1) = scaled (prod X Wt) (col (dis (m ((c : Thread nD τ).loc main_arg13))))) :
    W7 m ρ c (Proc.devRef .tc main_v40) = edgeSum (m ((c : Thread nD τ).loc main_arg13)) (scaled (prod X Wt) (col (dis (m ((c : Thread nD τ).loc main_arg13))))) := by
  rw [termC_agg, h1, h3, hHT]
  funext i
  obtain ⟨n, q, rfl⟩ : ∃ (n : Fin 50000) (q : Fin 64), i = ix2 n q := ⟨i 0, i 1, eq_ix2 i⟩
  exact edgeSum_read (m ((c : Thread nD τ).loc main_arg13)) scatter_S50000x64_S800000x1_S800000x64_1_0_0_1 rfl rfl rfl rfl
    gather_S50000x64_S800000x1_S800000x64_1_0_n_n_0_1_164 rfl rfl rfl rfl rfl rfl rfl bcast_S_S50000x64 _ _
    (fun e => dstcolC (m ((c : Thread nD τ).loc main_arg13)) e) (fun e => srccolC (m ((c : Thread nD τ).loc main_arg13)) e) (scaled (prod X Wt) (col (dis (m ((c : Thread nD τ).loc main_arg13))))) n q

/-- The first column is the reciprocal square roots of the degrees. -/
theorem valC_c1 (c : Dev nD) (h10 : W6 m ρ c (Proc.devRef .tc main_v10) = Cert.ReferenceIdeal.Read.val_main_v10 (F := Ideal) (m ((c : Thread nD τ).loc main_arg13))) :
    W7 m ρ c (Proc.devRef .tc main_v41) = col (dis (m ((c : Thread nD τ).loc main_arg13))) := by
  rw [termC_c1, h10]
  exact colcastC _ _ _ (fun n => Cert.ReferenceIdeal.RefValue.v10_ix1 (m ((c : Thread nD τ).loc main_arg13)) n)

/-- The second column is the reciprocals of the degrees. -/
theorem valC_c2 (c : Dev nD) (h12 : W6 m ρ c (Proc.devRef .tc main_v12) = Cert.ReferenceIdeal.Read.val_main_v12 (F := Ideal) (m ((c : Thread nD τ).loc main_arg13))) :
    W7 m ρ c (Proc.devRef .tc main_v42) = col (dinv (m ((c : Thread nD τ).loc main_arg13))) := by
  rw [termC_c2, h12]
  exact colcastC _ _ _ (fun n => Cert.ReferenceIdeal.RefValue.v12_ix1 (m ((c : Thread nD τ).loc main_arg13)) n)

/-- The bias row. -/
theorem valC_brow (c : Dev nD) (hb : W6 m ρ c (Proc.devRef .tc main_arg4) = (m ((c : Thread nD τ).loc main_arg4))) : W7 m ρ c (Proc.devRef .tc main_v43) = row (m ((c : Thread nD τ).loc main_arg4)) := by
  rw [termC_brow, hb]
  exact rowcastC _ _

/-! ## The combination launch -/

/-- What the combination launch leaves is the layer. -/
theorem valC_out1 (c : Dev nD) (X : FVec Ideal S50000x64 .f32) (Wt : FVec Ideal S64x64 .f32)
    (h1 : W6 m ρ c (Proc.devRef .tc main_v1) = Cert.ReferenceIdeal.Read.val_main_v1 (F := Ideal) (m ((c : Thread nD τ).loc main_arg13)))
    (h3 : W6 m ρ c (Proc.devRef .tc main_v3) = Cert.ReferenceIdeal.Read.val_main_v3 (F := Ideal) (m ((c : Thread nD τ).loc main_arg13)))
    (h10 : W6 m ρ c (Proc.devRef .tc main_v10) = Cert.ReferenceIdeal.Read.val_main_v10 (F := Ideal) (m ((c : Thread nD τ).loc main_arg13)))
    (h12 : W6 m ρ c (Proc.devRef .tc main_v12) = Cert.ReferenceIdeal.Read.val_main_v12 (F := Ideal) (m ((c : Thread nD τ).loc main_arg13)))
    (hb : W6 m ρ c (Proc.devRef .tc main_arg4) = (m ((c : Thread nD τ).loc main_arg4))) (hw : W6 m ρ c (Proc.devRef .tc main_arg5) = (m ((c : Thread nD τ).loc main_arg5)))
    (hH : W6 m ρ c (Proc.devRef .tc main_v30_0) = prod X Wt)
    (hHT : W6 m ρ c (Proc.devRef .tc main_v30_1) = scaled (prod X Wt) (col (dis (m ((c : Thread nD τ).loc main_arg13))))) :
    W8 m ρ c (Proc.devRef .tc main_v44) = layer (m ((c : Thread nD τ).loc main_arg13)) X Wt (m ((c : Thread nD τ).loc main_arg4)) := by
  refine (W8_arr m ρ c 5).trans ?_
  refine (final3_5 (V7 m ρ) c).trans ?_
  rw [layer_defC]
  exact combine_congrC _ _ _ _ _ _ _ _ _ _ (valC_agg m ρ c X Wt h1 h3 hHT) (valC_c1 m ρ c h10)
    ((keepC_v30_0_W7 m ρ c).trans hH) (valC_c2 m ρ c h12) (valC_brow m ρ c hb)

theorem keepC_v1_W8 (c : Dev nD) : W8 m ρ c (Proc.devRef .tc main_v1) = W7 m ρ c (Proc.devRef .tc main_v1) := W8_of_ne m ρ c main_v1 (by decide)
theorem keepC_v3_W8 (c : Dev nD) : W8 m ρ c (Proc.devRef .tc main_v3) = W7 m ρ c (Proc.devRef .tc main_v3) := W8_of_ne m ρ c main_v3 (by decide)
theorem keepC_v10_W8 (c : Dev nD) : W8 m ρ c (Proc.devRef .tc main_v10) = W7 m ρ c (Proc.devRef .tc main_v10) := W8_of_ne m ρ c main_v10 (by decide)
theorem keepC_v12_W8 (c : Dev nD) : W8 m ρ c (Proc.devRef .tc main_v12) = W7 m ρ c (Proc.devRef .tc main_v12) := W8_of_ne m ρ c main_v12 (by decide)
theorem keepC_arg5_W8 (c : Dev nD) : W8 m ρ c (Proc.devRef .tc main_arg5) = W7 m ρ c (Proc.devRef .tc main_arg5) := W8_of_ne m ρ c main_arg5 (by decide)

/-! ## The second stretch and the linear launch -/

theorem keepC_v1_W9 (c : Dev nD) : W9 m ρ c (Proc.devRef .tc main_v1) = W8 m ρ c (Proc.devRef .tc main_v1) := by host_keepC hostOps4
theorem keepC_v3_W9 (c : Dev nD) : W9 m ρ c (Proc.devRef .tc main_v3) = W8 m ρ c (Proc.devRef .tc main_v3) := by host_keepC hostOps4
theorem keepC_v10_W9 (c : Dev nD) : W9 m ρ c (Proc.devRef .tc main_v10) = W8 m ρ c (Proc.devRef .tc main_v10) := by host_keepC hostOps4
theorem keepC_v12_W9 (c : Dev nD) : W9 m ρ c (Proc.devRef .tc main_v12) = W8 m ρ c (Proc.devRef .tc main_v12) := by host_keepC hostOps4
theorem keepC_arg5_W9 (c : Dev nD) : W9 m ρ c (Proc.devRef .tc main_arg5) = W8 m ρ c (Proc.devRef .tc main_arg5) := by host_keepC hostOps4
theorem keepC_v44_W9 (c : Dev nD) : W9 m ρ c (Proc.devRef .tc main_v44) = W8 m ρ c (Proc.devRef .tc main_v44) := by host_keepC hostOps4

theorem termC_c3 (c : Dev nD) : W9 m ρ c (Proc.devRef .tc main_v45) = shapeCast S50000x1 (W8 m ρ c (Proc.devRef .tc main_v10)) shapeCasts_S50000_S50000x1 := by
  show StableHlo.after hostOps4 (W8 m ρ c) (Proc.devRef .tc main_v45) = _
  after_results <;> rfl

theorem keepC_v1_W10 (c : Dev nD) : W10 m ρ c (Proc.devRef .tc main_v1) = W9 m ρ c (Proc.devRef .tc main_v1) := W10_of_ne m ρ c main_v1 (by decide)
theorem keepC_v3_W10 (c : Dev nD) : W10 m ρ c (Proc.devRef .tc main_v3) = W9 m ρ c (Proc.devRef .tc main_v3) := W10_of_ne m ρ c main_v3 (by decide)
theorem keepC_v10_W10 (c : Dev nD) : W10 m ρ c (Proc.devRef .tc main_v10) = W9 m ρ c (Proc.devRef .tc main_v10) := W10_of_ne m ρ c main_v10 (by decide)
theorem keepC_v12_W10 (c : Dev nD) : W10 m ρ c (Proc.devRef .tc main_v12) = W9 m ρ c (Proc.devRef .tc main_v12) := W10_of_ne m ρ c main_v12 (by decide)

/-- Through the block unchanged. -/
theorem passC_v1 (c : Dev nD) : W10 m ρ c (Proc.devRef .tc main_v1) = W6 m ρ c (Proc.devRef .tc main_v1) :=
  (keepC_v1_W10 m ρ c).trans ((keepC_v1_W9 m ρ c).trans ((keepC_v1_W8 m ρ c).trans (keepC_v1_W7 m ρ c)))
/-- Through the block unchanged. -/
theorem passC_v3 (c : Dev nD) : W10 m ρ c (Proc.devRef .tc main_v3) = W6 m ρ c (Proc.devRef .tc main_v3) :=
  (keepC_v3_W10 m ρ c).trans ((keepC_v3_W9 m ρ c).trans ((keepC_v3_W8 m ρ c).trans (keepC_v3_W7 m ρ c)))
/-- Through the block unchanged. -/
theorem passC_v10 (c : Dev nD) : W10 m ρ c (Proc.devRef .tc main_v10) = W6 m ρ c (Proc.devRef .tc main_v10) :=
  (keepC_v10_W10 m ρ c).trans ((keepC_v10_W9 m ρ c).trans ((keepC_v10_W8 m ρ c).trans (keepC_v10_W7 m ρ c)))
/-- Through the block unchanged. -/
theorem passC_v12 (c : Dev nD) : W10 m ρ c (Proc.devRef .tc main_v12) = W6 m ρ c (Proc.devRef .tc main_v12) :=
  (keepC_v12_W10 m ρ c).trans ((keepC_v12_W9 m ρ c).trans ((keepC_v12_W8 m ρ c).trans (keepC_v12_W7 m ρ c)))

/-- The column the linear launch scales by. -/
theorem valC_c3 (c : Dev nD) (h10 : W6 m ρ c (Proc.devRef .tc main_v10) = Cert.ReferenceIdeal.Read.val_main_v10 (F := Ideal) (m ((c : Thread nD τ).loc main_arg13))) :
    W9 m ρ c (Proc.devRef .tc main_v45) = col (dis (m ((c : Thread nD τ).loc main_arg13))) := by
  rw [termC_c3, keepC_v10_W8, keepC_v10_W7, h10]
  exact colcastC _ _ _ (fun n => Cert.ReferenceIdeal.RefValue.v10_ix1 (m ((c : Thread nD τ).loc main_arg13)) n)

/-- The weight matrix at the linear launch's entry. -/
theorem valC_w (c : Dev nD) (hw : W6 m ρ c (Proc.devRef .tc main_arg5) = (m ((c : Thread nD τ).loc main_arg5))) : W9 m ρ c (Proc.devRef .tc main_arg5) = (m ((c : Thread nD τ).loc main_arg5)) :=
  (keepC_arg5_W9 m ρ c).trans ((keepC_arg5_W8 m ρ c).trans ((keepC_arg5_W7 m ρ c).trans hw))

/-- The next layer's product. -/
theorem valC_o0 (c : Dev nD) (X : FVec Ideal S50000x64 .f32) (Wt : FVec Ideal S64x64 .f32)
    (h1 : W6 m ρ c (Proc.devRef .tc main_v1) = Cert.ReferenceIdeal.Read.val_main_v1 (F := Ideal) (m ((c : Thread nD τ).loc main_arg13)))
    (h3 : W6 m ρ c (Proc.devRef .tc main_v3) = Cert.ReferenceIdeal.Read.val_main_v3 (F := Ideal) (m ((c : Thread nD τ).loc main_arg13)))
    (h10 : W6 m ρ c (Proc.devRef .tc main_v10) = Cert.ReferenceIdeal.Read.val_main_v10 (F := Ideal) (m ((c : Thread nD τ).loc main_arg13)))
    (h12 : W6 m ρ c (Proc.devRef .tc main_v12) = Cert.ReferenceIdeal.Read.val_main_v12 (F := Ideal) (m ((c : Thread nD τ).loc main_arg13)))
    (hb : W6 m ρ c (Proc.devRef .tc main_arg4) = (m ((c : Thread nD τ).loc main_arg4))) (hw : W6 m ρ c (Proc.devRef .tc main_arg5) = (m ((c : Thread nD τ).loc main_arg5)))
    (hH : W6 m ρ c (Proc.devRef .tc main_v30_0) = prod X Wt)
    (hHT : W6 m ρ c (Proc.devRef .tc main_v30_1) = scaled (prod X Wt) (col (dis (m ((c : Thread nD τ).loc main_arg13))))) :
    W10 m ρ c (Proc.devRef .tc main_v46_0) = prod (layer (m ((c : Thread nD τ).loc main_arg13)) X Wt (m ((c : Thread nD τ).loc main_arg4))) (m ((c : Thread nD τ).loc main_arg5)) := by
  refine (W10_arr m ρ c 3).trans ?_
  refine (final4_3 (V9 m ρ) c).trans ?_
  exact prod_congrC _ _ _ _ ((keepC_v44_W9 m ρ c).trans (valC_out1 m ρ c X Wt h1 h3 h10 h12 hb hw hH hHT))
    (valC_w m ρ c hw)

/-- The next layer's product scaled row by row. -/
theorem valC_o1 (c : Dev nD) (X : FVec Ideal S50000x64 .f32) (Wt : FVec Ideal S64x64 .f32)
    (h1 : W6 m ρ c (Proc.devRef .tc main_v1) = Cert.ReferenceIdeal.Read.val_main_v1 (F := Ideal) (m ((c : Thread nD τ).loc main_arg13)))
    (h3 : W6 m ρ c (Proc.devRef .tc main_v3) = Cert.ReferenceIdeal.Read.val_main_v3 (F := Ideal) (m ((c : Thread nD τ).loc main_arg13)))
    (h10 : W6 m ρ c (Proc.devRef .tc main_v10) = Cert.ReferenceIdeal.Read.val_main_v10 (F := Ideal) (m ((c : Thread nD τ).loc main_arg13)))
    (h12 : W6 m ρ c (Proc.devRef .tc main_v12) = Cert.ReferenceIdeal.Read.val_main_v12 (F := Ideal) (m ((c : Thread nD τ).loc main_arg13)))
    (hb : W6 m ρ c (Proc.devRef .tc main_arg4) = (m ((c : Thread nD τ).loc main_arg4))) (hw : W6 m ρ c (Proc.devRef .tc main_arg5) = (m ((c : Thread nD τ).loc main_arg5)))
    (hH : W6 m ρ c (Proc.devRef .tc main_v30_0) = prod X Wt)
    (hHT : W6 m ρ c (Proc.devRef .tc main_v30_1) = scaled (prod X Wt) (col (dis (m ((c : Thread nD τ).loc main_arg13))))) :
    W10 m ρ c (Proc.devRef .tc main_v46_1) = scaled (prod (layer (m ((c : Thread nD τ).loc main_arg13)) X Wt (m ((c : Thread nD τ).loc main_arg4))) (m ((c : Thread nD τ).loc main_arg5))) (col (dis (m ((c : Thread nD τ).loc main_arg13)))) := by
  refine (W10_arr m ρ c 4).trans ?_
  refine (final4_4 (V9 m ρ) c).trans ?_
  exact scaled_congrC _ _ _ _
    (prod_congrC _ _ _ _ ((keepC_v44_W9 m ρ c).trans (valC_out1 m ρ c X Wt h1 h3 h10 h12 hb hw hH hHT)) (valC_w m ρ c hw))
    (valC_c3 m ρ c h10)

/-- ACROSS THE BLOCK: the next layer's product and scaled product, the edge rows and degree vectors unchanged. -/
theorem block_6_10 (c : Dev nD) (X : FVec Ideal S50000x64 .f32) (Wt : FVec Ideal S64x64 .f32)
    (h1 : W6 m ρ c (Proc.devRef .tc main_v1) = Cert.ReferenceIdeal.Read.val_main_v1 (F := Ideal) (m ((c : Thread nD τ).loc main_arg13)))
    (h3 : W6 m ρ c (Proc.devRef .tc main_v3) = Cert.ReferenceIdeal.Read.val_main_v3 (F := Ideal) (m ((c : Thread nD τ).loc main_arg13)))
    (h10 : W6 m ρ c (Proc.devRef .tc main_v10) = Cert.ReferenceIdeal.Read.val_main_v10 (F := Ideal) (m ((c : Thread nD τ).loc main_arg13)))
    (h12 : W6 m ρ c (Proc.devRef .tc main_v12) = Cert.ReferenceIdeal.Read.val_main_v12 (F := Ideal) (m ((c : Thread nD τ).loc main_arg13)))
    (hb : W6 m ρ c (Proc.devRef .tc main_arg4) = (m ((c : Thread nD τ).loc main_arg4))) (hw : W6 m ρ c (Proc.devRef .tc main_arg5) = (m ((c : Thread nD τ).loc main_arg5)))
    (hH : W6 m ρ c (Proc.devRef .tc main_v30_0) = prod X Wt)
    (hHT : W6 m ρ c (Proc.devRef .tc main_v30_1) = scaled (prod X Wt) (col (dis (m ((c : Thread nD τ).loc main_arg13))))) :
    W10 m ρ c (Proc.devRef .tc main_v46_0) = prod (layer (m ((c : Thread nD τ).loc main_arg13)) X Wt (m ((c : Thread nD τ).loc main_arg4))) (m ((c : Thread nD τ).loc main_arg5))
    ∧ W10 m ρ c (Proc.devRef .tc main_v46_1) = scaled (prod (layer (m ((c : Thread nD τ).loc main_arg13)) X Wt (m ((c : Thread nD τ).loc main_arg4))) (m ((c : Thread nD τ).loc main_arg5))) (col (dis (m ((c : Thread nD τ).loc main_arg13))))
    ∧ W10 m ρ c (Proc.devRef .tc main_v1) = Cert.ReferenceIdeal.Read.val_main_v1 (F := Ideal) (m ((c : Thread nD τ).loc main_arg13))
    ∧ W10 m ρ c (Proc.devRef .tc main_v3) = Cert.ReferenceIdeal.Read.val_main_v3 (F := Ideal) (m ((c : Thread nD τ).loc main_arg13))
    ∧ W10 m ρ c (Proc.devRef .tc main_v10) = Cert.ReferenceIdeal.Read.val_main_v10 (F := Ideal) (m ((c : Thread nD τ).loc main_arg13))
    ∧ W10 m ρ c (Proc.devRef .tc main_v12) = Cert.ReferenceIdeal.Read.val_main_v12 (F := Ideal) (m ((c : Thread nD τ).loc main_arg13)) :=
  ⟨valC_o0 m ρ c X Wt h1 h3 h10 h12 hb hw hH hHT, valC_o1 m ρ c X Wt h1 h3 h10 h12 hb hw hH hHT,
    (passC_v1 m ρ c).trans h1, (passC_v3 m ρ c).trans h3, (passC_v10 m ρ c).trans h10, (passC_v12 m ρ c).trans h12⟩

end BlockC

end Cert.KernelIdeal.Hand

end
-- ==== Proof.KComb5.lean ====
/-
  What the third pointwise launch (the combination step of a layer) leaves in its output array.

  The node axis is cut into ten tiles of 5000 rows. At tile t the body reads rows 5000 t … 5000 t + 4999 of two
  [50000, 64] arrays A and H and of two [50000, 1] columns d and e, and the one bias row b, and stores, at entry
  (p, q) of the tile, (d p * A (p, q) + e p * H (p, q)) + b q. Entry (p, q) of the tile depends only on row
  5000 t + p of the arrays, so the ten tiles written back are the ten row blocks of ONE array: the combination
  of the whole arrays.
-/
import proofs.«141009_j73254962200757_2_alg».proof.Proof.Gen.KernelIdeal.Frame
import proofs.«141009_j73254962200757_2_alg».proof.Proof.Spec
import proofs.«141009_j73254962200757_2_alg».proof.Proof.LibMatmul
import proofs.«141009_j73254962200757_2_alg».proof.Proof.LibPlainDims
import proofs.«141009_j73254962200757_2_alg».proof.Proof.LibKeepdims
import Idealize.ShloMosaic.Lib.Pipeline.Value
import Idealize.ShloMosaic.Lib.ValueLayout
import Idealize.ShloMosaic.Lib.Tactic

set_option maxRecDepth 16384
set_option pp.maxSteps 5000
set_option pp.deepTerms false

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

theorem hz2_5 : (![0, 0] : Fin 2 → Nat) = fun _ => 0 := funext fun a => by fin_cases a <;> rfl

/-- The stored combination at an entry of the tile. -/
theorem pay5_1_apply (v0 : Vec Ideal S5000x1 .f32) (v2 : Vec Ideal S5000x64 .f32) (v6 : Vec Ideal S5000x1 .f32)
    (v8 : Vec Ideal S5000x64 .f32) (v13 : Vec Ideal S1x64 .f32) (p : Fin 5000) (q : Fin 64) :
    k5_pay1 (F := Ideal) v0 v2 v6 v8 v13 (ix2 p q)
      = (v0 (ix2 p (0 : Fin 1)) * v2 (ix2 p q) + v6 (ix2 p (0 : Fin 1)) * v8 (ix2 p q)) + v13 (ix2 (0 : Fin 1) q) := by
  unfold k5_pay1
  show (broadcastTo S5000x64 (shapeCast S5000x1 v0 shapeCasts_S5000x1_S5000x1) broadcasts_S5000x1_S5000x64 (ix2 p q)
          * shapeCast S5000x64 v2 shapeCasts_S5000x64_S5000x64 (ix2 p q)
        + broadcastTo S5000x64 (shapeCast S5000x1 v6 shapeCasts_S5000x1_S5000x1) broadcasts_S5000x1_S5000x64 (ix2 p q)
          * shapeCast S5000x64 v8 shapeCasts_S5000x64_S5000x64 (ix2 p q))
      + broadcastTo S5000x64 (shapeCast S1x64 v13 shapeCasts_S1x64_S1x64) broadcasts_S1x64_S5000x64 (ix2 p q) = _
  rw [Cert.LibKeepdims.broadcastTo_a1_ab_apply, Cert.LibKeepdims.broadcastTo_a1_ab_apply, broadcastTo_1b_ab_apply]
  simp only [shapeCast_self]

section Region5
variable (V : (c : Dev nD) → (b : Ref sig .tc) → Buf (Elt Ideal) ((c : Thread nD τ).loc b))

/-- The printed index maps over the ten tiles: the row-tiled windows sit at tile t, the bias row stays put. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The first array's block at tile t is rows 5000 t … of that array. -/
theorem iblk5_0_apply (c : Dev nD) (t : Fin cfg5.N) (x : S5000x64.Idx) (k : S50000x64.Idx)
    (hk0 : (k 0).val = 5000 * t.val + (x 0).val) (hk1 : (k 1).val = (x 1).val) :
    (iblk5 V c 0 t : Vec Ideal S5000x64 .f32) x = (V c main_v56 : S50000x64.Idx → EReal) k := by
  obtain ⟨e0, e1, -⟩ := idx_facts5 t
  unfold iblk5
  rw [View.read_apply]
  show V c main_v56 _ = V c main_v56 _
  congr 1
  funext a
  apply Fin.ext
  match a with
  | ⟨0, _⟩ => show win5_0.index t 0 * 5000 + 1 * (x 0).val = (k 0).val; rw [e0, hk0]; omega
  | ⟨1, _⟩ => show win5_0.index t 1 * 64 + 1 * (x 1).val = (k 1).val; rw [e1, hk1]; omega

/-- The first column's block at tile t is rows 5000 t … of that column. -/
theorem iblk5_1_apply (c : Dev nD) (t : Fin cfg5.N) (x : S5000x1.Idx) (k : S50000x1.Idx)
    (hk0 : (k 0).val = 5000 * t.val + (x 0).val) (hk1 : (k 1).val = (x 1).val) :
    (iblk5 V c 1 t : Vec Ideal S5000x1 .f32) x = (V c main_v57 : S50000x1.Idx → EReal) k := by
  obtain ⟨-, -, e0, e1, -⟩ := idx_facts5 t
  unfold iblk5
  rw [View.read_apply]
  show V c main_v57 _ = V c main_v57 _
  congr 1
  funext a
  apply Fin.ext
  match a with
  | ⟨0, _⟩ => show win5_1.index t 0 * 5000 + 1 * (x 0).val = (k 0).val; rw [e0, hk0]; omega
  | ⟨1, _⟩ => show win5_1.index t 1 * 1 + 1 * (x 1).val = (k 1).val; rw [e1, hk1]; omega

/-- The second array's block at tile t is rows 5000 t … of that array. -/
theorem iblk5_2_apply (c : Dev nD) (t : Fin cfg5.N) (x : S5000x64.Idx) (k : S50000x64.Idx)
    (hk0 : (k 0).val = 5000 * t.val + (x 0).val) (hk1 : (k 1).val = (x 1).val) :
    (iblk5 V c 2 t : Vec Ideal S5000x64 .f32) x = (V c main_v46_0 : S50000x64.Idx → EReal) k := by
  obtain ⟨-, -, -, -, e0, e1, -⟩ := idx_facts5 t
  unfold iblk5
  rw [View.read_apply]
  show V c main_v46_0 _ = V c main_v46_0 _
  congr 1
  funext a
  apply Fin.ext
  match a with
  | ⟨0, _⟩ => show win5_2.index t 0 * 5000 + 1 * (x 0).val = (k 0).val; rw [e0, hk0]; omega
  | ⟨1, _⟩ => show win5_2.index t 1 * 64 + 1 * (x 1).val = (k 1).val; rw [e1, hk1]; omega

/-- The second column's block at tile t is rows 5000 t … of that column. -/
theorem iblk5_3_apply (c : Dev nD) (t : Fin cfg5.N) (x : S5000x1.Idx) (k : S50000x1.Idx)
    (hk0 : (k 0).val = 5000 * t.val + (x 0).val) (hk1 : (k 1).val = (x 1).val) :
    (iblk5 V c 3 t : Vec Ideal S5000x1 .f32) x = (V c main_v58 : S50000x1.Idx → EReal) k := by
  obtain ⟨-, -, -, -, -, -, e0, e1, -⟩ := idx_facts5 t
  unfold iblk5
  rw [View.read_apply]
  show V c main_v58 _ = V c main_v58 _
  congr 1
  funext a
  apply Fin.ext
  match a with
  | ⟨0, _⟩ => show win5_3.index t 0 * 5000 + 1 * (x 0).val = (k 0).val; rw [e0, hk0]; omega
  | ⟨1, _⟩ => show win5_3.index t 1 * 1 + 1 * (x 1).val = (k 1).val; rw [e1, hk1]; omega

/-- The bias window's block is the bias row at every tile. -/
theorem iblk5_4_apply (c : Dev nD) (t : Fin cfg5.N) (x : S1x64.Idx) :
    (iblk5 V c 4 t : Vec Ideal S1x64 .f32) x = (V c main_v59 : S1x64.Idx → EReal) x := by
  obtain ⟨-, -, -, -, -, -, -, -, e0, e1, -⟩ := idx_facts5 t
  unfold iblk5
  rw [View.read_apply]
  show V c main_v59 _ = V c main_v59 _
  congr 1
  funext a
  apply Fin.ext
  match a with
  | ⟨0, _⟩ => show win5_4.index t 0 * 1 + 1 * (x 0).val = (x 0).val; rw [e0]; omega
  | ⟨1, _⟩ => show win5_4.index t 1 * 64 + 1 * (x 1).val = (x 1).val; rw [e1]; omega

/-- The combination at an entry of the whole arrays. -/
theorem combine_ix2_5 (A : S50000x64.Idx → EReal) (D1 : S50000x1.Idx → EReal) (H : S50000x64.Idx → EReal)
    (DI1 : S50000x1.Idx → EReal) (B1 : S1x64.Idx → EReal) (n : Fin 50000) (q : Fin 64) :
    Cert.GCN.combine A D1 H DI1 B1 (ix2 n q)
      = (D1 (ix2 n (0 : Fin 1)) * A (ix2 n q) + DI1 (ix2 n (0 : Fin 1)) * H (ix2 n q)) + B1 (ix2 (0 : Fin 1) q) := rfl

/-- An entry of a tile's combination is the same entry of the whole combination: the tile's row p is the arrays'
    row n, and the bias is the same row. -/
theorem comb_rows5 (b0 : S5000x64.Idx → EReal) (b1 : S5000x1.Idx → EReal) (b2 : S5000x64.Idx → EReal) (b3 : S5000x1.Idx → EReal)
    (b4 : S1x64.Idx → EReal) (A : S50000x64.Idx → EReal) (D1 : S50000x1.Idx → EReal) (H : S50000x64.Idx → EReal)
    (DI1 : S50000x1.Idx → EReal) (B1 : S1x64.Idx → EReal) (p : Fin 5000) (q : Fin 64) (n : Fin 50000)
    (h0 : b0 (ix2 p q) = A (ix2 n q)) (h1 : b1 (ix2 p (0 : Fin 1)) = D1 (ix2 n (0 : Fin 1)))
    (h2 : b2 (ix2 p q) = H (ix2 n q)) (h3 : b3 (ix2 p (0 : Fin 1)) = DI1 (ix2 n (0 : Fin 1)))
    (h4 : b4 (ix2 (0 : Fin 1) q) = B1 (ix2 (0 : Fin 1) q)) :
    (b1 (ix2 p (0 : Fin 1)) * b0 (ix2 p q) + b3 (ix2 p (0 : Fin 1)) * b2 (ix2 p q)) + b4 (ix2 (0 : Fin 1) q)
      = Cert.GCN.combine A D1 H DI1 B1 (ix2 n q) := by
  rw [combine_ix2_5, h0, h1, h2, h3, h4]

/-- Where block t of the row-tiled output sends an entry of the tile. -/
theorem emb5_5 (t : Fin cfg5.N) (j : S5000x64.Idx) (n : Fin 50000) (hn : n.val = 5000 * t.val + (j 0).val) :
    ((cfg5.win 5).blk t).view.emb j = ix2 n (j 1) := by
  obtain ⟨-, -, -, -, -, -, -, -, -, -, e0, e1⟩ := idx_facts5 t
  funext a
  apply Fin.ext
  match a with
  | ⟨0, _⟩ => show win5_5.index t 0 * 5000 + 1 * (j 0).val = n.val; rw [e0, hn]; omega
  | ⟨1, _⟩ => show win5_5.index t 1 * 64 + 1 * (j 1).val = (j 1).val; rw [e1]; omega

theorem N5_eq : cfg5.N = 10 := by decide

/-- The row of the whole array that entry j of tile t is. -/
def rowOf5 (t : Fin cfg5.N) (j : S5000x64.Idx) : Fin 50000 :=
  ⟨5000 * t.val + (j 0).val, by have h1 : t.val < 10 := lt_of_lt_of_eq t.isLt N5_eq; have h2 := idx2_lt0 j; omega⟩

/-- WHAT TILE t WRITES BACK is block t of the combination of the whole arrays. -/
theorem flushed5_5_eq (c : Dev nD) (t : Fin cfg5.N) :
    (dat5 V c).flushed 5 t = ((cfg5.win 5).blk t).view.read (Elt Ideal)
      (Cert.GCN.combine (V c main_v56) (V c main_v57) (V c main_v46_0) (V c main_v58) (V c main_v59)) := by
  show (cfg5.win 5).cut (grid5.coords t) ((dat5 V c).after 5 t) = _
  rw [after5_5]
  unfold out5_5
  rw [View.canon_unit_zero hz2_5]
  simp only [View.ld_unit_zero (S := S5000x64) hz2_5, View.ld_unit_zero (S := S5000x1) hz2_5, View.ld_unit_zero (S := S1x64) hz2_5]
  funext j
  show k5_pay1 (F := Ideal) (iblk5 V c 1 t) (iblk5 V c 0 t) (iblk5 V c 3 t) (iblk5 V c 2 t) (iblk5 V c 4 t) j
    = Cert.GCN.combine (V c main_v56) (V c main_v57) (V c main_v46_0) (V c main_v58) (V c main_v59) (((cfg5.win 5).blk t).view.emb j)
  rw [emb5_5 t j (rowOf5 t j) rfl]
  refine Eq.trans ?_ (comb_rows5 (iblk5 V c 0 t) (iblk5 V c 1 t) (iblk5 V c 2 t) (iblk5 V c 3 t) (iblk5 V c 4 t)
    (V c main_v56) (V c main_v57) (V c main_v46_0) (V c main_v58) (V c main_v59) (j 0) (j 1) (rowOf5 t j)
    (iblk5_0_apply V c t (ix2 (j 0) (j 1)) (ix2 (rowOf5 t j) (j 1)) rfl rfl)
    (iblk5_1_apply V c t (ix2 (j 0) (0 : Fin 1)) (ix2 (rowOf5 t j) (0 : Fin 1)) rfl rfl)
    (iblk5_2_apply V c t (ix2 (j 0) (j 1)) (ix2 (rowOf5 t j) (j 1)) rfl rfl)
    (iblk5_3_apply V c t (ix2 (j 0) (0 : Fin 1)) (ix2 (rowOf5 t j) (0 : Fin 1)) rfl rfl)
    (iblk5_4_apply V c t (ix2 (0 : Fin 1) (j 1))))
  exact (congrArg (k5_pay1 (F := Ideal) (iblk5 V c 1 t) (iblk5 V c 0 t) (iblk5 V c 3 t) (iblk5 V c 2 t) (iblk5 V c 4 t)) (eq_ix2 j)).trans
    (pay5_1_apply (iblk5 V c 1 t) (iblk5 V c 0 t) (iblk5 V c 3 t) (iblk5 V c 2 t) (iblk5 V c 4 t) (j 0) (j 1))

/-- Every entry of a [50000, 64] array lies in the tile its row falls in. -/
theorem cover5_w5 (i : S50000x64.Idx) : ∃ t : Fin cfg5.N, (cfg5.win 5).flush t = true ∧ i ∈ ((cfg5.win 5).blk t).view.set := by
  have hi0 := idx2_lt0 i
  have hi1 := idx2_lt1 i
  have ht : (i 0).val / 5000 < cfg5.N := by rw [N5_eq]; omega
  refine ⟨⟨(i 0).val / 5000, ht⟩, flush5_5 _, ?_⟩
  obtain ⟨-, -, -, -, -, -, -, -, -, -, e0, e1⟩ := idx_facts5 ⟨(i 0).val / 5000, ht⟩
  show i ∈ ((View.whole main_v60).slice (win5_5.rect ⟨(i 0).val / 5000, ht⟩)).set
  rw [View.set_slice_whole, Rect.mem_set_unit]
  intro a
  match a with
  | ⟨0, _⟩ =>
    show win5_5.index ⟨(i 0).val / 5000, ht⟩ 0 * 5000 ≤ (i 0).val ∧ (i 0).val < win5_5.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win5_5.index ⟨(i 0).val / 5000, ht⟩ 1 * 64 ≤ (i 1).val ∧ (i 1).val < win5_5.index ⟨(i 0).val / 5000, ht⟩ 1 * 64 + 64
    rw [e1]; omega

/-- THE OUTPUT ARRAY after the launch: the combination of the five arrays as entered. -/
theorem final5_5 (c : Dev nD) :
    (dat5 V c).arrAt 5 cfg5.N
      = Cert.GCN.combine (V c main_v56) (V c main_v57) (V c main_v46_0) (V c main_v58) (V c main_v59) :=
  (dat5 V c).arrAt_eq_of_cover 5 _ (fun t _ => flushed5_5_eq V c t) cover5_w5

end Region5

end Cert.KernelIdeal.Hand

end
-- ==== Proof.KBlockD.lean ====
/-
  The buffer contents across the third layer's host stretch and its combination launch.

  Entering with the layer's product H = X W in one array and H scaled row by row by the reciprocal square roots of
  the degrees in another, the host gathers the scaled rows at the edges' sources and adds them at the edges'
  destinations, reshapes the two degree vectors into columns and the bias into a row; the combination launch then
  leaves  dis n * (sum over the edges counting for n) + dinv n * H (n, d) + b d,  the layer of the specification.
-/
import proofs.«141009_j73254962200757_2_alg».proof.Proof.Gen.KernelIdeal.Frame
import proofs.«141009_j73254962200757_2_alg».proof.Proof.Spec
import proofs.«141009_j73254962200757_2_alg».proof.Proof.KComb5
import proofs.«141009_j73254962200757_2_alg».proof.Proof.HostRead
import proofs.«141009_j73254962200757_2_alg».proof.Proof.RefIdx
import proofs.«141009_j73254962200757_2_alg».proof.Proof.RefDeg
import proofs.«141009_j73254962200757_2_alg».proof.Proof.LibKeepdims
import proofs.«141009_j73254962200757_2_alg».proof.Proof.LibBcast
import Idealize.ShloMosaic.Lib.StableHlo.Run
import Idealize.ShloMosaic.Lib.Pipeline.Value
import Idealize.ShloMosaic.Lib.ValueLayout
import Idealize.ShloMosaic.Lib.Tactic

set_option maxRecDepth 16384
set_option pp.maxSteps 5000
set_option pp.deepTerms false

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Hand

open Cert.KernelIdeal Cert.KernelIdeal.Gen Cert.GCN Cert.LibProd

/-- A buffer that no operation of a host stretch writes holds after the stretch what it held before. -/
macro "host_keepD " ops:ident : tactic => `(tactic| (
  refine StableHlo.after_of_forall_not_mem _ _ (List.forall_iff_forall_mem.mp ?_)
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The stretch's steps over plain variables -/

/-- The destination column: row 1 of the edge list as a column. -/
theorem dstcolD (x13 : IVec S2x800000 32) (e : Fin 800000) :
    broadcastInDim S800000x1 ![0] bcast_S800000_S800000x1_0 (Cert.ReferenceIdeal.Read.val_main_v3 (F := Ideal) x13) (ix2 e (0 : Fin 1))
      = x13 (ix2 (1 : Fin 2) e) := by
  rw [Cert.LibBcast.bcast_a_a1_apply, Cert.ReferenceIdeal.RefValue.v3_ix1]

/-- The source column: row 0 of the edge list, a negative word counted from the end of the node axis, as a column. -/
theorem srccolD (x13 : IVec S2x800000 32) (e : Fin 800000) :
    broadcastInDim S800000x1 ![0] bcast_S800000_S800000x1_0
      (select (cmpi CmpIPredicate.slt (Cert.ReferenceIdeal.Read.val_main_v1 (F := Ideal) x13) (broadcastInDim S800000 ![] bcast_S_S800000 (constantI S_ 32 0#32)))
        (addi (Cert.ReferenceIdeal.Read.val_main_v1 (F := Ideal) x13) (broadcastInDim S800000 ![] bcast_S_S800000 (constantI S_ 32 50000#32)))
        (Cert.ReferenceIdeal.Read.val_main_v1 (F := Ideal) x13)) (ix2 e (0 : Fin 1))
      = wrapN (x13 (ix2 (0 : Fin 2) e)) := by
  rw [Cert.LibBcast.bcast_a_a1_apply, select_apply]
  show Scalar.select (IntOp.cmpi .slt (Cert.ReferenceIdeal.Read.val_main_v1 (F := Ideal) x13 (ix1 e)) (broadcastInDim S800000 ![] bcast_S_S800000 (constantI S_ 32 0#32) (ix1 e)))
      (IntOp.addi (Cert.ReferenceIdeal.Read.val_main_v1 (F := Ideal) x13 (ix1 e)) (broadcastInDim S800000 ![] bcast_S_S800000 (constantI S_ 32 50000#32) (ix1 e)))
      (Cert.ReferenceIdeal.Read.val_main_v1 (F := Ideal) x13 (ix1 e)) = _
  rw [Cert.LibBcast.bcast_scalar_apply, Cert.LibBcast.bcast_scalar_apply, constantI_apply, constantI_apply, Cert.ReferenceIdeal.RefValue.v1_ix1]
  rfl

/-- A vector of 50000 numbers reshaped into a column is the column of its entries. -/
theorem colcastD (v : (⟨1, ![50000]⟩ : Shape).Idx → EReal) (f : Fin 50000 → EReal)
    (h : (⟨1, ![50000]⟩ : Shape).ShapeCasts ⟨2, ![50000, 1]⟩) (hv : ∀ n, v (ix1 n) = f n) :
    shapeCast (⟨2, ![50000, 1]⟩ : Shape) v h = col f := by
  funext i
  obtain ⟨n, u, rfl⟩ : ∃ (n : Fin 50000) (u : Fin 1), i = ix2 n u := ⟨i 0, i 1, eq_ix2 i⟩
  rw [Cert.LibKeepdims.shapeCast_a_a1_apply, hv]
  unfold col
  rfl

/-- A vector of 64 numbers reshaped into a row is the row of its entries. -/
theorem rowcastD (b : (⟨1, ![64]⟩ : Shape).Idx → EReal) (h : (⟨1, ![64]⟩ : Shape).ShapeCasts ⟨2, ![1, 64]⟩) :
    shapeCast (⟨2, ![1, 64]⟩ : Shape) b h = row b := by
  funext j
  refine (shapeCast_addUnit_apply (n := 1) ![64] b h j).trans ?_
  show b (fun a => j a.succ) = b (ix1 (j 1))
  refine congrArg b (funext fun a => ?_)
  match a with
  | ⟨0, _⟩ => rfl

theorem combine_congrD (A A' : FVec Ideal SN64 .f32) (D1 D1' : FVec Ideal SN1 .f32) (H H' : FVec Ideal SN64 .f32) (DI1 DI1' : FVec Ideal SN1 .f32)
    (B1 B1' : FVec Ideal (⟨2, ![1, 64]⟩ : Shape) .f32) (hA : A = A') (hD : D1 = D1') (hH : H = H') (hDI : DI1 = DI1') (hB : B1 = B1') :
    combine A D1 H DI1 B1 = combine A' D1' H' DI1' B1' := by rw [hA, hD, hH, hDI, hB]

theorem layer_defD (ei : IVec SEI 32) (X : FVec Ideal SN64 .f32) (W : FVec Ideal (⟨2, ![64, 64]⟩ : Shape) .f32)
    (b : FVec Ideal (⟨1, ![64]⟩ : Shape) .f32) :
    layer ei X W b = combine (edgeSum ei (scaled (prod X W) (col (dis ei)))) (col (dis ei)) (prod X W) (col (dinv ei)) (row b) := by
  unfold layer
  rfl

section BlockD
variable (m : (ℓ : Loc nD τ sig) → Buf (Elt Ideal) ℓ) (ρ : Dev nD → PrngReg)

/-! ## The stretch: what it keeps and what it computes -/

theorem keepD_v46_0_W11 (c : Dev nD) : W11 m ρ c (Proc.devRef .tc main_v46_0) = W10 m ρ c (Proc.devRef .tc main_v46_0) := by host_keepD hostOps5

set_option maxHeartbeats 4000000 in
/-- The aggregate as the stretch spells it, over the contents at entry. -/
theorem termD_agg (c : Dev nD) : W11 m ρ c (Proc.devRef .tc main_v56)
    = Host.scatterAdd (F := Ideal) scatter_S50000x64_S800000x1_S800000x64_1_0_0_1
        (broadcastInDim S50000x64 ![] bcast_S_S50000x64 (constant (F := Ideal) S_ FTy.f32 0#32))
        (broadcastInDim S800000x1 ![0] bcast_S800000_S800000x1_0 (W10 m ρ c (Proc.devRef .tc main_v3)))
        (Host.gather gather_S50000x64_S800000x1_S800000x64_1_0_n_n_0_1_164 (W10 m ρ c (Proc.devRef .tc main_v46_1))
          (broadcastInDim S800000x1 ![0] bcast_S800000_S800000x1_0
            (select (cmpi CmpIPredicate.slt (W10 m ρ c (Proc.devRef .tc main_v1)) (broadcastInDim S800000 ![] bcast_S_S800000 (constantI S_ 32 0#32)))
              (addi (W10 m ρ c (Proc.devRef .tc main_v1)) (broadcastInDim S800000 ![] bcast_S_S800000 (constantI S_ 32 50000#32)))
              (W10 m ρ c (Proc.devRef .tc main_v1))))) := by
  show StableHlo.after hostOps5 (W10 m ρ c) (Proc.devRef .tc main_v56) = _
  after_results <;> rfl

set_option maxHeartbeats 4000000 in
theorem termD_c1 (c : Dev nD) : W11 m ρ c (Proc.devRef .tc main_v57) = shapeCast S50000x1 (W10 m ρ c (Proc.devRef .tc main_v10)) shapeCasts_S50000_S50000x1 := by
  show StableHlo.after hostOps5 (W10 m ρ c) (Proc.devRef .tc main_v57) = _
  after_results <;> rfl

set_option maxHeartbeats 4000000 in
theorem termD_c2 (c : Dev nD) : W11 m ρ c (Proc.devRef .tc main_v58) = shapeCast S50000x1 (W10 m ρ c (Proc.devRef .tc main_v12)) shapeCasts_S50000_S50000x1 := by
  show StableHlo.after hostOps5 (W10 m ρ c) (Proc.devRef .tc main_v58) = _
  after_results <;> rfl

set_option maxHeartbeats 4000000 in
theorem termD_brow (c : Dev nD) : W11 m ρ c (Proc.devRef .tc main_v59) = shapeCast S1x64 (W10 m ρ c (Proc.devRef .tc main_arg6)) shapeCasts_S64_S1x64 := by
  show StableHlo.after hostOps5 (W10 m ρ c) (Proc.devRef .tc main_v59) = _
  after_results <;> rfl

/-- The aggregate is the specification's sum over the edges counting for each node. -/
theorem valD_agg (c : Dev nD) (X : FVec Ideal S50000x64 .f32) (Wt : FVec Ideal S64x64 .f32)
    (h1 : W10 m ρ c (Proc.devRef .tc main_v1) = Cert.ReferenceIdeal.Read.val_main_v1 (F := Ideal) (m ((c : Thread nD τ).loc main_arg13)))
    (h3 : W10 m ρ c (Proc.devRef .tc main_v3) = Cert.ReferenceIdeal.Read.val_main_v3 (F := Ideal) (m ((c : Thread nD τ).loc main_arg13)))
    (hHT : W10 m ρ c (Proc.devRef .tc main_v46_1) = scaled (prod X Wt) (col (dis (m ((c : Thread nD τ).loc main_arg13))))) :
    W11 m ρ c (Proc.devRef .tc main_v56) = edgeSum (m ((c : Thread nD τ).loc main_arg13)) (scaled (prod X Wt) (col (dis (m ((c : Thread nD τ).loc main_arg13))))) := by
  rw [termD_agg, h1, h3, hHT]
  funext i
  obtain ⟨n, q, rfl⟩ : ∃ (n : Fin 50000) (q : Fin 64), i = ix2 n q := ⟨i 0, i 1, eq_ix2 i⟩
  exact edgeSum_read (m ((c : Thread nD τ).loc main_arg13)) scatter_S50000x64_S800000x1_S800000x64_1_0_0_1 rfl rfl rfl rfl
    gather_S50000x64_S800000x1_S800000x64_1_0_n_n_0_1_164 rfl rfl rfl rfl rfl rfl rfl bcast_S_S50000x64 _ _
    (fun e => dstcolD (m ((c : Thread nD τ).loc main_arg13)) e) (fun e => srccolD (m ((c : Thread nD τ).loc main_arg13)) e) (scaled (prod X Wt) (col (dis (m ((c : Thread nD τ).loc main_arg13))))) n q

/-- The first column is the reciprocal square roots of the degrees. -/
theorem valD_c1 (c : Dev nD) (h10 : W10 m ρ c (Proc.devRef .tc main_v10) = Cert.ReferenceIdeal.Read.val_main_v10 (F := Ideal) (m ((c : Thread nD τ).loc main_arg13))) :
    W11 m ρ c (Proc.devRef .tc main_v57) = col (dis (m ((c : Thread nD τ).loc main_arg13))) := by
  rw [termD_c1, h10]
  exact colcastD _ _ _ (fun n => Cert.ReferenceIdeal.RefValue.v10_ix1 (m ((c : Thread nD τ).loc main_arg13)) n)

/-- The second column is the reciprocals of the degrees. -/
theorem valD_c2 (c : Dev nD) (h12 : W10 m ρ c (Proc.devRef .tc main_v12) = Cert.ReferenceIdeal.Read.val_main_v12 (F := Ideal) (m ((c : Thread nD τ).loc main_arg13))) :
    W11 m ρ c (Proc.devRef .tc main_v58) = col (dinv (m ((c : Thread nD τ).loc main_arg13))) := by
  rw [termD_c2, h12]
  exact colcastD _ _ _ (fun n => Cert.ReferenceIdeal.RefValue.v12_ix1 (m ((c : Thread nD τ).loc main_arg13)) n)

/-- The bias row. -/
theorem valD_brow (c : Dev nD) (hb : W10 m ρ c (Proc.devRef .tc main_arg6) = (m ((c : Thread nD τ).loc main_arg6))) :
    W11 m ρ c (Proc.devRef .tc main_v59) = row (m ((c : Thread nD τ).loc main_arg6)) := by
  rw [termD_brow, hb]
  exact rowcastD _ _

/-! ## The combination launch -/

/-- ACROSS THE BLOCK: what the combination launch leaves is the layer. -/
theorem block_10_12 (c : Dev nD) (X : FVec Ideal S50000x64 .f32) (Wt : FVec Ideal S64x64 .f32)
    (h1 : W10 m ρ c (Proc.devRef .tc main_v1) = Cert.ReferenceIdeal.Read.val_main_v1 (F := Ideal) (m ((c : Thread nD τ).loc main_arg13)))
    (h3 : W10 m ρ c (Proc.devRef .tc main_v3) = Cert.ReferenceIdeal.Read.val_main_v3 (F := Ideal) (m ((c : Thread nD τ).loc main_arg13)))
    (h10 : W10 m ρ c (Proc.devRef .tc main_v10) = Cert.ReferenceIdeal.Read.val_main_v10 (F := Ideal) (m ((c : Thread nD τ).loc main_arg13)))
    (h12 : W10 m ρ c (Proc.devRef .tc main_v12) = Cert.ReferenceIdeal.Read.val_main_v12 (F := Ideal) (m ((c : Thread nD τ).loc main_arg13)))
    (hb : W10 m ρ c (Proc.devRef .tc main_arg6) = (m ((c : Thread nD τ).loc main_arg6)))
    (hH : W10 m ρ c (Proc.devRef .tc main_v46_0) = prod X Wt)
    (hHT : W10 m ρ c (Proc.devRef .tc main_v46_1) = scaled (prod X Wt) (col (dis (m ((c : Thread nD τ).loc main_arg13))))) :
    W12 m ρ c (Proc.devRef .tc main_v60) = layer (m ((c : Thread nD τ).loc main_arg13)) X Wt (m ((c : Thread nD τ).loc main_arg6)) := by
  refine (W12_arr m ρ c 5).trans ?_
  refine (final5_5 (V11 m ρ) c).trans ?_
  rw [layer_defD]
  exact combine_congrD _ _ _ _ _ _ _ _ _ _ (valD_agg m ρ c X Wt h1 h3 hHT) (valD_c1 m ρ c h10)
    ((keepD_v46_0_W11 m ρ c).trans hH) (valD_c2 m ρ c h12) (valD_brow m ρ c hb)

end BlockD

end Cert.KernelIdeal.Hand

end
-- ==== Proof.KHead6.lean ====
/-
  What the last launch (the read-out head) leaves in its output array.

  The launch has one grid point and every window's block is its whole array, so the body sees the arrays
  themselves. It divides the per-graph sums S by max (count, 1), entry (g, q) by the count of graph g, and sends
  the quotient through three affine maps x ↦ x W + b (each product accumulated into zero, both factors first
  rounded to a narrower format, which changes nothing over the extended reals; each bias a row spread over the
  512 graphs) and then through the leaky rectifier x ↦ x if x ≥ 0 else slope · x. Stage by stage this is the
  let-chain of the head of the specification.
-/
import proofs.«141009_j73254962200757_2_alg».proof.Proof.Gen.KernelIdeal.Frame
import proofs.«141009_j73254962200757_2_alg».proof.Proof.Spec
import proofs.«141009_j73254962200757_2_alg».proof.Proof.LibMatmul
import proofs.«141009_j73254962200757_2_alg».proof.Proof.LibPlainDims
import proofs.«141009_j73254962200757_2_alg».proof.Proof.LibKeepdims
import Idealize.ShloMosaic.Lib.Pipeline.Value
import Idealize.ShloMosaic.Lib.ValueLayout
import Idealize.ShloMosaic.Lib.Tactic

set_option maxRecDepth 16384
set_option pp.maxSteps 5000
set_option pp.deepTerms false

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

theorem hz2_6 : (![0, 0] : Fin 2 → Nat) = fun _ => 0 := funext fun a => by fin_cases a <;> rfl

/-! ## The stored value, stage by stage -/

/-- The three products' dimension records are the plain pattern. -/
theorem plain6_a : Cert.LibPlainDims.PlainFacts dot_S512x64_S64x128_S512x128_1_0_0_1_n_n :=
  Cert.LibPlainDims.plainFacts _ rfl rfl rfl rfl rfl rfl
theorem plain6_b : Cert.LibPlainDims.PlainFacts dot_S512x128_S128x1_S512x1_1_0_0_1_n_n :=
  Cert.LibPlainDims.plainFacts _ rfl rfl rfl rfl rfl rfl
theorem plain6_c : Cert.LibPlainDims.PlainFacts dot_S512x1_S1x1_S512x1_1_0_0_1_n_n :=
  Cert.LibPlainDims.plainFacts _ rfl rfl rfl rfl rfl rfl

/-- Stage 1 as printed: the sums over max (count, 1). -/
def pool6 (v0 : Vec Ideal S512x1 .f32) (v4 : Vec Ideal S512x64 .f32) : FVec Ideal S512x64 .f32 :=
  divf (shapeCast S512x64 v4 shapeCasts_S512x64_S512x64)
    (broadcastTo S512x64 (maximumf (shapeCast S512x1 v0 shapeCasts_S512x1_S512x1)
      (broadcast S512x1 (Scalar.ofBits (F := Ideal) .f32 0x3F800000#32))) broadcasts_S512x1_S512x64)

/-- Stage 2 as printed: the first affine map. -/
def aff6_a (x : FVec Ideal S512x64 .f32) (v9 : Vec Ideal S64x128 .f32) (v12 : Vec Ideal S1x128 .f32) : FVec Ideal S512x128 .f32 :=
  addf (matmul dot_S512x64_S64x128_S512x128_1_0_0_1_n_n none (truncf .bf16 x bitsLt_bf16_f32) (truncf .bf16 v9 bitsLt_bf16_f32)
      (constant S512x128 .f32 0x00000000#32))
    (broadcastTo S512x128 (shapeCast S1x128 v12 shapeCasts_S1x128_S1x128) broadcasts_S1x128_S512x128)

/-- Stage 3 as printed: the second affine map. -/
def aff6_b (x : FVec Ideal S512x128 .f32) (v17 : Vec Ideal S128x1 .f32) (v20 : Vec Ideal S1x1 .f32) : FVec Ideal S512x1 .f32 :=
  addf (matmul dot_S512x128_S128x1_S512x1_1_0_0_1_n_n none (truncf .bf16 x bitsLt_bf16_f32) (truncf .bf16 v17 bitsLt_bf16_f32)
      (constant S512x1 .f32 0x00000000#32))
    (broadcastTo S512x1 (shapeCast S1x1 v20 shapeCasts_S1x1_S1x1) broadcasts_S1x1_S512x1)

/-- Stage 4 as printed: the third affine map. -/
def aff6_c (x : FVec Ideal S512x1 .f32) (v25 : Vec Ideal S1x1 .f32) (v28 : Vec Ideal S1x1 .f32) : FVec Ideal S512x1 .f32 :=
  addf (matmul dot_S512x1_S1x1_S512x1_1_0_0_1_n_n none (truncf .bf16 x bitsLt_bf16_f32) (truncf .bf16 v25 bitsLt_bf16_f32)
      (constant S512x1 .f32 0x00000000#32))
    (broadcastTo S512x1 (shapeCast S1x1 v28 shapeCasts_S1x1_S1x1) broadcasts_S1x1_S512x1)

/-- Stage 5 as printed: the rectifier. -/
def leak6 (x : FVec Ideal S512x1 .f32) : FVec Ideal S512x1 .f32 :=
  select (cmpf .oge x (broadcast S512x1 (Scalar.ofBits (F := Ideal) .f32 0x00000000#32))) x
    (mulf (broadcast S512x1 (Scalar.ofBits (F := Ideal) .f32 0x3C23D70A#32)) x)

/-- The stored value is the five stages one after the other. -/
theorem pay6_stages (v0 : Vec Ideal S512x1 .f32) (v4 : Vec Ideal S512x64 .f32) (v9 : Vec Ideal S64x128 .f32) (v12 : Vec Ideal S1x128 .f32)
    (v17 : Vec Ideal S128x1 .f32) (v20 : Vec Ideal S1x1 .f32) (v25 : Vec Ideal S1x1 .f32) (v28 : Vec Ideal S1x1 .f32) :
    k6_pay1 (F := Ideal) v0 v4 v9 v12 v17 v20 v25 v28
      = leak6 (aff6_c (aff6_b (aff6_a (pool6 v0 v4) v9 v12) v17 v20) v25 v28) := rfl

/-- Stage 1 is the specification's pooling. -/
theorem pool6_eq (v0 : Vec Ideal S512x1 .f32) (v4 : Vec Ideal S512x64 .f32) : pool6 v0 v4 = Cert.GCN.pooled v4 v0 := by
  funext j
  obtain ⟨g, q, rfl⟩ : ∃ (g : Fin 512) (q : Fin 64), j = ix2 g q := ⟨j 0, j 1, eq_ix2 j⟩
  unfold pool6
  rw [divf_apply, Cert.LibKeepdims.broadcastTo_a1_ab_apply, maximumf_apply, broadcast_apply]
  simp only [shapeCast_self]
  rfl

/-- An affine map as printed — a product into zero of the two factors narrowed, plus a bias row spread over the
    rows — is the plain product plus the bias entry of the column. -/
theorem affine6 {A K B : ℕ} (d : DotDims (⟨2, ![A, K]⟩ : Shape) (⟨2, ![K, B]⟩ : Shape) (⟨2, ![A, B]⟩ : Shape))
    (pf : Cert.LibPlainDims.PlainFacts d) (hlt : FTy.bits .bf16 < FTy.bits .f32)
    (X : (⟨2, ![A, K]⟩ : Shape).Idx → EReal) (W : (⟨2, ![K, B]⟩ : Shape).Idx → EReal) (b : (⟨2, ![1, B]⟩ : Shape).Idx → EReal)
    (hc : (⟨2, ![1, B]⟩ : Shape).ShapeCasts ⟨2, ![1, B]⟩) (hb : (⟨2, ![1, B]⟩ : Shape).Broadcasts ⟨2, ![A, B]⟩) :
    addf (F := Ideal) (φ := .f32) (matmul (F := Ideal) d none (truncf (F := Ideal) (φ := .f32) .bf16 X hlt) (truncf (F := Ideal) (φ := .f32) .bf16 W hlt)
        (constant (⟨2, ![A, B]⟩ : Shape) .f32 0x00000000#32))
      (broadcastTo (⟨2, ![A, B]⟩ : Shape) (shapeCast (⟨2, ![1, B]⟩ : Shape) b hc) hb)
    = fun j => Cert.LibProd.prod X W j + b (ix2 (0 : Fin 1) (j 1)) := by
  funext j
  obtain ⟨p, q, rfl⟩ : ∃ (p : Fin A) (q : Fin B), j = ix2 p q := ⟨j 0, j 1, eq_ix2 j⟩
  rw [addf_apply, broadcastTo_1b_ab_apply, shapeCast_self]
  refine congrArg (· + b (ix2 (0 : Fin 1) q)) ?_
  exact (Cert.LibMatmul.matmul_zero_ix2 d pf.rank pf.size pf.l0 pf.l1 pf.r0 pf.r1 none _ _ p q).trans
    (Finset.sum_congr rfl fun _ _ => rfl)

theorem aff6_a_eq (x : FVec Ideal S512x64 .f32) (v9 : Vec Ideal S64x128 .f32) (v12 : Vec Ideal S1x128 .f32) :
    aff6_a x v9 v12 = fun j => Cert.LibProd.prod x v9 j + v12 (ix2 (0 : Fin 1) (j 1)) := by
  unfold aff6_a
  exact affine6 dot_S512x64_S64x128_S512x128_1_0_0_1_n_n plain6_a bitsLt_bf16_f32 x v9 v12 shapeCasts_S1x128_S1x128 broadcasts_S1x128_S512x128

theorem aff6_b_eq (x : FVec Ideal S512x128 .f32) (v17 : Vec Ideal S128x1 .f32) (v20 : Vec Ideal S1x1 .f32) :
    aff6_b x v17 v20 = fun j => Cert.LibProd.prod x v17 j + v20 (ix2 (0 : Fin 1) (j 1)) := by
  unfold aff6_b
  exact affine6 dot_S512x128_S128x1_S512x1_1_0_0_1_n_n plain6_b bitsLt_bf16_f32 x v17 v20 shapeCasts_S1x1_S1x1 broadcasts_S1x1_S512x1

theorem aff6_c_eq (x : FVec Ideal S512x1 .f32) (v25 : Vec Ideal S1x1 .f32) (v28 : Vec Ideal S1x1 .f32) :
    aff6_c x v25 v28 = fun j => Cert.LibProd.prod x v25 j + v28 (ix2 (0 : Fin 1) (j 1)) := by
  unfold aff6_c
  exact affine6 dot_S512x1_S1x1_S512x1_1_0_0_1_n_n plain6_c bitsLt_bf16_f32 x v25 v28 shapeCasts_S1x1_S1x1 broadcasts_S1x1_S512x1

/-- Stage 5 is the specification's rectifier at every entry. -/
theorem leak6_eq (x : FVec Ideal S512x1 .f32) : leak6 x = fun i => Cert.GCN.leaky (x i) := by
  funext i
  unfold leak6
  rw [select_apply, cmpf_apply, mulf_apply, broadcast_apply, broadcast_apply, Ideal.cmpf_def]
  rfl

/-- THE STORED VALUE is the specification's head of the eight values read. -/
theorem pay6_eq (v0 : Vec Ideal S512x1 .f32) (v4 : Vec Ideal S512x64 .f32) (v9 : Vec Ideal S64x128 .f32) (v12 : Vec Ideal S1x128 .f32)
    (v17 : Vec Ideal S128x1 .f32) (v20 : Vec Ideal S1x1 .f32) (v25 : Vec Ideal S1x1 .f32) (v28 : Vec Ideal S1x1 .f32) :
    k6_pay1 (F := Ideal) v0 v4 v9 v12 v17 v20 v25 v28 = Cert.GCN.headK v4 v0 v9 v12 v17 v20 v25 v28 := by
  rw [pay6_stages, pool6_eq, aff6_a_eq, aff6_b_eq, aff6_c_eq, leak6_eq]
  rfl

/-- The head of equal arrays is the same array. -/
theorem head_congr6 (b0 A0 : S512x64.Idx → EReal) (b1 A1 : S512x1.Idx → EReal) (b2 A2 : S64x128.Idx → EReal) (b3 A3 : S1x128.Idx → EReal)
    (b4 A4 : S128x1.Idx → EReal) (b5 A5 b6 A6 b7 A7 : S1x1.Idx → EReal)
    (h0 : b0 = A0) (h1 : b1 = A1) (h2 : b2 = A2) (h3 : b3 = A3) (h4 : b4 = A4) (h5 : b5 = A5) (h6 : b6 = A6) (h7 : b7 = A7) :
    Cert.GCN.headK b0 b1 b2 b3 b4 b5 b6 b7 = Cert.GCN.headK A0 A1 A2 A3 A4 A5 A6 A7 := by
  rw [h0, h1, h2, h3, h4, h5, h6, h7]

section Region6
variable (V : (c : Dev nD) → (b : Ref sig .tc) → Buf (Elt Ideal) ((c : Thread nD τ).loc b))

/-- The printed index maps at the one grid point: every window sits at block (0, 0). -/
theorem idx_facts6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0 :=
  (by decide +kernel : ∀ t : Fin grid6.N, _)

/-- The per-graph sums' block is the whole array. -/
theorem iblk6_0_eq (c : Dev nD) (t : Fin cfg6.N) :
    (iblk6 V c 0 t : Vec Ideal S512x64 .f32) = (V c main_v63 : S512x64.Idx → EReal) := by
  obtain ⟨e0, e1, -⟩ := idx_facts6 t
  funext x
  unfold iblk6
  rw [View.read_apply]
  show V c main_v63 _ = V c main_v63 _
  congr 1
  funext a
  apply Fin.ext
  match a with
  | ⟨0, _⟩ => show win6_0.index t 0 * 512 + 1 * (x 0).val = (x 0).val; rw [e0]; omega
  | ⟨1, _⟩ => show win6_0.index t 1 * 64 + 1 * (x 1).val = (x 1).val; rw [e1]; omega

/-- The counts' block is the whole column. -/
theorem iblk6_1_eq (c : Dev nD) (t : Fin cfg6.N) :
    (iblk6 V c 1 t : Vec Ideal S512x1 .f32) = (V c main_v68 : S512x1.Idx → EReal) := by
  obtain ⟨-, -, e0, e1, -⟩ := idx_facts6 t
  funext x
  unfold iblk6
  rw [View.read_apply]
  show V c main_v68 _ = V c main_v68 _
  congr 1
  funext a
  apply Fin.ext
  match a with
  | ⟨0, _⟩ => show win6_1.index t 0 * 512 + 1 * (x 0).val = (x 0).val; rw [e0]; omega
  | ⟨1, _⟩ => show win6_1.index t 1 * 1 + 1 * (x 1).val = (x 1).val; rw [e1]; omega

/-- The first weight's block is the whole matrix. -/
theorem iblk6_2_eq (c : Dev nD) (t : Fin cfg6.N) :
    (iblk6 V c 2 t : Vec Ideal S64x128 .f32) = (V c main_arg7 : S64x128.Idx → EReal) := by
  obtain ⟨-, -, -, -, e0, e1, -⟩ := idx_facts6 t
  funext x
  unfold iblk6
  rw [View.read_apply]
  show V c main_arg7 _ = V c main_arg7 _
  congr 1
  funext a
  apply Fin.ext
  match a with
  | ⟨0, _⟩ => show win6_2.index t 0 * 64 + 1 * (x 0).val = (x 0).val; rw [e0]; omega
  | ⟨1, _⟩ => show win6_2.index t 1 * 128 + 1 * (x 1).val = (x 1).val; rw [e1]; omega

/-- The first bias' block is the whole row. -/
theorem iblk6_3_eq (c : Dev nD) (t : Fin cfg6.N) :
    (iblk6 V c 3 t : Vec Ideal S1x128 .f32) = (V c main_v69 : S1x128.Idx → EReal) := by
  obtain ⟨-, -, -, -, -, -, e0, e1, -⟩ := idx_facts6 t
  funext x
  unfold iblk6
  rw [View.read_apply]
  show V c main_v69 _ = V c main_v69 _
  congr 1
  funext a
  apply Fin.ext
  match a with
  | ⟨0, _⟩ => show win6_3.index t 0 * 1 + 1 * (x 0).val = (x 0).val; rw [e0]; omega
  | ⟨1, _⟩ => show win6_3.index t 1 * 128 + 1 * (x 1).val = (x 1).val; rw [e1]; omega

/-- The second weight's block is the whole matrix. -/
theorem iblk6_4_eq (c : Dev nD) (t : Fin cfg6.N) :
    (iblk6 V c 4 t : Vec Ideal S128x1 .f32) = (V c main_arg9 : S128x1.Idx → EReal) := by
  obtain ⟨-, -, -, -, -, -, -, -, e0, e1, -⟩ := idx_facts6 t
  funext x
  unfold iblk6
  rw [View.read_apply]
  show V c main_arg9 _ = V c main_arg9 _
  congr 1
  funext a
  apply Fin.ext
  match a with
  | ⟨0, _⟩ => show win6_4.index t 0 * 128 + 1 * (x 0).val = (x 0).val; rw [e0]; omega
  | ⟨1, _⟩ => show win6_4.index t 1 * 1 + 1 * (x 1).val = (x 1).val; rw [e1]; omega

/-- The second bias' block is the whole row. -/
theorem iblk6_5_eq (c : Dev nD) (t : Fin cfg6.N) :
    (iblk6 V c 5 t : Vec Ideal S1x1 .f32) = (V c main_v70 : S1x1.Idx → EReal) := by
  obtain ⟨-, -, -, -, -, -, -, -, -, -, e0, e1, -⟩ := idx_facts6 t
  funext x
  unfold iblk6
  rw [View.read_apply]
  show V c main_v70 _ = V c main_v70 _
  congr 1
  funext a
  apply Fin.ext
  match a with
  | ⟨0, _⟩ => show win6_5.index t 0 * 1 + 1 * (x 0).val = (x 0).val; rw [e0]; omega
  | ⟨1, _⟩ => show win6_5.index t 1 * 1 + 1 * (x 1).val = (x 1).val; rw [e1]; omega

/-- The third weight's block is the whole matrix. -/
theorem iblk6_6_eq (c : Dev nD) (t : Fin cfg6.N) :
    (iblk6 V c 6 t : Vec Ideal S1x1 .f32) = (V c main_arg11 : S1x1.Idx → EReal) := by
  obtain ⟨-, -, -, -, -, -, -, -, -, -, -, -, e0, e1, -⟩ := idx_facts6 t
  funext x
  unfold iblk6
  rw [View.read_apply]
  show V c main_arg11 _ = V c main_arg11 _
  congr 1
  funext a
  apply Fin.ext
  match a with
  | ⟨0, _⟩ => show win6_6.index t 0 * 1 + 1 * (x 0).val = (x 0).val; rw [e0]; omega
  | ⟨1, _⟩ => show win6_6.index t 1 * 1 + 1 * (x 1).val = (x 1).val; rw [e1]; omega

/-- The third bias' block is the whole row. -/
theorem iblk6_7_eq (c : Dev nD) (t : Fin cfg6.N) :
    (iblk6 V c 7 t : Vec Ideal S1x1 .f32) = (V c main_v71 : S1x1.Idx → EReal) := by
  obtain ⟨-, -, -, -, -, -, -, -, -, -, -, -, -, -, e0, e1, -⟩ := idx_facts6 t
  funext x
  unfold iblk6
  rw [View.read_apply]
  show V c main_v71 _ = V c main_v71 _
  congr 1
  funext a
  apply Fin.ext
  match a with
  | ⟨0, _⟩ => show win6_7.index t 0 * 1 + 1 * (x 0).val = (x 0).val; rw [e0]; omega
  | ⟨1, _⟩ => show win6_7.index t 1 * 1 + 1 * (x 1).val = (x 1).val; rw [e1]; omega

/-- The output's one block sends an entry to itself. -/
theorem emb6_8 (t : Fin cfg6.N) (j : S512x1.Idx) : ((cfg6.win 8).blk t).view.emb j = j := by
  obtain ⟨-, -, -, -, -, -, -, -, -, -, -, -, -, -, -, -, e0, e1⟩ := idx_facts6 t
  funext a
  apply Fin.ext
  match a with
  | ⟨0, _⟩ => show win6_8.index t 0 * 512 + 1 * (j 0).val = (j 0).val; rw [e0]; omega
  | ⟨1, _⟩ => show win6_8.index t 1 * 1 + 1 * (j 1).val = (j 1).val; rw [e1]; omega

theorem N6_eq : cfg6.N = 1 := by decide

/-- WHAT THE ONE POINT WRITES BACK is the (one, whole) block of the head of the arrays. -/
theorem flushed6_8_eq (c : Dev nD) (t : Fin cfg6.N) :
    (dat6 V c).flushed 8 t = ((cfg6.win 8).blk t).view.read (Elt Ideal)
      (Cert.GCN.headK (V c main_v63) (V c main_v68) (V c main_arg7) (V c main_v69) (V c main_arg9) (V c main_v70) (V c main_arg11) (V c main_v71)) := by
  show (cfg6.win 8).cut (grid6.coords t) ((dat6 V c).after 8 t) = _
  rw [after6_8]
  unfold out6_8
  rw [View.canon_unit_zero hz2_6]
  simp only [View.ld_unit_zero (S := S512x64) hz2_6, View.ld_unit_zero (S := S512x1) hz2_6, View.ld_unit_zero (S := S64x128) hz2_6,
    View.ld_unit_zero (S := S1x128) hz2_6, View.ld_unit_zero (S := S128x1) hz2_6, View.ld_unit_zero (S := S1x1) hz2_6]
  funext j
  show k6_pay1 (F := Ideal) (iblk6 V c 1 t) (iblk6 V c 0 t) (iblk6 V c 2 t) (iblk6 V c 3 t) (iblk6 V c 4 t) (iblk6 V c 5 t) (iblk6 V c 6 t) (iblk6 V c 7 t) j
    = Cert.GCN.headK (V c main_v63) (V c main_v68) (V c main_arg7) (V c main_v69) (V c main_arg9) (V c main_v70) (V c main_arg11) (V c main_v71)
        (((cfg6.win 8).blk t).view.emb j)
  rw [emb6_8 t j]
  exact (congrFun (pay6_eq (iblk6 V c 1 t) (iblk6 V c 0 t) (iblk6 V c 2 t) (iblk6 V c 3 t) (iblk6 V c 4 t) (iblk6 V c 5 t) (iblk6 V c 6 t) (iblk6 V c 7 t)) j).trans
    (congrFun (head_congr6 (iblk6 V c 0 t) (V c main_v63) (iblk6 V c 1 t) (V c main_v68) (iblk6 V c 2 t) (V c main_arg7) (iblk6 V c 3 t) (V c main_v69)
      (iblk6 V c 4 t) (V c main_arg9) (iblk6 V c 5 t) (V c main_v70) (iblk6 V c 6 t) (V c main_arg11) (iblk6 V c 7 t) (V c main_v71)
      (iblk6_0_eq V c t) (iblk6_1_eq V c t) (iblk6_2_eq V c t) (iblk6_3_eq V c t) (iblk6_4_eq V c t) (iblk6_5_eq V c t) (iblk6_6_eq V c t) (iblk6_7_eq V c t)) j)

/-- Every entry of the [512, 1] output lies in the one block. -/
theorem cover6_w8 (i : S512x1.Idx) : ∃ t : Fin cfg6.N, (cfg6.win 8).flush t = true ∧ i ∈ ((cfg6.win 8).blk t).view.set := by
  have hi0 := idx2_lt0 i
  have hi1 := idx2_lt1 i
  have ht : 0 < cfg6.N := by rw [N6_eq]; omega
  refine ⟨⟨0, ht⟩, flush6_8 _, ?_⟩
  obtain ⟨-, -, -, -, -, -, -, -, -, -, -, -, -, -, -, -, e0, e1⟩ := idx_facts6 ⟨0, ht⟩
  show i ∈ ((View.whole main_v72).slice (win6_8.rect ⟨0, ht⟩)).set
  rw [View.set_slice_whole, Rect.mem_set_unit]
  intro a
  match a with
  | ⟨0, _⟩ =>
    show win6_8.index ⟨0, ht⟩ 0 * 512 ≤ (i 0).val ∧ (i 0).val < win6_8.index ⟨0, ht⟩ 0 * 512 + 512
    rw [e0]; omega
  | ⟨1, _⟩ =>
    show win6_8.index ⟨0, ht⟩ 1 * 1 ≤ (i 1).val ∧ (i 1).val < win6_8.index ⟨0, ht⟩ 1 * 1 + 1
    rw [e1]; omega

/-- THE OUTPUT ARRAY after the launch: the head of the eight arrays as entered. -/
theorem final6_8 (c : Dev nD) :
    (dat6 V c).arrAt 8 cfg6.N
      = Cert.GCN.headK (V c main_v63) (V c main_v68) (V c main_arg7) (V c main_v69) (V c main_arg9) (V c main_v70) (V c main_arg11) (V c main_v71) :=
  (dat6 V c).arrAt_eq_of_cover 8 _ (fun t _ => flushed6_8_eq V c t) cover6_w8

end Region6

end Cert.KernelIdeal.Hand

end
-- ==== Proof.KArgs.lean ====
/-
  The argument arrays as each later stretch or launch finds them: no host operation and no launch writes an
  argument, so at every boundary an argument's buffer holds what it held at the launch of the program.
-/
import proofs.«141009_j73254962200757_2_alg».proof.Proof.Gen.KernelIdeal.Frame
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ) (ρ : Dev nD → PrngReg)

macro "host_keepG " ops:ident : tactic => `(tactic| (
  refine StableHlo.after_of_forall_not_mem _ _ (List.forall_iff_forall_mem.mp ?_)
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem W2_arg2 (c : Dev nD) : W2 m ρ c (Proc.devRef .tc main_arg2) = m ((c : Thread nD τ).loc main_arg2) :=
    (W2_of_ne m ρ c main_arg2 (by decide)) |>.trans <|
    (by host_keepG hostOps0 : W1 m ρ c (Proc.devRef .tc main_arg2) = W0 m ρ c (Proc.devRef .tc main_arg2)) |>.trans <|
    (rfl : W0 m ρ c (Proc.devRef .tc main_arg2) = m ((c : Thread nD τ).loc main_arg2))

theorem W2_arg3 (c : Dev nD) : W2 m ρ c (Proc.devRef .tc main_arg3) = m ((c : Thread nD τ).loc main_arg3) :=
    (W2_of_ne m ρ c main_arg3 (by decide)) |>.trans <|
    (by host_keepG hostOps0 : W1 m ρ c (Proc.devRef .tc main_arg3) = W0 m ρ c (Proc.devRef .tc main_arg3)) |>.trans <|
    (rfl : W0 m ρ c (Proc.devRef .tc main_arg3) = m ((c : Thread nD τ).loc main_arg3))

theorem W6_arg4 (c : Dev nD) : W6 m ρ c (Proc.devRef .tc main_arg4) = m ((c : Thread nD τ).loc main_arg4) :=
    (W6_of_ne m ρ c main_arg4 (by decide)) |>.trans <|
    (by host_keepG hostOps2 : W5 m ρ c (Proc.devRef .tc main_arg4) = W4 m ρ c (Proc.devRef .tc main_arg4)) |>.trans <|
    (W4_of_ne m ρ c main_arg4 (by decide)) |>.trans <|
    (by host_keepG hostOps1 : W3 m ρ c (Proc.devRef .tc main_arg4) = W2 m ρ c (Proc.devRef .tc main_arg4)) |>.trans <|
    (W2_of_ne m ρ c main_arg4 (by decide)) |>.trans <|
    (by host_keepG hostOps0 : W1 m ρ c (Proc.devRef .tc main_arg4) = W0 m ρ c (Proc.devRef .tc main_arg4)) |>.trans <|
    (rfl : W0 m ρ c (Proc.devRef .tc main_arg4) = m ((c : Thread nD τ).loc main_arg4))

theorem W6_arg5 (c : Dev nD) : W6 m ρ c (Proc.devRef .tc main_arg5) = m ((c : Thread nD τ).loc main_arg5) :=
    (W6_of_ne m ρ c main_arg5 (by decide)) |>.trans <|
    (by host_keepG hostOps2 : W5 m ρ c (Proc.devRef .tc main_arg5) = W4 m ρ c (Proc.devRef .tc main_arg5)) |>.trans <|
    (W4_of_ne m ρ c main_arg5 (by decide)) |>.trans <|
    (by host_keepG hostOps1 : W3 m ρ c (Proc.devRef .tc main_arg5) = W2 m ρ c (Proc.devRef .tc main_arg5)) |>.trans <|
    (W2_of_ne m ρ c main_arg5 (by decide)) |>.trans <|
    (by host_keepG hostOps0 : W1 m ρ c (Proc.devRef .tc main_arg5) = W0 m ρ c (Proc.devRef .tc main_arg5)) |>.trans <|
    (rfl : W0 m ρ c (Proc.devRef .tc main_arg5) = m ((c : Thread nD τ).loc main_arg5))

theorem W10_arg6 (c : Dev nD) : W10 m ρ c (Proc.devRef .tc main_arg6) = m ((c : Thread nD τ).loc main_arg6) :=
    (W10_of_ne m ρ c main_arg6 (by decide)) |>.trans <|
    (by host_keepG hostOps4 : W9 m ρ c (Proc.devRef .tc main_arg6) = W8 m ρ c (Proc.devRef .tc main_arg6)) |>.trans <|
    (W8_of_ne m ρ c main_arg6 (by decide)) |>.trans <|
    (by host_keepG hostOps3 : W7 m ρ c (Proc.devRef .tc main_arg6) = W6 m ρ c (Proc.devRef .tc main_arg6)) |>.trans <|
    (W6_of_ne m ρ c main_arg6 (by decide)) |>.trans <|
    (by host_keepG hostOps2 : W5 m ρ c (Proc.devRef .tc main_arg6) = W4 m ρ c (Proc.devRef .tc main_arg6)) |>.trans <|
    (W4_of_ne m ρ c main_arg6 (by decide)) |>.trans <|
    (by host_keepG hostOps1 : W3 m ρ c (Proc.devRef .tc main_arg6) = W2 m ρ c (Proc.devRef .tc main_arg6)) |>.trans <|
    (W2_of_ne m ρ c main_arg6 (by decide)) |>.trans <|
    (by host_keepG hostOps0 : W1 m ρ c (Proc.devRef .tc main_arg6) = W0 m ρ c (Proc.devRef .tc main_arg6)) |>.trans <|
    (rfl : W0 m ρ c (Proc.devRef .tc main_arg6) = m ((c : Thread nD τ).loc main_arg6))

theorem W12_arg7 (c : Dev nD) : W12 m ρ c (Proc.devRef .tc main_arg7) = m ((c : Thread nD τ).loc main_arg7) :=
    (W12_of_ne m ρ c main_arg7 (by decide)) |>.trans <|
    (by host_keepG hostOps5 : W11 m ρ c (Proc.devRef .tc main_arg7) = W10 m ρ c (Proc.devRef .tc main_arg7)) |>.trans <|
    (W10_of_ne m ρ c main_arg7 (by decide)) |>.trans <|
    (by host_keepG hostOps4 : W9 m ρ c (Proc.devRef .tc main_arg7) = W8 m ρ c (Proc.devRef .tc main_arg7)) |>.trans <|
    (W8_of_ne m ρ c main_arg7 (by decide)) |>.trans <|
    (by host_keepG hostOps3 : W7 m ρ c (Proc.devRef .tc main_arg7) = W6 m ρ c (Proc.devRef .tc main_arg7)) |>.trans <|
    (W6_of_ne m ρ c main_arg7 (by decide)) |>.trans <|
    (by host_keepG hostOps2 : W5 m ρ c (Proc.devRef .tc main_arg7) = W4 m ρ c (Proc.devRef .tc main_arg7)) |>.trans <|
    (W4_of_ne m ρ c main_arg7 (by decide)) |>.trans <|
    (by host_keepG hostOps1 : W3 m ρ c (Proc.devRef .tc main_arg7) = W2 m ρ c (Proc.devRef .tc main_arg7)) |>.trans <|
    (W2_of_ne m ρ c main_arg7 (by decide)) |>.trans <|
    (by host_keepG hostOps0 : W1 m ρ c (Proc.devRef .tc main_arg7) = W0 m ρ c (Proc.devRef .tc main_arg7)) |>.trans <|
    (rfl : W0 m ρ c (Proc.devRef .tc main_arg7) = m ((c : Thread nD τ).loc main_arg7))

theorem W12_arg8 (c : Dev nD) : W12 m ρ c (Proc.devRef .tc main_arg8) = m ((c : Thread nD τ).loc main_arg8) :=
    (W12_of_ne m ρ c main_arg8 (by decide)) |>.trans <|
    (by host_keepG hostOps5 : W11 m ρ c (Proc.devRef .tc main_arg8) = W10 m ρ c (Proc.devRef .tc main_arg8)) |>.trans <|
    (W10_of_ne m ρ c main_arg8 (by decide)) |>.trans <|
    (by host_keepG hostOps4 : W9 m ρ c (Proc.devRef .tc main_arg8) = W8 m ρ c (Proc.devRef .tc main_arg8)) |>.trans <|
    (W8_of_ne m ρ c main_arg8 (by decide)) |>.trans <|
    (by host_keepG hostOps3 : W7 m ρ c (Proc.devRef .tc main_arg8) = W6 m ρ c (Proc.devRef .tc main_arg8)) |>.trans <|
    (W6_of_ne m ρ c main_arg8 (by decide)) |>.trans <|
    (by host_keepG hostOps2 : W5 m ρ c (Proc.devRef .tc main_arg8) = W4 m ρ c (Proc.devRef .tc main_arg8)) |>.trans <|
    (W4_of_ne m ρ c main_arg8 (by decide)) |>.trans <|
    (by host_keepG hostOps1 : W3 m ρ c (Proc.devRef .tc main_arg8) = W2 m ρ c (Proc.devRef .tc main_arg8)) |>.trans <|
    (W2_of_ne m ρ c main_arg8 (by decide)) |>.trans <|
    (by host_keepG hostOps0 : W1 m ρ c (Proc.devRef .tc main_arg8) = W0 m ρ c (Proc.devRef .tc main_arg8)) |>.trans <|
    (rfl : W0 m ρ c (Proc.devRef .tc main_arg8) = m ((c : Thread nD τ).loc main_arg8))

theorem W12_arg9 (c : Dev nD) : W12 m ρ c (Proc.devRef .tc main_arg9) = m ((c : Thread nD τ).loc main_arg9) :=
    (W12_of_ne m ρ c main_arg9 (by decide)) |>.trans <|
    (by host_keepG hostOps5 : W11 m ρ c (Proc.devRef .tc main_arg9) = W10 m ρ c (Proc.devRef .tc main_arg9)) |>.trans <|
    (W10_of_ne m ρ c main_arg9 (by decide)) |>.trans <|
    (by host_keepG hostOps4 : W9 m ρ c (Proc.devRef .tc main_arg9) = W8 m ρ c (Proc.devRef .tc main_arg9)) |>.trans <|
    (W8_of_ne m ρ c main_arg9 (by decide)) |>.trans <|
    (by host_keepG hostOps3 : W7 m ρ c (Proc.devRef .tc main_arg9) = W6 m ρ c (Proc.devRef .tc main_arg9)) |>.trans <|
    (W6_of_ne m ρ c main_arg9 (by decide)) |>.trans <|
    (by host_keepG hostOps2 : W5 m ρ c (Proc.devRef .tc main_arg9) = W4 m ρ c (Proc.devRef .tc main_arg9)) |>.trans <|
    (W4_of_ne m ρ c main_arg9 (by decide)) |>.trans <|
    (by host_keepG hostOps1 : W3 m ρ c (Proc.devRef .tc main_arg9) = W2 m ρ c (Proc.devRef .tc main_arg9)) |>.trans <|
    (W2_of_ne m ρ c main_arg9 (by decide)) |>.trans <|
    (by host_keepG hostOps0 : W1 m ρ c (Proc.devRef .tc main_arg9) = W0 m ρ c (Proc.devRef .tc main_arg9)) |>.trans <|
    (rfl : W0 m ρ c (Proc.devRef .tc main_arg9) = m ((c : Thread nD τ).loc main_arg9))

theorem W12_arg10 (c : Dev nD) : W12 m ρ c (Proc.devRef .tc main_arg10) = m ((c : Thread nD τ).loc main_arg10) :=
    (W12_of_ne m ρ c main_arg10 (by decide)) |>.trans <|
    (by host_keepG hostOps5 : W11 m ρ c (Proc.devRef .tc main_arg10) = W10 m ρ c (Proc.devRef .tc main_arg10)) |>.trans <|
    (W10_of_ne m ρ c main_arg10 (by decide)) |>.trans <|
    (by host_keepG hostOps4 : W9 m ρ c (Proc.devRef .tc main_arg10) = W8 m ρ c (Proc.devRef .tc main_arg10)) |>.trans <|
    (W8_of_ne m ρ c main_arg10 (by decide)) |>.trans <|
    (by host_keepG hostOps3 : W7 m ρ c (Proc.devRef .tc main_arg10) = W6 m ρ c (Proc.devRef .tc main_arg10)) |>.trans <|
    (W6_of_ne m ρ c main_arg10 (by decide)) |>.trans <|
    (by host_keepG hostOps2 : W5 m ρ c (Proc.devRef .tc main_arg10) = W4 m ρ c (Proc.devRef .tc main_arg10)) |>.trans <|
    (W4_of_ne m ρ c main_arg10 (by decide)) |>.trans <|
    (by host_keepG hostOps1 : W3 m ρ c (Proc.devRef .tc main_arg10) = W2 m ρ c (Proc.devRef .tc main_arg10)) |>.trans <|
    (W2_of_ne m ρ c main_arg10 (by decide)) |>.trans <|
    (by host_keepG hostOps0 : W1 m ρ c (Proc.devRef .tc main_arg10) = W0 m ρ c (Proc.devRef .tc main_arg10)) |>.trans <|
    (rfl : W0 m ρ c (Proc.devRef .tc main_arg10) = m ((c : Thread nD τ).loc main_arg10))

theorem W12_arg11 (c : Dev nD) : W12 m ρ c (Proc.devRef .tc main_arg11) = m ((c : Thread nD τ).loc main_arg11) :=
    (W12_of_ne m ρ c main_arg11 (by decide)) |>.trans <|
    (by host_keepG hostOps5 : W11 m ρ c (Proc.devRef .tc main_arg11) = W10 m ρ c (Proc.devRef .tc main_arg11)) |>.trans <|
    (W10_of_ne m ρ c main_arg11 (by decide)) |>.trans <|
    (by host_keepG hostOps4 : W9 m ρ c (Proc.devRef .tc main_arg11) = W8 m ρ c (Proc.devRef .tc main_arg11)) |>.trans <|
    (W8_of_ne m ρ c main_arg11 (by decide)) |>.trans <|
    (by host_keepG hostOps3 : W7 m ρ c (Proc.devRef .tc main_arg11) = W6 m ρ c (Proc.devRef .tc main_arg11)) |>.trans <|
    (W6_of_ne m ρ c main_arg11 (by decide)) |>.trans <|
    (by host_keepG hostOps2 : W5 m ρ c (Proc.devRef .tc main_arg11) = W4 m ρ c (Proc.devRef .tc main_arg11)) |>.trans <|
    (W4_of_ne m ρ c main_arg11 (by decide)) |>.trans <|
    (by host_keepG hostOps1 : W3 m ρ c (Proc.devRef .tc main_arg11) = W2 m ρ c (Proc.devRef .tc main_arg11)) |>.trans <|
    (W2_of_ne m ρ c main_arg11 (by decide)) |>.trans <|
    (by host_keepG hostOps0 : W1 m ρ c (Proc.devRef .tc main_arg11) = W0 m ρ c (Proc.devRef .tc main_arg11)) |>.trans <|
    (rfl : W0 m ρ c (Proc.devRef .tc main_arg11) = m ((c : Thread nD τ).loc main_arg11))

theorem W12_arg12 (c : Dev nD) : W12 m ρ c (Proc.devRef .tc main_arg12) = m ((c : Thread nD τ).loc main_arg12) :=
    (W12_of_ne m ρ c main_arg12 (by decide)) |>.trans <|
    (by host_keepG hostOps5 : W11 m ρ c (Proc.devRef .tc main_arg12) = W10 m ρ c (Proc.devRef .tc main_arg12)) |>.trans <|
    (W10_of_ne m ρ c main_arg12 (by decide)) |>.trans <|
    (by host_keepG hostOps4 : W9 m ρ c (Proc.devRef .tc main_arg12) = W8 m ρ c (Proc.devRef .tc main_arg12)) |>.trans <|
    (W8_of_ne m ρ c main_arg12 (by decide)) |>.trans <|
    (by host_keepG hostOps3 : W7 m ρ c (Proc.devRef .tc main_arg12) = W6 m ρ c (Proc.devRef .tc main_arg12)) |>.trans <|
    (W6_of_ne m ρ c main_arg12 (by decide)) |>.trans <|
    (by host_keepG hostOps2 : W5 m ρ c (Proc.devRef .tc main_arg12) = W4 m ρ c (Proc.devRef .tc main_arg12)) |>.trans <|
    (W4_of_ne m ρ c main_arg12 (by decide)) |>.trans <|
    (by host_keepG hostOps1 : W3 m ρ c (Proc.devRef .tc main_arg12) = W2 m ρ c (Proc.devRef .tc main_arg12)) |>.trans <|
    (W2_of_ne m ρ c main_arg12 (by decide)) |>.trans <|
    (by host_keepG hostOps0 : W1 m ρ c (Proc.devRef .tc main_arg12) = W0 m ρ c (Proc.devRef .tc main_arg12)) |>.trans <|
    (rfl : W0 m ρ c (Proc.devRef .tc main_arg12) = m ((c : Thread nD τ).loc main_arg12))

theorem W12_arg14 (c : Dev nD) : W12 m ρ c (Proc.devRef .tc main_arg14) = m ((c : Thread nD τ).loc main_arg14) :=
    (W12_of_ne m ρ c main_arg14 (by decide)) |>.trans <|
    (by host_keepG hostOps5 : W11 m ρ c (Proc.devRef .tc main_arg14) = W10 m ρ c (Proc.devRef .tc main_arg14)) |>.trans <|
    (W10_of_ne m ρ c main_arg14 (by decide)) |>.trans <|
    (by host_keepG hostOps4 : W9 m ρ c (Proc.devRef .tc main_arg14) = W8 m ρ c (Proc.devRef .tc main_arg14)) |>.trans <|
    (W8_of_ne m ρ c main_arg14 (by decide)) |>.trans <|
    (by host_keepG hostOps3 : W7 m ρ c (Proc.devRef .tc main_arg14) = W6 m ρ c (Proc.devRef .tc main_arg14)) |>.trans <|
    (W6_of_ne m ρ c main_arg14 (by decide)) |>.trans <|
    (by host_keepG hostOps2 : W5 m ρ c (Proc.devRef .tc main_arg14) = W4 m ρ c (Proc.devRef .tc main_arg14)) |>.trans <|
    (W4_of_ne m ρ c main_arg14 (by decide)) |>.trans <|
    (by host_keepG hostOps1 : W3 m ρ c (Proc.devRef .tc main_arg14) = W2 m ρ c (Proc.devRef .tc main_arg14)) |>.trans <|
    (W2_of_ne m ρ c main_arg14 (by decide)) |>.trans <|
    (by host_keepG hostOps0 : W1 m ρ c (Proc.devRef .tc main_arg14) = W0 m ρ c (Proc.devRef .tc main_arg14)) |>.trans <|
    (rfl : W0 m ρ c (Proc.devRef .tc main_arg14) = m ((c : Thread nD τ).loc main_arg14))

end Cert.KernelIdeal.Hand

end
-- ==== Proof.KBlockE.lean ====
/-
  From the end of the third layer to the result.

  The host adds the node features into their graphs' rows and counts the nodes of each graph (a scatter-add of ones),
  views the counts as a column and the three bias vectors as rows, and the last launch divides the sums by
  max (count) 1 and applies the three affine maps and the leaky rectifier.
-/
import proofs.«141009_j73254962200757_2_alg».proof.Proof.Gen.KernelIdeal.Frame
import proofs.«141009_j73254962200757_2_alg».proof.Proof.Spec
import proofs.«141009_j73254962200757_2_alg».proof.Proof.SpecApply
import proofs.«141009_j73254962200757_2_alg».proof.Proof.HostRead
import proofs.«141009_j73254962200757_2_alg».proof.Proof.LibKeepdims
import proofs.«141009_j73254962200757_2_alg».proof.Proof.LibBcast
import proofs.«141009_j73254962200757_2_alg».proof.Proof.KHead6
import proofs.«141009_j73254962200757_2_alg».proof.Proof.KArgs
import Idealize.ShloMosaic.Lib.StableHlo.Run

set_option maxRecDepth 16384

noncomputable section

open Idealize.ShloMosaic Idealize.ShloMosaic.TcCoe Idealize.SL.Sem Idealize.ShloMosaic.StableHlo Idealize.ShloMosaic.ValueIdx

namespace Cert.KernelIdeal.Hand

open Cert.KernelIdeal Cert.KernelIdeal.Gen Cert.GCN Cert.LibProd

variable (m : (ℓ : Loc nD τ sig) → Buf (Elt Ideal) ℓ) (ρ : Dev nD → PrngReg)

macro "host_keepE " ops:ident : tactic => `(tactic| (
  refine StableHlo.after_of_forall_not_mem _ _ (List.forall_iff_forall_mem.mp ?_)
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- A vector of b numbers viewed as a 1 by b row reads, at (u, q), the vector's entry q. -/
theorem shapeCast_b_1b_apply {α : Type} {b : ℕ} (x : (⟨1, ![b]⟩ : Shape).Idx → α) (h : (⟨1, ![b]⟩ : Shape).ShapeCasts ⟨2, ![1, b]⟩)
    (u : Fin 1) (q : Fin b) : shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- A vector viewed as a row is the row of the specification. -/
theorem cast_row {b : ℕ} (x : FVec Ideal (⟨1, ![b]⟩ : Shape) .f32) (h : (⟨1, ![b]⟩ : Shape).ShapeCasts ⟨2, ![1, b]⟩) :
    shapeCast (⟨2, ![1, b]⟩ : Shape) x h = row x := by
  funext i
  obtain ⟨u, q, rfl⟩ : ∃ (u : Fin 1) (q : Fin b), i = ix2 u q := ⟨i 0, i 1, eq_ix2 i⟩
  rw [shapeCast_b_1b_apply, row_apply]

section
variable (c : Dev nD)

set_option maxHeartbeats 4000000 in
theorem W13_v63_term : W13 m ρ c (Proc.devRef .tc main_v63)
    = Host.scatterAdd (F := Ideal) scatter_S512x64_S50000x1_S50000x64_1_0_0_1
        (broadcastInDim S512x64 ![] bcast_S_S512x64 (constant (F := Ideal) S_ .f32 0x00000000#32))
        (broadcastInDim S50000x1 ![0] bcast_S50000_S50000x1_0 (W12 m ρ c (Proc.devRef .tc main_arg14)))
        (W12 m ρ c (Proc.devRef .tc main_v60)) := by
  show StableHlo.after hostOps6 (W12 m ρ c) (Proc.devRef .tc main_v63) = _
  after_results <;> rfl

set_option maxHeartbeats 4000000 in
theorem W13_v68_term : W13 m ρ c (Proc.devRef .tc main_v68)
    = shapeCast S512x1 (Host.scatterAdd (F := Ideal) scatter_S512_S50000x1_S50000_n_0_0_1
        (broadcastInDim S512 ![] bcast_S_S512 (constant (F := Ideal) S_ .f32 0x00000000#32))
        (broadcastInDim S50000x1 ![0] bcast_S50000_S50000x1_0 (W12 m ρ c (Proc.devRef .tc main_arg14)))
        (broadcastInDim S50000 ![] bcast_S_S50000 (constant (F := Ideal) S_ .f32 0x3F800000#32))) shapeCasts_S512_S512x1 := by
  show StableHlo.after hostOps6 (W12 m ρ c) (Proc.devRef .tc main_v68) = _
  after_results <;> rfl

set_option maxHeartbeats 4000000 in
theorem W13_v69_term : W13 m ρ c (Proc.devRef .tc main_v69)
    = shapeCast S1x128 (W12 m ρ c (Proc.devRef .tc main_arg8)) shapeCasts_S128_S1x128 := by
  show StableHlo.after hostOps6 (W12 m ρ c) (Proc.devRef .tc main_v69) = _
  after_results <;> rfl

set_option maxHeartbeats 4000000 in
theorem W13_v70_term : W13 m ρ c (Proc.devRef .tc main_v70)
    = shapeCast S1x1 (W12 m ρ c (Proc.devRef .tc main_arg10)) shapeCasts_S1_S1x1 := by
  show StableHlo.after hostOps6 (W12 m ρ c) (Proc.devRef .tc main_v70) = _
  after_results <;> rfl

set_option maxHeartbeats 4000000 in
theorem W13_v71_term : W13 m ρ c (Proc.devRef .tc main_v71)
    = shapeCast S1x1 (W12 m ρ c (Proc.devRef .tc main_arg12)) shapeCasts_S1_S1x1 := by
  show StableHlo.after hostOps6 (W12 m ρ c) (Proc.devRef .tc main_v71) = _
  after_results <;> rfl

/-- The per-graph sums of the node features Y. -/
theorem W13_v63 (Y : FVec Ideal S50000x64 .f32) (hY : W12 m ρ c (Proc.devRef .tc main_v60) = Y) :
    W13 m ρ c (Proc.devRef .tc main_v63) = sums (m ((c : Thread nD τ).loc main_arg14)) Y := by
  rw [W13_v63_term, hY, W12_arg14]
  funext i
  obtain ⟨g, q, rfl⟩ : ∃ (g : Fin 512) (q : Fin 64), i = ix2 g q := ⟨i 0, i 1, eq_ix2 i⟩
  exact sums_read (m ((c : Thread nD τ).loc main_arg14)) scatter_S512x64_S50000x1_S50000x64_1_0_0_1 rfl rfl rfl rfl _ _
    (fun n => Cert.LibBcast.bcast_a_a1_apply _ _ n (0 : Fin 1)) Y g q

/-- The per-graph node counts, as a column. -/
theorem W13_v68 : W13 m ρ c (Proc.devRef .tc main_v68) = col (cnt (m ((c : Thread nD τ).loc main_arg14))) := by
  rw [W13_v68_term, W12_arg14]
  funext i
  obtain ⟨g, u, rfl⟩ : ∃ (g : Fin 512) (u : Fin 1), i = ix2 g u := ⟨i 0, i 1, eq_ix2 i⟩
  rw [Cert.LibKeepdims.shapeCast_a_a1_apply, col_apply]
  exact cnt_read (m ((c : Thread nD τ).loc main_arg14)) scatter_S512_S50000x1_S50000_n_0_0_1 rfl rfl rfl rfl _ _ _
    (fun n => Cert.LibBcast.bcast_a_a1_apply _ _ n (0 : Fin 1)) g

theorem W13_v69 : W13 m ρ c (Proc.devRef .tc main_v69) = row (m ((c : Thread nD τ).loc main_arg8)) := by
  rw [W13_v69_term, W12_arg8]; exact cast_row _ _
theorem W13_v70 : W13 m ρ c (Proc.devRef .tc main_v70) = row (m ((c : Thread nD τ).loc main_arg10)) := by
  rw [W13_v70_term, W12_arg10]; exact cast_row _ _
theorem W13_v71 : W13 m ρ c (Proc.devRef .tc main_v71) = row (m ((c : Thread nD τ).loc main_arg12)) := by
  rw [W13_v71_term, W12_arg12]; exact cast_row _ _

theorem W13_arg7 : W13 m ρ c (Proc.devRef .tc main_arg7) = m ((c : Thread nD τ).loc main_arg7) :=
  (by host_keepE hostOps6 : W13 m ρ c (Proc.devRef .tc main_arg7) = W12 m ρ c (Proc.devRef .tc main_arg7)).trans (W12_arg7 m ρ c)
theorem W13_arg9 : W13 m ρ c (Proc.devRef .tc main_arg9) = m ((c : Thread nD τ).loc main_arg9) :=
  (by host_keepE hostOps6 : W13 m ρ c (Proc.devRef .tc main_arg9) = W12 m ρ c (Proc.devRef .tc main_arg9)).trans (W12_arg9 m ρ c)
theorem W13_arg11 : W13 m ρ c (Proc.devRef .tc main_arg11) = m ((c : Thread nD τ).loc main_arg11) :=
  (by host_keepE hostOps6 : W13 m ρ c (Proc.devRef .tc main_arg11) = W12 m ρ c (Proc.devRef .tc main_arg11)).trans (W12_arg11 m ρ c)

/-- THE RESULT, from the node features Y the third layer left. -/
theorem block_12_14 (Y : FVec Ideal S50000x64 .f32) (hY : W12 m ρ c (Proc.devRef .tc main_v60) = Y) :
    W14 m ρ c (Proc.devRef .tc main_v72)
      = headK (sums (m ((c : Thread nD τ).loc main_arg14)) Y) (col (cnt (m ((c : Thread nD τ).loc main_arg14))))
          (m ((c : Thread nD τ).loc main_arg7)) (row (m ((c : Thread nD τ).loc main_arg8)))
          (m ((c : Thread nD τ).loc main_arg9)) (row (m ((c : Thread nD τ).loc main_arg10)))
          (m ((c : Thread nD τ).loc main_arg11)) (row (m ((c : Thread nD τ).loc main_arg12))) := by
  refine (W14_arr m ρ c 8).trans ((final6_8 (V13 m ρ) c).trans ?_)
  rw [show V13 m ρ c main_v63 = _ from W13_v63 m ρ c Y hY, show V13 m ρ c main_v68 = _ from W13_v68 m ρ c,
    show V13 m ρ c main_arg7 = _ from W13_arg7 m ρ c, show V13 m ρ c main_v69 = _ from W13_v69 m ρ c,
    show V13 m ρ c main_arg9 = _ from W13_arg9 m ρ c, show V13 m ρ c main_v70 = _ from W13_v70 m ρ c,
    show V13 m ρ c main_arg11 = _ from W13_arg11 m ρ c, show V13 m ρ c main_v71 = _ from W13_v71 m ρ c]

end

end Cert.KernelIdeal.Hand

end
-- ==== Proof.KValue.lean ====
/-
  The idealized kernel's result as a function of its arguments: the three layers in the arrangement with the factor
  dis n outside the edge sum, the per-graph pooling and the head — the specification's network.
-/
import proofs.«141009_j73254962200757_2_alg».proof.Proof.KBlockA
import proofs.«141009_j73254962200757_2_alg».proof.Proof.KBlockB
import proofs.«141009_j73254962200757_2_alg».proof.Proof.KBlockC
import proofs.«141009_j73254962200757_2_alg».proof.Proof.KBlockD
import proofs.«141009_j73254962200757_2_alg».proof.Proof.KBlockE
import proofs.«141009_j73254962200757_2_alg».proof.Proof.KArgs

set_option maxRecDepth 16384

noncomputable section

open Idealize.ShloMosaic Idealize.ShloMosaic.TcCoe Idealize.SL.Sem Idealize.ShloMosaic.ValueIdx

namespace Cert.KernelIdeal.Hand

open Cert.KernelIdeal Cert.KernelIdeal.Gen Cert.GCN Cert.LibProd

variable (m : (ℓ : Loc nD τ sig) → Buf (Elt Ideal) ℓ) (ρ : Dev nD → PrngReg)

/-- The result buffer at the last boundary is the network of the launch contents of the fifteen arguments. -/
theorem kernel_value (c : Dev nD) :
    W14 m ρ c (Proc.devRef .tc main_v72)
      = net layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  obtain ⟨hH6, hHT6, h1, h3, h10, h12⟩ := block_2_6 m ρ c (m ((c : Thread nD τ).loc main_arg0)) (m ((c : Thread nD τ).loc main_arg1))
    (W2_v1 m ρ c) (W2_v3 m ρ c) (W2_v10 m ρ c) (W2_v12 m ρ c) (W2_arg2 m ρ c) (W2_arg3 m ρ c) (W2_v14_0 m ρ c) (W2_v14_1 m ρ c)
  obtain ⟨hH10, hHT10, g1, g3, g10, g12⟩ := block_6_10 m ρ c (layer (m ((c : Thread nD τ).loc main_arg13)) (m ((c : Thread nD τ).loc main_arg0)) (m ((c : Thread nD τ).loc main_arg1)) (m ((c : Thread nD τ).loc main_arg2))) (m ((c : Thread nD τ).loc main_arg3))
    h1 h3 h10 h12 (W6_arg4 m ρ c) (W6_arg5 m ρ c) hH6 hHT6
  have hY := block_10_12 m ρ c (layer (m ((c : Thread nD τ).loc main_arg13)) (layer (m ((c : Thread nD τ).loc main_arg13)) (m ((c : Thread nD τ).loc main_arg0)) (m ((c : Thread nD τ).loc main_arg1)) (m ((c : Thread nD τ).loc main_arg2))) (m ((c : Thread nD τ).loc main_arg3)) (m ((c : Thread nD τ).loc main_arg4))) (m ((c : Thread nD τ).loc main_arg5))
    g1 g3 g10 g12 (W10_arg6 m ρ c) hH10 hHT10
  refine (block_12_14 m ρ c _ hY).trans ?_
  unfold net
  rfl

end Cert.KernelIdeal.Hand

end
-- ==== Proof.RefLayerIdx.lean ====
/-
  The pieces of a layer that depend on the edge list alone, read index by index: the wrapped source column, the
  edge factor spread over the columns, the destination column, the reciprocal degree spread over the columns; and
  the bias spread over the rows.
-/
import proofs.«141009_j73254962200757_2_alg».proof.Proof.RefDeg

set_option maxRecDepth 16384

noncomputable section

open scoped BigOperators

namespace Cert.ReferenceIdeal.RefValue

open Cert.ReferenceIdeal Cert.ReferenceIdeal.Read Idealize.ShloMosaic Idealize.ShloMosaic.ValueIdx Cert.GCN

variable (x13 : IVec S2x800000 32)

/-- The wrapped source column the row gather takes its rows at. -/
theorem v34_ix2 (e : Fin 800000) (u : Fin 1) : val_main_v34 (F := Ideal) x13 (ix2 e u) = wrapN (x13 (ix2 (0 : Fin 2) e)) := by
  have h : val_main_v33 (F := Ideal) x13 (ix1 e) = wrapN (x13 (ix2 (0 : Fin 2) e)) := by
    rw [val_main_v33_apply, val_main_v30_apply, val_main_v32_apply, val_main_v29_apply, val_main_v31_apply,
      val_main_c_6_apply, val_main_c_7_apply, v1_ix1]
    rfl
  rw [val_main_v34_apply, ← h]
  congr 1
  funext a
  match a with
  | ⟨0, _⟩ => rfl

/-- The edge factor spread over the 64 columns. -/
theorem v37_ix2 (e : Fin 800000) (d : Fin 64) :
    val_main_v37 (F := Ideal) x13 (ix2 e d) = dis x13 (srcp x13 e) * dis x13 (dstp x13 e) := by
  rw [val_main_v37_apply, val_main_v36_apply, ← v27_ix1 x13 e]
  congr 1
  funext a
  match a with
  | ⟨0, _⟩ => rfl

theorem v39_apply' (i : S50000x64.Idx) : val_main_v39 (F := Ideal) i = zero32 := by
  rw [val_main_v39_apply, val_main_cst_8_apply]
  rfl

/-- The destination column the row scatter-add adds at. -/
theorem v40_ix2 (e : Fin 800000) (u : Fin 1) : val_main_v40 (F := Ideal) x13 (ix2 e u) = x13 (ix2 (1 : Fin 2) e) := by
  rw [val_main_v40_apply, ← v3_ix1 x13 e]
  congr 1
  funext a
  match a with
  | ⟨0, _⟩ => rfl

/-- The reciprocal degree spread over the 64 columns. -/
theorem v43_ix2 (n : Fin 50000) (d : Fin 64) : val_main_v43 (F := Ideal) x13 (ix2 n d) = dinv x13 n := by
  rw [val_main_v43_apply, val_main_v42_apply, ← v12_ix1 x13 n]
  congr 1
  funext a
  match a with
  | ⟨0, _⟩ => rfl

/-- The bias spread over the rows. -/
theorem v47_ix2 (b : FVec Ideal S64 .f32) (n : Fin 50000) (d : Fin 64) : val_main_v47 (F := Ideal) b (ix2 n d) = b (ix1 d) := by
  rw [val_main_v47_apply, val_main_v46_apply]
  congr 1
  funext a
  match a with
  | ⟨0, _⟩ => rfl

end Cert.ReferenceIdeal.RefValue

end
-- ==== Proof.RefScat.lean ====
/-
  The two indexed steps of a layer, read at an index.

  Rows added into zero at the destination words: entry (n, d) is zero plus the sum, over the edges counting for n, of
  the added array's entry (e, d). Rows of H taken at the wrapped source words and scaled by the edge factor: entry
  (e, d) is H (src e, d) * (dis (src e) * dis (dst e)).
-/
import proofs.«141009_j73254962200757_2_alg».proof.Proof.RefLayerIdx

set_option maxRecDepth 16384

noncomputable section

open scoped BigOperators

namespace Cert.ReferenceIdeal.RefValue

open Cert.ReferenceIdeal Cert.ReferenceIdeal.Read Idealize.ShloMosaic Idealize.ShloMosaic.ValueIdx Cert.GCN

variable (x13 : IVec S2x800000 32)

/-- The row scatter-add into zero at the destination column. -/
theorem scat_ix2 (T : FVec Ideal S800000x64 .f32) (n : Fin 50000) (d : Fin 64) :
    Host.scatterAdd (F := Ideal) scatter_S50000x64_S800000x1_S800000x64_1_0_0_1 (val_main_v39 (F := Ideal))
        (val_main_v40 (F := Ideal) x13) T (ix2 n d)
      = zero32 + ∑ e ∈ inEdges x13 n, T (ix2 e d) := by
  rw [Cert.LibIndexed.row_host_scatterAdd_apply _ rfl rfl rfl rfl, v39_apply']
  simp only [v40_ix2]
  rfl

/-- The row gather at the wrapped source column, scaled by the edge factor. -/
theorem gath_ix2 (H : FVec Ideal S50000x64 .f32) (e : Fin 800000) (d : Fin 64) :
    (mulf (Host.gather gather_S50000x64_S800000x1_S800000x64_1_0_n_n_0_1_164 H (val_main_v34 (F := Ideal) x13))
        (val_main_v37 (F := Ideal) x13)) (ix2 e d)
      = H (ix2 (srcp x13 e) d) * (dis x13 (srcp x13 e) * dis x13 (dstp x13 e)) := by
  show Host.gather gather_S50000x64_S800000x1_S800000x64_1_0_n_n_0_1_164 H (val_main_v34 (F := Ideal) x13) (ix2 e d)
    * val_main_v37 (F := Ideal) x13 (ix2 e d) = _
  rw [Cert.LibIndexed.row_gather_apply (by decide) _ rfl rfl rfl rfl rfl rfl rfl, v37_ix2]
  simp only [v34_ix2]
  rfl

end Cert.ReferenceIdeal.RefValue

end
-- ==== Proof.RefLayer.lean ====
/-
  One layer of the reference program over an arbitrary feature product H and bias b.

  The layer gathers the rows of H at the wrapped source words, scales row e by the edge factor, adds the scaled rows
  into zero at the destination words, adds the reciprocal degree times H and the bias row. At (n, d) this is

      ((0 + sum over the edges e counting for n of H (src e, d) * (dis (src e) * dis (dst e))) + dinv n * H (n, d)) + b d.
-/
import proofs.«141009_j73254962200757_2_alg».proof.Proof.RefScat

set_option maxRecDepth 16384

noncomputable section

open scoped BigOperators

namespace Cert.ReferenceIdeal.RefValue

open Cert.ReferenceIdeal Cert.ReferenceIdeal.Read Idealize.ShloMosaic Idealize.ShloMosaic.ValueIdx Cert.GCN

variable (x13 : IVec S2x800000 32)

/-- One layer of the reference program over a feature product H and a bias b. -/
def refLayer (H : FVec Ideal S50000x64 .f32) (b : FVec Ideal S64 .f32) (x13 : IVec S2x800000 32) : FVec Ideal S50000x64 .f32 :=
  addf (addf
    (Host.scatterAdd (F := Ideal) scatter_S50000x64_S800000x1_S800000x64_1_0_0_1 (val_main_v39 (F := Ideal)) (val_main_v40 (F := Ideal) x13)
      (mulf (Host.gather gather_S50000x64_S800000x1_S800000x64_1_0_n_n_0_1_164 H (val_main_v34 (F := Ideal) x13)) (val_main_v37 (F := Ideal) x13)))
    (mulf (val_main_v43 (F := Ideal) x13) H)) (val_main_v47 (F := Ideal) b)

theorem refLayer_ix2 (H : FVec Ideal S50000x64 .f32) (b : FVec Ideal S64 .f32) (n : Fin 50000) (d : Fin 64) :
    refLayer H b x13 (ix2 n d)
      = ((zero32 + ∑ e ∈ inEdges x13 n, H (ix2 (srcp x13 e) d) * (dis x13 (srcp x13 e) * dis x13 (dstp x13 e)))
          + dinv x13 n * H (ix2 n d)) + b (ix1 d) := by
  unfold refLayer
  rw [addf_apply, addf_apply, mulf_apply, scat_ix2, v43_ix2, v47_ix2]
  simp only [gath_ix2]

end Cert.ReferenceIdeal.RefValue

end
-- ==== Proof.LibDot.lean ====
/-
  A host matrix product with one contracted axis, read at one entry.

  Over the extended reals the host's product of an A by K matrix and a K by B matrix at entry (p, q) is the sum over k
  of l (p, k) r (k, q): there is no accumulator, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibDot

open Idealize.ShloMosaic Idealize.ShloMosaic.ValueIdx

/-- Entry (p, q) of the host's plain matrix product is the sum over the contracted axis. -/
theorem dotGeneral_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    Host.dotGeneral (F := Ideal) d prec l r (ix2 p q) = ∑ k : Fin K, l (ix2 p k) * r (ix2 k q) := by
  show FloatOps.dotGeneral d prec .single l r (ix2 p q) = _
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibDot

end
-- ==== Proof.RefDot.lean ====
/-
  The host product with one contracted axis, as the plain product: entry (p, q) is the sum over k of l (p, k) r (k, q).
-/
import proofs.«141009_j73254962200757_2_alg».proof.Proof.RefIdx
import proofs.«141009_j73254962200757_2_alg».proof.Proof.LibDot
import proofs.«141009_j73254962200757_2_alg».proof.Proof.LibPlainDims

set_option maxRecDepth 16384

noncomputable section

open scoped BigOperators

namespace Cert.ReferenceIdeal.RefValue

open Cert.ReferenceIdeal Cert.ReferenceIdeal.Read Idealize.ShloMosaic Idealize.ShloMosaic.ValueIdx Cert.GCN

open Cert.LibProd

/-- The host product with one contracted axis is the plain product. -/
theorem dot_eq_prod {A K B : ℕ} (d : DotDims (⟨2, ![A, K]⟩ : Shape) (⟨2, ![K, B]⟩ : Shape) (⟨2, ![A, B]⟩ : Shape))
    (pf : Cert.LibPlainDims.PlainFacts d)
    (l : FVec Ideal (⟨2, ![A, K]⟩ : Shape) .f32) (r : FVec Ideal (⟨2, ![K, B]⟩ : Shape) .f32) :
    Host.dotGeneral (F := Ideal) d none l r = prod l r := by
  funext i
  obtain ⟨p, q, rfl⟩ : ∃ (p : Fin A) (q : Fin B), i = ix2 p q := ⟨i 0, i 1, eq_ix2 i⟩
  rw [prod_ix2]
  exact Cert.LibDot.dotGeneral_ix2 d pf.rank pf.size pf.l0 pf.l1 pf.r0 pf.r1 none l r p q

theorem dot_N64 (l : FVec Ideal S50000x64 .f32) (r : FVec Ideal S64x64 .f32) :
    Host.dotGeneral (F := Ideal) dot_S50000x64_S64x64_S50000x64_1_0_0_1_n_n none l r = prod l r :=
  dot_eq_prod _ (Cert.LibPlainDims.plainFacts _ rfl rfl rfl rfl rfl rfl) l r

end Cert.ReferenceIdeal.RefValue

end
-- ==== Proof.RefLayers.lean ====
/-
  The three layers of the reference program: each is the layer over the plain product of the previous features
  and that layer's weights, so the features after the third layer are the three-fold composition of the layer
  in its arrangement with the edge factor inside the sum.
-/
import proofs.«141009_j73254962200757_2_alg».proof.Proof.RefLayer
import proofs.«141009_j73254962200757_2_alg».proof.Proof.RefDot

set_option maxRecDepth 16384

noncomputable section

open scoped BigOperators

namespace Cert.ReferenceIdeal.RefValue

open Cert.ReferenceIdeal Cert.ReferenceIdeal.Read Idealize.ShloMosaic Idealize.ShloMosaic.ValueIdx Cert.GCN

open Cert.LibProd

variable (x13 : IVec S2x800000 32)

/-- The layer over a plain product is the layer of the specification, the edge factor inside the sum. -/
theorem refLayer_prod (X : FVec Ideal S50000x64 .f32) (W : FVec Ideal S64x64 .f32) (b : FVec Ideal S64 .f32) :
    refLayer (prod X W) b x13 = layerIn x13 X W b := by
  funext i
  obtain ⟨n, d, rfl⟩ : ∃ (n : Fin 50000) (d : Fin 64), i = ix2 n d := ⟨i 0, i 1, eq_ix2 i⟩
  rw [refLayer_ix2]
  rfl

variable (x0 : FVec Ideal S50000x64 .f32) (x1 : FVec Ideal S64x64 .f32) (x2 : FVec Ideal S64 .f32)
  (x3 : FVec Ideal S64x64 .f32) (x4 : FVec Ideal S64 .f32) (x5 : FVec Ideal S64x64 .f32) (x6 : FVec Ideal S64 .f32)

theorem v48_eq : val_main_v48 (F := Ideal) x0 x1 x2 x13 = layerIn x13 x0 x1 x2 := by
  have h : val_main_v48 (F := Ideal) x0 x1 x2 x13 = refLayer (val_main_v28 (F := Ideal) x0 x1) x2 x13 := rfl
  rw [h, show val_main_v28 (F := Ideal) x0 x1 = prod x0 x1 from dot_N64 x0 x1, refLayer_prod]

theorem v69_eq : val_main_v69 (F := Ideal) x0 x1 x2 x3 x4 x13 = layerIn x13 (layerIn x13 x0 x1 x2) x3 x4 := by
  have h : val_main_v69 (F := Ideal) x0 x1 x2 x3 x4 x13 = refLayer (val_main_v49 (F := Ideal) x0 x1 x2 x3 x13) x4 x13 := rfl
  rw [h, show val_main_v49 (F := Ideal) x0 x1 x2 x3 x13 = prod (val_main_v48 (F := Ideal) x0 x1 x2 x13) x3 from dot_N64 _ _,
    v48_eq, refLayer_prod]

theorem v90_eq : val_main_v90 (F := Ideal) x0 x1 x2 x3 x4 x5 x6 x13
    = layerIn x13 (layerIn x13 (layerIn x13 x0 x1 x2) x3 x4) x5 x6 := by
  have h : val_main_v90 (F := Ideal) x0 x1 x2 x3 x4 x5 x6 x13
      = refLayer (val_main_v70 (F := Ideal) x0 x1 x2 x3 x4 x5 x13) x6 x13 := rfl
  rw [h, show val_main_v70 (F := Ideal) x0 x1 x2 x3 x4 x5 x13 = prod (val_main_v69 (F := Ideal) x0 x1 x2 x3 x4 x13) x5 from dot_N64 _ _,
    v69_eq, refLayer_prod]

end Cert.ReferenceIdeal.RefValue

end
-- ==== Proof.RefHead.lean ====
/-
  Pooling and the head of the reference program.

  The features after the third layer are added per graph at the batch word of each node, the counts likewise with
  ones; the sums are divided by max count 1 and sent through three affine maps (each a plain product plus a bias
  row) and the leaky rectifier, written as a comparison with zero and a selection.
-/
import proofs.«141009_j73254962200757_2_alg».proof.Proof.RefDot

set_option maxRecDepth 16384

noncomputable section

open scoped BigOperators

namespace Cert.ReferenceIdeal.RefValue

open Cert.ReferenceIdeal Cert.ReferenceIdeal.Read Idealize.ShloMosaic Idealize.ShloMosaic.ValueIdx Cert.GCN

open Cert.LibProd

variable (x14 : IVec S50000 32)

theorem v92_ix2 (n : Fin 50000) (u : Fin 1) : val_main_v92 (F := Ideal) x14 (ix2 n u) = x14 (ix1 n) := by
  rw [val_main_v92_apply]
  congr 1
  funext a
  match a with
  | ⟨0, _⟩ => rfl

theorem v96_ix2 (n : Fin 50000) (u : Fin 1) : val_main_v96 (F := Ideal) x14 (ix2 n u) = x14 (ix1 n) := by
  rw [val_main_v96_apply]
  congr 1
  funext a
  match a with
  | ⟨0, _⟩ => rfl

theorem v91_apply' (i : S512x64.Idx) : val_main_v91 (F := Ideal) i = zero32 := by
  rw [val_main_v91_apply, val_main_cst_15_apply]
  rfl

/-- The per-graph sums: zero plus the rows of the nodes counting for the graph. -/
theorem pool_sums (Y : FVec Ideal S50000x64 .f32) :
    Host.scatterAdd (F := Ideal) scatter_S512x64_S50000x1_S50000x64_1_0_0_1 (val_main_v91 (F := Ideal)) (val_main_v92 (F := Ideal) x14) Y
      = sums x14 Y := by
  funext i
  obtain ⟨g, d, rfl⟩ : ∃ (g : Fin 512) (d : Fin 64), i = ix2 g d := ⟨i 0, i 1, eq_ix2 i⟩
  rw [Cert.LibIndexed.row_host_scatterAdd_apply _ rfl rfl rfl rfl, v91_apply']
  simp only [v92_ix2]
  rfl

/-- The per-graph counts. -/
theorem v97_ix1 (g : Fin 512) : val_main_v97 (F := Ideal) x14 (ix1 g) = cnt x14 g := by
  unfold val_main_v97
  rw [Cert.LibIndexed.flat_host_scatterAdd_apply _ rfl rfl rfl rfl, val_main_v95_apply, val_main_cst_17_apply]
  simp only [v96_ix2, val_main_v94_apply, val_main_cst_16_apply]
  rfl

/-- max count 1, spread over the 64 columns. -/
theorem v101_ix2 (g : Fin 512) (d : Fin 64) : val_main_v101 (F := Ideal) x14 (ix2 g d) = max (cnt x14 g) one32 := by
  have hi : idx_main_v100 (idx_main_v101 (ix2 g d)) = ix1 g := by
    funext a
    match a with
    | ⟨0, _⟩ => rfl
  rw [val_main_v101_apply, val_main_v100_apply, hi, val_main_v99_apply, v97_ix1, val_main_v98_apply, val_main_cst_18_apply]
  rfl

theorem v105_ix2 (x8 : FVec Ideal S128 .f32) (g : Fin 512) (q : Fin 128) : val_main_v105 (F := Ideal) x8 (ix2 g q) = x8 (ix1 q) := by
  rw [val_main_v105_apply, val_main_v104_apply]
  congr 1
  funext a
  match a with
  | ⟨0, _⟩ => rfl

theorem v109_ix2 (x10 : FVec Ideal S1 .f32) (g : Fin 512) (u : Fin 1) : val_main_v109 (F := Ideal) x10 (ix2 g u) = x10 (ix1 u) := by
  rw [val_main_v109_apply, val_main_v108_apply]
  congr 1
  funext a
  match a with
  | ⟨0, _⟩ => exact Fin.ext (by show 0 = u.val; have := u.isLt; omega)

theorem v113_ix2 (x12 : FVec Ideal S1 .f32) (g : Fin 512) (u : Fin 1) : val_main_v113 (F := Ideal) x12 (ix2 g u) = x12 (ix1 u) := by
  rw [val_main_v113_apply, val_main_v112_apply]
  congr 1
  funext a
  match a with
  | ⟨0, _⟩ => exact Fin.ext (by show 0 = u.val; have := u.isLt; omega)

variable (x13 : IVec S2x800000 32)
variable (x0 : FVec Ideal S50000x64 .f32) (x1 : FVec Ideal S64x64 .f32) (x2 : FVec Ideal S64 .f32)
  (x3 : FVec Ideal S64x64 .f32) (x4 : FVec Ideal S64 .f32) (x5 : FVec Ideal S64x64 .f32) (x6 : FVec Ideal S64 .f32)
  (x7 : FVec Ideal S64x128 .f32) (x8 : FVec Ideal S128 .f32) (x9 : FVec Ideal S128x1 .f32) (x10 : FVec Ideal S1 .f32)
  (x11 : FVec Ideal S1x1 .f32) (x12 : FVec Ideal S1 .f32)

theorem v93_eq : val_main_v93 (F := Ideal) x0 x1 x2 x3 x4 x5 x6 x13 x14 = sums x14 (val_main_v90 (F := Ideal) x0 x1 x2 x3 x4 x5 x6 x13) :=
  pool_sums x14 _

theorem v102_eq : val_main_v102 (F := Ideal) x0 x1 x2 x3 x4 x5 x6 x13 x14 = (pooled (val_main_v93 (F := Ideal) x0 x1 x2 x3 x4 x5 x6 x13 x14) (col (cnt x14))) := by
  funext i
  obtain ⟨g, d, rfl⟩ : ∃ (g : Fin 512) (d : Fin 64), i = ix2 g d := ⟨i 0, i 1, eq_ix2 i⟩
  rw [val_main_v102_apply, v101_ix2, Ideal.hostDivf_def]
  rfl

theorem v103_eq : val_main_v103 (F := Ideal) x0 x1 x2 x3 x4 x5 x6 x7 x13 x14 = prod (pooled (val_main_v93 (F := Ideal) x0 x1 x2 x3 x4 x5 x6 x13 x14) (col (cnt x14))) x7 := by
  unfold val_main_v103
  rw [v102_eq]
  exact dot_eq_prod _ (Cert.LibPlainDims.plainFacts _ rfl rfl rfl rfl rfl rfl) _ _

theorem v106_eq : val_main_v106 (F := Ideal) x0 x1 x2 x3 x4 x5 x6 x7 x8 x13 x14 = (fun j => prod (pooled (val_main_v93 (F := Ideal) x0 x1 x2 x3 x4 x5 x6 x13 x14) (col (cnt x14))) x7 j + row x8 (ix2 (0 : Fin 1) (j 1)) : FVec Ideal S512x128 .f32) := by
  funext i
  obtain ⟨g, q, rfl⟩ : ∃ (g : Fin 512) (q : Fin 128), i = ix2 g q := ⟨i 0, i 1, eq_ix2 i⟩
  rw [val_main_v106_apply, v103_eq, v105_ix2]
  rfl

theorem v107_eq : val_main_v107 (F := Ideal) x0 x1 x2 x3 x4 x5 x6 x7 x8 x9 x13 x14 = prod (fun j => prod (pooled (val_main_v93 (F := Ideal) x0 x1 x2 x3 x4 x5 x6 x13 x14) (col (cnt x14))) x7 j + row x8 (ix2 (0 : Fin 1) (j 1)) : FVec Ideal S512x128 .f32) x9 := by
  unfold val_main_v107
  rw [v106_eq]
  exact dot_eq_prod _ (Cert.LibPlainDims.plainFacts _ rfl rfl rfl rfl rfl rfl) _ _

theorem v110_eq : val_main_v110 (F := Ideal) x0 x1 x2 x3 x4 x5 x6 x7 x8 x9 x10 x13 x14 = (fun j => prod (fun j => prod (pooled (val_main_v93 (F := Ideal) x0 x1 x2 x3 x4 x5 x6 x13 x14) (col (cnt x14))) x7 j + row x8 (ix2 (0 : Fin 1) (j 1)) : FVec Ideal S512x128 .f32) x9 j + row x10 (ix2 (0 : Fin 1) (j 1)) : FVec Ideal S512x1 .f32) := by
  funext i
  obtain ⟨g, q, rfl⟩ : ∃ (g : Fin 512) (q : Fin 1), i = ix2 g q := ⟨i 0, i 1, eq_ix2 i⟩
  rw [val_main_v110_apply, v107_eq, v109_ix2]
  rfl

theorem v111_eq : val_main_v111 (F := Ideal) x0 x1 x2 x3 x4 x5 x6 x7 x8 x9 x10 x11 x13 x14 = prod (fun j => prod (fun j => prod (pooled (val_main_v93 (F := Ideal) x0 x1 x2 x3 x4 x5 x6 x13 x14) (col (cnt x14))) x7 j + row x8 (ix2 (0 : Fin 1) (j 1)) : FVec Ideal S512x128 .f32) x9 j + row x10 (ix2 (0 : Fin 1) (j 1)) : FVec Ideal S512x1 .f32) x11 := by
  unfold val_main_v111
  rw [v110_eq]
  exact dot_eq_prod _ (Cert.LibPlainDims.plainFacts _ rfl rfl rfl rfl rfl rfl) _ _

theorem v114_eq : val_main_v114 (F := Ideal) x0 x1 x2 x3 x4 x5 x6 x7 x8 x9 x10 x11 x12 x13 x14 = (fun j => prod (fun j => prod (fun j => prod (pooled (val_main_v93 (F := Ideal) x0 x1 x2 x3 x4 x5 x6 x13 x14) (col (cnt x14))) x7 j + row x8 (ix2 (0 : Fin 1) (j 1)) : FVec Ideal S512x128 .f32) x9 j + row x10 (ix2 (0 : Fin 1) (j 1)) : FVec Ideal S512x1 .f32) x11 j + row x12 (ix2 (0 : Fin 1) (j 1)) : FVec Ideal S512x1 .f32) := by
  funext i
  obtain ⟨g, q, rfl⟩ : ∃ (g : Fin 512) (q : Fin 1), i = ix2 g q := ⟨i 0, i 1, eq_ix2 i⟩
  rw [val_main_v114_apply, v111_eq, v113_ix2]
  rfl

theorem v119_eq : val_main_v119 (F := Ideal) x0 x1 x2 x3 x4 x5 x6 x7 x8 x9 x10 x11 x12 x13 x14
    = headK (val_main_v93 (F := Ideal) x0 x1 x2 x3 x4 x5 x6 x13 x14) (col (cnt x14)) x7 (row x8) x9 (row x10) x11 (row x12) := by
  funext i
  rw [val_main_v119_apply, val_main_v116_apply, val_main_v118_apply, v114_eq, val_main_v115_apply, val_main_cst_19_apply,
    val_main_v117_apply, val_main_cst_20_apply, Ideal.cmpf_def, Ideal.mulf_def]
  rfl

end Cert.ReferenceIdeal.RefValue

end
-- ==== Proof.RefValue.lean ====
/-
  The reference program's result is the network of the specification, its layers in the arrangement that keeps
  the edge factor dis (src e) * dis (dst e) inside the edge sum.
-/
import proofs.«141009_j73254962200757_2_alg».proof.Proof.RefLayers
import proofs.«141009_j73254962200757_2_alg».proof.Proof.RefHead

set_option maxRecDepth 16384

noncomputable section

open scoped BigOperators

namespace Cert.ReferenceIdeal.RefValue

open Cert.ReferenceIdeal Cert.ReferenceIdeal.Read Idealize.ShloMosaic Idealize.ShloMosaic.ValueIdx Cert.GCN

theorem ref_value (x0 : FVec Ideal S50000x64 .f32) (x1 : FVec Ideal S64x64 .f32) (x2 : FVec Ideal S64 .f32)
    (x3 : FVec Ideal S64x64 .f32) (x4 : FVec Ideal S64 .f32) (x5 : FVec Ideal S64x64 .f32) (x6 : FVec Ideal S64 .f32)
    (x7 : FVec Ideal S64x128 .f32) (x8 : FVec Ideal S128 .f32) (x9 : FVec Ideal S128x1 .f32) (x10 : FVec Ideal S1 .f32)
    (x11 : FVec Ideal S1x1 .f32) (x12 : FVec Ideal S1 .f32) (x13 : IVec S2x800000 32) (x14 : IVec S50000 32) :
    Cert.ReferenceIdeal.Read.val_main_v119 (F := Ideal) x0 x1 x2 x3 x4 x5 x6 x7 x8 x9 x10 x11 x12 x13 x14
      = Cert.GCN.net Cert.GCN.layerIn x0 x1 x2 x3 x4 x5 x6 x7 x8 x9 x10 x11 x12 x13 x14 := by
  rw [v119_eq, v93_eq, v90_eq]
  rfl

end Cert.ReferenceIdeal.RefValue

end
-- ==== Proof.Algebra.lean ====
/-
  The two arrangements of a layer are one function.

  For a node n every edge e counting for n has destination word n, read signed; such a word is not negative, so
  wrapping leaves it alone and clamping finds row n: dis (dst e) = dis n on the whole sum. The factor dis n is the
  reciprocal square root of deg n = (number of edges counting for n) + 1 > 0, hence a real number >= 0, and a
  non-negative real factor distributes over any sum of extended reals (no finiteness of the summands is needed):

    dis n * sum_e (H (src e, d) * dis (src e)) = sum_e H (src e, d) * (dis (src e) * dis n).
-/
import proofs.«141009_j73254962200757_2_alg».proof.Proof.Spec
import proofs.«141009_j73254962200757_2_alg».proof.Proof.SpecApply
import Mathlib.Data.EReal.Operations

noncomputable section

open scoped BigOperators

namespace Cert.GCN

open Idealize.ShloMosaic Idealize.ShloMosaic.ValueIdx Cert.LibProd

theorem zero32_eq : zero32 = 0 := Ideal.ofBits_zero_f32

theorem one32_eq : one32 = 1 := by
  show Ideal.ofBits .f32 0x3F800000#32 = 1
  simp [Ideal.ofBits, Ideal.ieee, -EReal.coe_mul]; norm_num

/-- The degree with its self loop is positive. -/
theorem deg_pos (ei : IVec SEI 32) (n : Fin 50000) : 0 < deg ei n := by
  unfold deg
  rw [zero32_eq, one32_eq, zero_add]
  have h : (0 : EReal) ≤ ∑ _e ∈ inEdges ei n, (1 : EReal) := Finset.sum_nonneg fun _ _ => zero_le_one
  exact lt_of_lt_of_le zero_lt_one (le_add_of_nonneg_left h)

/-- The reciprocal square root of a positive extended real is a non-negative real. -/
theorem rsqrt_nonneg_ne_top {x : EReal} (h : 0 < x) : 0 ≤ Ideal.rsqrt x ∧ Ideal.rsqrt x ≠ ⊤ := by
  induction x using EReal.rec with
  | bot => exact absurd h (by simp)
  | top => exact ⟨le_of_eq rfl, by show (0 : EReal) ≠ ⊤; exact EReal.zero_ne_top⟩
  | coe r =>
    have hr : 0 < r := by exact_mod_cast h
    have e : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    rw [e]
    exact ⟨by exact_mod_cast inv_nonneg.mpr (Real.sqrt_nonneg r), EReal.coe_ne_top _⟩

theorem dis_nonneg (ei : IVec SEI 32) (n : Fin 50000) : 0 ≤ dis ei n := (rsqrt_nonneg_ne_top (deg_pos ei n)).1
theorem dis_ne_top (ei : IVec SEI 32) (n : Fin 50000) : dis ei n ≠ ⊤ := (rsqrt_nonneg_ne_top (deg_pos ei n)).2

/-- A non-negative real factor moves inside a finite sum of extended reals. -/
theorem mul_sum_of_nonneg_ne_top {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- A word whose signed value is a row number is its own wrapped and clamped row. -/
theorem gpos_wrapN_of_toInt (v : BitVec 32) (n : Fin 50000) (h : v.toInt = (n.val : ℤ)) : gpos (wrapN v) = n := by
  have hn := n.isLt
  have hs : v.slt 0#32 = false := by
    rw [BitVec.slt_eq_decide, decide_eq_false_iff_not, h]
    show ¬ ((n.val : ℤ) < (0#32 : BitVec 32).toInt)
    rw [BitVec.toInt_zero]; omega
  have hw : wrapN v = v := by
    unfold wrapN IntOp.cmpi Scalar.select
    simp only [hs]
    rw [if_neg (by decide)]
  rw [hw]
  refine Fin.ext ?_
  show min v.toInt.toNat (50000 - 1) = n.val
  rw [h, Int.toNat_natCast]; omega

theorem dstp_of_mem {ei : IVec SEI 32} {n : Fin 50000} {e : Fin 800000} (he : e ∈ inEdges ei n) : dstp ei e = n :=
  gpos_wrapN_of_toInt _ n (Finset.mem_filter.mp he).2

set_option maxRecDepth 65536 in
/-- The layer with the factor inside, read at a node and a feature. -/
theorem layerIn_apply (ei : IVec SEI 32) (X : FVec Ideal SN64 .f32) (W : FVec Ideal (⟨2, ![64, 64]⟩ : Shape) .f32)
    (b : FVec Ideal (⟨1, ![64]⟩ : Shape) .f32) (n : Fin 50000) (d : Fin 64) :
    layerIn ei X W b (ix2 n d)
      = ((zero32 + ∑ e ∈ inEdges ei n, prod X W (ix2 (srcp ei e) d) * (dis ei (srcp ei e) * dis ei (dstp ei e)))
        + dinv ei n * prod X W (ix2 n d)) + b (ix1 d) := rfl

/-- The layer with the factor outside, read at a node and a feature. -/
theorem layer_apply (ei : IVec SEI 32) (X : FVec Ideal SN64 .f32) (W : FVec Ideal (⟨2, ![64, 64]⟩ : Shape) .f32)
    (b : FVec Ideal (⟨1, ![64]⟩ : Shape) .f32) (n : Fin 50000) (d : Fin 64) :
    layer ei X W b (ix2 n d)
      = (dis ei n * (zero32 + ∑ e ∈ inEdges ei n, prod X W (ix2 (srcp ei e) d) * dis ei (srcp ei e))
        + dinv ei n * prod X W (ix2 n d)) + b (ix1 d) := by
  unfold layer
  rw [combine_apply, edgeSum_apply, col_apply, col_apply, row_apply]
  simp only [scaled_apply, col_apply]

/-- The layer with the factor inside the sum is the layer with it outside. -/
theorem layerIn_eq_layer (ei : IVec SEI 32) (X : FVec Ideal SN64 .f32) (W : FVec Ideal (⟨2, ![64, 64]⟩ : Shape) .f32)
    (b : FVec Ideal (⟨1, ![64]⟩ : Shape) .f32) : layerIn ei X W b = layer ei X W b := by
  funext i
  obtain ⟨n, d, rfl⟩ : ∃ (n : Fin 50000) (d : Fin 64), i = ix2 n d := ⟨i 0, i 1, eq_ix2 i⟩
  rw [layerIn_apply, layer_apply]
  refine congrArg (· + b (ix1 d)) (congrArg (· + dinv ei n * prod X W (ix2 n d)) ?_)
  rw [zero32_eq, zero_add, zero_add, mul_sum_of_nonneg_ne_top _ _ (dis_nonneg ei n) (dis_ne_top ei n)]
  refine Finset.sum_congr rfl fun e he => ?_
  rw [dstp_of_mem he, ← mul_assoc, mul_comm]

/-- The whole network does not depend on the arrangement of its layers. -/
theorem net_layerIn_eq : net layerIn = net layer := by
  have h : layerIn = layer := by funext ei X W b; exact layerIn_eq_layer ei X W b
  rw [h]

end Cert.GCN

end
-- ==== Proof.lean ====
/-
  The certificate: a three-layer graph convolution network with mean pooling and a small head, as a TPU kernel
  program of seven launches, against its plain reference, over the extended reals.

  Both programs compute, for every node n, deg n = (number of edges arriving at n) + 1, dis n = 1 / sqrt (deg n) and
  dinv n = 1 / deg n, and three times a layer built on H = X W. The reference scales every edge's message
  H (src e) by dis (src e) * dis (dst e) and sums the messages arriving at n; the kernel program scales H row by row
  by dis first, sums the rows arriving at n, and multiplies the sum by dis n afterwards. An edge arriving at n has
  dst e = n, and dis n is a non-negative real (deg n >= 1), so the factor distributes over the sum whatever the
  summands are: the two layers are one function. The products are the same sums over the contracted axis (rounding
  the factors to a narrower format is the identity here), and the pooling and the head are the same operations.

  The idealized kernel's value is read off its generated frame: each launch's output array is one whole-array
  function of its input arrays, and the host's steps between the launches are read at an index. The reference's
  value is read off its generated run, one operation at a time. The three frame claims are the generated frames
  (the reference's is its run with the result dropped); the idealization rewrote nothing.
-/
import proofs.«141009_j73254962200757_2_alg».proof.Defs
import proofs.«141009_j73254962200757_2_alg».proof.Proof.Gen.Kernel
import proofs.«141009_j73254962200757_2_alg».proof.Proof.Gen.Kernel.Skeleton
import proofs.«141009_j73254962200757_2_alg».proof.Proof.Gen.Kernel.Launch
import proofs.«141009_j73254962200757_2_alg».proof.Proof.Gen.Kernel.Points
import proofs.«141009_j73254962200757_2_alg».proof.Proof.Gen.Kernel.Frame
import proofs.«141009_j73254962200757_2_alg».proof.Proof.Gen.KernelIdeal
import proofs.«141009_j73254962200757_2_alg».proof.Proof.Gen.KernelIdeal.Skeleton
import proofs.«141009_j73254962200757_2_alg».proof.Proof.Gen.KernelIdeal.Launch
import proofs.«141009_j73254962200757_2_alg».proof.Proof.Gen.KernelIdeal.Points
import proofs.«141009_j73254962200757_2_alg».proof.Proof.Gen.KernelIdeal.Frame
import proofs.«141009_j73254962200757_2_alg».proof.Proof.Gen.ReferenceIdeal
import proofs.«141009_j73254962200757_2_alg».proof.Proof.Gen.Pre_finite_inputs
import proofs.«141009_j73254962200757_2_alg».proof.Proof.Gen.ReferenceIdeal.Run
import proofs.«141009_j73254962200757_2_alg».proof.Proof.Gen.ReferenceIdeal.Read
import proofs.«141009_j73254962200757_2_alg».proof.Proof.KRun
import proofs.«141009_j73254962200757_2_alg».proof.Proof.KValue
import proofs.«141009_j73254962200757_2_alg».proof.Proof.RefValue
import proofs.«141009_j73254962200757_2_alg».proof.Proof.Algebra
import Idealize.ShloMosaic.Adequacy
import Idealize.ShloMosaic.Init

set_option maxRecDepth 16384

noncomputable section

namespace Cert.Proof

open Idealize.ShloMosaic Idealize.SL.Sem

theorem frame_k [Cert.Kernel.Facts] [Cert.Pre_finite_inputs.Facts] : Cert.frame_Kernel := fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both runs end with the result at the specification's network of the arguments, which agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.GCN.net Cert.GCN.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Hand.kernel_value m ρ c), (h c).2⟩)
      (Cert.KernelIdeal.Hand.run (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8, e9, e10, e11, e12, e13, e14⟩ := hagree c
    rw [(h c).1, Cert.ReferenceIdeal.Read.val_main_v119_eq, Cert.ReferenceIdeal.RefValue.ref_value,
      Cert.GCN.net_layerIn_eq, e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
